-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg25 : FVec F S16x1 .f32) (main_arg26 : FVec F S1 .f32) (main_v118 : IVec S_ 1) (main_v119 : FVec F S16 .f32) : IVec S_ 1 :=
  let main_cst_46 : FVec F S_ .f32 := constant S_ .f32 0x7F800000#32
  let main_v120 : FVec F S16 .f32 := broadcastInDim S16 ![] bcast_S_S16 main_cst_46
  let main_v121 : IVec S16 1 := cmpf .olt main_v119 main_v120
  let main_c_47 : IVec S_ 1 := constantI S_ 1 1#1
  let main_v122 : IVec S_ 1 := (fun x v => Host.reduce IntOp.andi x v reducesTo_S16_S_d0 h_S_) main_v121 main_c_47
  let main_v123 : IVec S_ 1 := andi main_v118 main_v122
  let main_v124 : FVec F S16x1 .f32 := Host.absf main_arg25
  let main_cst_48 : FVec F S_ .f32 := constant S_ .f32 0x7F800000#32
  let main_v125 : FVec F S16x1 .f32 := broadcastInDim S16x1 ![] bcast_S_S16x1 main_cst_48
  let main_v126 : IVec S16x1 1 := cmpf .olt main_v124 main_v125
  let main_c_49 : IVec S_ 1 := constantI S_ 1 1#1
  let main_v127 : IVec S_ 1 := (fun x v => Host.reduce IntOp.andi x v reducesTo_S16x1_S_d0_1 h_S_) main_v126 main_c_49
  let main_v128 : IVec S_ 1 := andi main_v123 main_v127
  let main_v129 : FVec F S1 .f32 := Host.absf main_arg26
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S1024x512 .f32 := Host.absf main_arg21
  let main_cst_40 : FVec F S_ .f32 := constant S_ .f32 0x7F800000#32
  let main_v105 : FVec F S1024x512 .f32 := broadcastInDim S1024x512 ![] bcast_S_S1024x512 main_cst_40
  let main_v106 : IVec S1024x512 1 := cmpf .olt main_v104 main_v105
  let main_c_41 : IVec S_ 1 := constantI S_ 1 1#1
  let main_v107 : IVec S_ 1 := (fun x v => Host.reduce IntOp.andi x v reducesTo_S1024x512_S_d0_1 h_S_) main_v106 main_c_41
  let main_v108 : IVec S_ 1 := andi main_v103 main_v107
  let main_v109 : FVec F S512 .f32 := Host.absf main_arg22
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512x16 .f32 := Host.absf main_arg23
  let main_cst_44 : FVec F S_ .f32 := constant S_ .f32 0x7F800000#32
  let main_v115 : FVec F S512x16 .f32 := broadcastInDim S512x16 ![] bcast_S_S512x16 main_cst_44
  let main_v116 : IVec S512x16 1 := cmpf .olt main_v114 main_v115
  let main_c_45 : IVec S_ 1 := constantI S_ 1 1#1
  let main_v117 : IVec S_ 1 := (fun x v => Host.reduce IntOp.andi x v reducesTo_S512x16_S_d0_1 h_S_) main_v116 main_c_45
  let main_v118 : IVec S_ 1 := andi main_v113 main_v117
  let main_v119 : FVec F S16 .f32 := Host.absf main_arg24
  fn_part7 (F := F) main_arg25 main_arg26 main_v118 main_v119

def fn_part5 {F : FTy → Type} [FloatOps F] (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v83 : IVec S_ 1) (main_v84 : FVec F S512x16 .f32) (main_cst_32 : FVec F S_ .f32) : IVec S_ 1 :=
  let main_v85 : FVec F S512x16 .f32 := broadcastInDim S512x16 ![] bcast_S_S512x16 main_cst_32
  let main_v86 : IVec S512x16 1 := cmpf .olt main_v84 main_v85
  let main_c_33 : IVec S_ 1 := constantI S_ 1 1#1
  let main_v87 : IVec S_ 1 := (fun x v => Host.reduce IntOp.andi x v reducesTo_S512x16_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x1 .f32 := Host.absf main_arg19
  let main_cst_36 : FVec F S_ .f32 := constant S_ .f32 0x7F800000#32
  let main_v95 : FVec F S16x1 .f32 := broadcastInDim S16x1 ![] bcast_S_S16x1 main_cst_36
  let main_v96 : IVec S16x1 1 := cmpf .olt main_v94 main_v95
  let main_c_37 : IVec S_ 1 := constantI S_ 1 1#1
  let main_v97 : IVec S_ 1 := (fun x v => Host.reduce IntOp.andi x v reducesTo_S16x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1024x512 .f32 := Host.absf main_arg15
  let main_cst_28 : FVec F S_ .f32 := constant S_ .f32 0x7F800000#32
  let main_v75 : FVec F S1024x512 .f32 := broadcastInDim S1024x512 ![] bcast_S_S1024x512 main_cst_28
  let main_v76 : IVec S1024x512 1 := cmpf .olt main_v74 main_v75
  let main_c_29 : IVec S_ 1 := constantI S_ 1 1#1
  let main_v77 : IVec S_ 1 := (fun x v => Host.reduce IntOp.andi x v reducesTo_S1024x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x16 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S512x16 .f32) (main_arg12 : FVec F S16 .f32) (main_arg13 : FVec F S16x1 .f32) (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x16 .f32 := Host.absf main_arg11
  let main_cst_20 : FVec F S_ .f32 := constant S_ .f32 0x7F800000#32
  let main_v55 : FVec F S512x16 .f32 := broadcastInDim S512x16 ![] bcast_S_S512x16 main_cst_20
  let main_v56 : IVec S512x16 1 := cmpf .olt main_v54 main_v55
  let main_c_21 : IVec S_ 1 := constantI S_ 1 1#1
  let main_v57 : IVec S_ 1 := (fun x v => Host.reduce IntOp.andi x v reducesTo_S512x16_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x1 .f32 := Host.absf main_arg13
  let main_cst_24 : FVec F S_ .f32 := constant S_ .f32 0x7F800000#32
  let main_v65 : FVec F S16x1 .f32 := broadcastInDim S16x1 ![] bcast_S_S16x1 main_cst_24
  let main_v66 : IVec S16x1 1 := cmpf .olt main_v64 main_v65
  let main_c_25 : IVec S_ 1 := constantI S_ 1 1#1
  let main_v67 : IVec S_ 1 := (fun x v => Host.reduce IntOp.andi x v reducesTo_S16x1_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S16x1 .f32) (main_arg8 : FVec F S1 .f32) (main_arg9 : FVec F S1024x512 .f32) (main_arg10 : FVec F S512 .f32) (main_arg11 : FVec F S512x16 .f32) (main_arg12 : FVec F S16 .f32) (main_arg13 : FVec F S16x1 .f32) (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S512 .f32) (main_arg5 : FVec F S512x16 .f32) (main_arg6 : FVec F S16 .f32) (main_arg7 : FVec F S16x1 .f32) (main_arg8 : FVec F S1 .f32) (main_arg9 : FVec F S1024x512 .f32) (main_arg10 : FVec F S512 .f32) (main_arg11 : FVec F S512x16 .f32) (main_arg12 : FVec F S16 .f32) (main_arg13 : FVec F S16x1 .f32) (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x16 .f32 := Host.absf main_arg5
  let main_cst_8 : FVec F S_ .f32 := constant S_ .f32 0x7F800000#32
  let main_v25 : FVec F S512x16 .f32 := broadcastInDim S512x16 ![] bcast_S_S512x16 main_cst_8
  let main_v26 : IVec S512x16 1 := cmpf .olt main_v24 main_v25
  let main_c_9 : IVec S_ 1 := constantI S_ 1 1#1
  let main_v27 : IVec S_ 1 := (fun x v => Host.reduce IntOp.andi x v reducesTo_S512x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S16384x512 .f32) (main_arg1 : FVec F S16384x512 .f32) (main_arg2 : FVec F S16384x512 .f32) (main_arg3 : FVec F S1024x512 .f32) (main_arg4 : FVec F S512 .f32) (main_arg5 : FVec F S512x16 .f32) (main_arg6 : FVec F S16 .f32) (main_arg7 : FVec F S16x1 .f32) (main_arg8 : FVec F S1 .f32) (main_arg9 : FVec F S1024x512 .f32) (main_arg10 : FVec F S512 .f32) (main_arg11 : FVec F S512x16 .f32) (main_arg12 : FVec F S16 .f32) (main_arg13 : FVec F S16x1 .f32) (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S16384x512 : Shape := ⟨2, ![16384, 512]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S16x1 : Shape := ⟨2, ![16, 1]⟩
abbrev S1 : Shape := ⟨1, ![1]⟩
abbrev S512x512 : Shape := ⟨2, ![512, 512]⟩
abbrev S512x2048 : Shape := ⟨2, ![512, 2048]⟩
abbrev S2048 : Shape := ⟨1, ![2048]⟩
abbrev S_ : Shape := ⟨0, ![]⟩
abbrev S2048x64 : Shape := ⟨2, ![2048, 64]⟩
abbrev S2 : Shape := ⟨1, ![2]⟩
abbrev S64 : Shape := ⟨1, ![64]⟩
abbrev S64x4 : Shape := ⟨2, ![64, 4]⟩
abbrev S4 : Shape := ⟨1, ![4]⟩
abbrev S1x2048 : Shape := ⟨2, ![1, 2048]⟩
abbrev S512x64 : Shape := ⟨2, ![512, 64]⟩
abbrev S1x64 : Shape := ⟨2, ![1, 64]⟩
abbrev S512x4 : Shape := ⟨2, ![512, 4]⟩
abbrev S1x4 : Shape := ⟨2, ![1, 4]⟩
abbrev S512x1 : Shape := ⟨2, ![512, 1]⟩

abbrev nBuf : Space → Nat
  | .hbm => 98
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S512, .f32⟩
  | .hbm, ⟨5, _⟩ => ⟨S512x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1024x512, .f32⟩
  | .hbm, ⟨10, _⟩ => ⟨S512, .f32⟩
  | .hbm, ⟨11, _⟩ => ⟨S512x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S1024x512, .f32⟩
  | .hbm, ⟨16, _⟩ => ⟨S512, .f32⟩
  | .hbm, ⟨17, _⟩ => ⟨S512x16, .f32⟩
  | .hbm, ⟨18, _⟩ => ⟨S16, .f32⟩
  | .hbm, ⟨19, _⟩ => ⟨S16x1, .f32⟩
  | .hbm, ⟨20, _⟩ => ⟨S1, .f32⟩
  | .hbm, ⟨21, _⟩ => ⟨S1024x512, .f32⟩
  | .hbm, ⟨22, _⟩ => ⟨S512, .f32⟩
  | .hbm, ⟨23, _⟩ => ⟨S512x16, .f32⟩
  | .hbm, ⟨24, _⟩ => ⟨S16, .f32⟩
  | .hbm, ⟨25, _⟩ => ⟨S16x1, .f32⟩
  | .hbm, ⟨26, _⟩ => ⟨S1, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x2048, .f32⟩
  | .hbm, ⟨32, _⟩ => ⟨S512x2048, .bf16⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x2048, .f32⟩
  | .hbm, ⟨38, _⟩ => ⟨S512x2048, .bf16⟩
  | .hbm, ⟨39, _⟩ => ⟨S2048, .f32⟩
  | .hbm, ⟨40, _⟩ => ⟨S_, .f32⟩
  | .hbm, ⟨41, _⟩ => ⟨S2048x64, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S2048x64, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S2048x64, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S2048x64, .f32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S2, .i32⟩
  | .hbm, ⟨65, _⟩ => ⟨S2048x64, .f32⟩
  | .hbm, ⟨66, _⟩ => ⟨S2048x64, .bf16⟩
  | .hbm, ⟨67, _⟩ => ⟨S64, .f32⟩
  | .hbm, ⟨68, _⟩ => ⟨S_, .f32⟩
  | .hbm, ⟨69, _⟩ => ⟨S64x4, .f32⟩
  | .hbm, ⟨70, _⟩ => ⟨S_, .i32⟩
  | .hbm, ⟨71, _⟩ => ⟨S1, .i32⟩
  | .hbm, ⟨72, _⟩ => ⟨S_, .i32⟩
  | .hbm, ⟨73, _⟩ => ⟨S1, .i32⟩
  | .hbm, ⟨74, _⟩ => ⟨S2, .i32⟩
  | .hbm, ⟨75, _⟩ => ⟨S64x4, .f32⟩
  | .hbm, ⟨76, _⟩ => ⟨S_, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S2, .i32⟩
  | .hbm, ⟨81, _⟩ => ⟨S64x4, .f32⟩
  | .hbm, ⟨82, _⟩ => ⟨S_, .i32⟩
  | .hbm, ⟨83, _⟩ => ⟨S1, .i32⟩
  | .hbm, ⟨84, _⟩ => ⟨S_, .i32⟩
  | .hbm, ⟨85, _⟩ => ⟨S1, .i32⟩
  | .hbm, ⟨86, _⟩ => ⟨S2, .i32⟩
  | .hbm, ⟨87, _⟩ => ⟨S64x4, .f32⟩
  | .hbm, ⟨88, _⟩ => ⟨S_, .i32⟩
  | .hbm, ⟨89, _⟩ => ⟨S1, .i32⟩
  | .hbm, ⟨90, _⟩ => ⟨S_, .i32⟩
  | .hbm, ⟨91, _⟩ => ⟨S1, .i32⟩
  | .hbm, ⟨92, _⟩ => ⟨S2, .i32⟩
  | .hbm, ⟨93, _⟩ => ⟨S64x4, .f32⟩
  | .hbm, ⟨94, _⟩ => ⟨S64x4, .bf16⟩
  | .hbm, ⟨95, _⟩ => ⟨S4, .f32⟩
  | .hbm, ⟨96, _⟩ => ⟨S16384x512, .f32⟩
  | .hbm, ⟨97, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S2048, .f32⟩
  | .local _ .vmem, ⟨9, _⟩ => ⟨S2048x64, .bf16⟩
  | .local _ .vmem, ⟨10, _⟩ => ⟨S64, .f32⟩
  | .local _ .vmem, ⟨11, _⟩ => ⟨S64x4, .bf16⟩
  | .local _ .vmem, ⟨12, _⟩ => ⟨S4, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_c : Ref sig .tc := ⟨.hbm, 42, rfl⟩
abbrev main_v14 : Ref sig .tc := ⟨.hbm, 43, rfl⟩
abbrev main_c_0 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_1 : Ref sig .tc := ⟨.hbm, 48, rfl⟩
abbrev main_v18 : Ref sig .tc := ⟨.hbm, 49, rfl⟩
abbrev main_c_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_3 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_5 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_7 : Ref sig .tc := ⟨.hbm, 68, rfl⟩
abbrev main_v32 : Ref sig .tc := ⟨.hbm, 69, rfl⟩
abbrev main_c_8 : Ref sig .tc := ⟨.hbm, 70, rfl⟩
abbrev main_v33 : Ref sig .tc := ⟨.hbm, 71, rfl⟩
abbrev main_c_9 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_10 : Ref sig .tc := ⟨.hbm, 76, rfl⟩
abbrev main_v37 : Ref sig .tc := ⟨.hbm, 77, rfl⟩
abbrev main_c_11 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_c_13 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_c_14 : Ref sig .tc := ⟨.hbm, 88, rfl⟩
abbrev main_v45 : Ref sig .tc := ⟨.hbm, 89, rfl⟩
abbrev main_c_15 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51_0 : Ref sig .tc := ⟨.hbm, 96, rfl⟩
abbrev main_v51_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x4 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x512_S512x512_0_0 : S1024x512.Slices ![0, 0] S512x512
  concatenates_S512x512_S512x512_S512x512_S512x512_S512x2048_d1 : Shape.Concatenates [S512x512, S512x512, S512x512, S512x512] S512x2048 1
  bitsLt_bf16_f32 : FTy.bits .bf16 < FTy.bits .f32
  slices_S1024x512_S512x512_512_0 : S1024x512.Slices ![512, 0] S512x512
  concatenates_S512_S512_S512_S512_S2048_d0 : Shape.Concatenates [S512, S512, S512, S512] S2048 0
  bcast_S_S2048x64 : S_.BroadcastsInDim S2048x64 (![] : Fin 0 → Fin S2048x64.rank)
  bcast_S_S1 : S_.BroadcastsInDim S1 (![] : Fin 0 → Fin S1.rank)
  concatenates_S1_S1_S2_d0 : Shape.Concatenates [S1, S1] S2 0
  concatenates_S16_S16_S16_S16_S64_d0 : Shape.Concatenates [S16, S16, S16, S16] S64 0
  bcast_S_S64x4 : S_.BroadcastsInDim S64x4 (![] : Fin 0 → Fin S64x4.rank)
  concatenates_S1_S1_S1_S1_S4_d0 : Shape.Concatenates [S1, S1, S1, S1] S4 0
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S512x64 : S1x64.Broadcasts S512x64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S4_S4_0 : ∀ a, (![0] : Fin 1 → Nat) a + S4.size a ≤ S4.size a
  h_S4 : 0 < S4.numel
  shapeCasts_S4_S4 : S4.ShapeCasts S4
  shapeCasts_S4_S1x4 : S4.ShapeCasts S1x4
  broadcasts_S1x4_S512x4 : S1x4.Broadcasts S512x4
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  broadcasts_S512x1_S512x512 : S512x1.Broadcasts S512x512
  scatter_S2048x64_S2_S512x16_01_n_01_0_wf : ScatterDims.WF S2048x64 S2 S512x16 [0, 1] [] [0, 1] 0
  scatter_S64x4_S2_S16x1_01_n_01_0_wf : ScatterDims.WF S64x4 S2 S16x1 [0, 1] [] [0, 1] 0
  dot_S512x512_S512x2048_S512x2048_1_0_0_1_n_n_wf : DotDims.WF S512x512 S512x2048 S512x2048 [1] [0] [0] [1] [] []
  dot_S512x2048_S2048x64_S512x64_1_0_0_1_n_n_wf : DotDims.WF S512x2048 S2048x64 S512x64 [1] [0] [0] [1] [] []
  dot_S512x64_S64x4_S512x4_1_0_0_1_n_n_wf : DotDims.WF S512x64 S64x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S2048x64.size a
  hwx0_6 : ∀ i : grid0.Coords, EltTy.bits .bf16 = 32 ∨ (Rect.block (s := S2048x64) S2048x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x4.size a ≤ S64x4.size a
  hwx0_8 : ∀ i : grid0.Coords, EltTy.bits .bf16 = 32 ∨ (Rect.block (s := S64x4) S64x4.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4.size a ≤ S4.size a
  hwx0_9 : ∀ i : grid0.Coords, EltTy.bits .f32 = 32 ∨ (Rect.block (s := S4) S4.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S16384x512.size a
  hwx0_10 : ∀ i : grid0.Coords, EltTy.bits .f32 = 32 ∨ (Rect.block (s := S16384x512) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S16384x512.size a
  hwx0_11 : ∀ i : grid0.Coords, EltTy.bits .f32 = 32 ∨ (Rect.block (s := S16384x512) S512x512.size (cc0_transform_11 i) (hinb0_11 i)).WholeWords (EltTy.packing .f32)

variable [Facts₀]

def scatter_S2048x64_S2_S512x16_01_n_01_0 : ScatterDims S2048x64 S2 S512x16 where
  updateWindowDims := [0, 1]
  insertedWindowDims := []
  scatterDimsToOperandDims := [0, 1]
  indexVectorDim := 0
  wf := scatter_S2048x64_S2_S512x16_01_n_01_0_wf
def scatter_S64x4_S2_S16x1_01_n_01_0 : ScatterDims S64x4 S2 S16x1 where
  updateWindowDims := [0, 1]
  insertedWindowDims := []
  scatterDimsToOperandDims := [0, 1]
  indexVectorDim := 0
  wf := scatter_S64x4_S2_S16x1_01_n_01_0_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x4_S512x4_1_0_0_1_n_n : DotDims S512x64 S64x4 S512x4 where
  lhsContracting := [1]
  rhsContracting := [0]
  lhsNonContracting := [0]
  rhsNonContracting := [1]
  lhsBatch := []
  rhsBatch := []
  wf := dot_S512x64_S64x4_S512x4_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S2048x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v49) S64x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v51_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v51_1) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S16x1 : Shape := ⟨2, ![16, 1]⟩
abbrev S1 : Shape := ⟨1, ![1]⟩
abbrev S16384x1024 : Shape := ⟨2, ![16384, 1024]⟩
abbrev S1x512 : Shape := ⟨2, ![1, 512]⟩
abbrev S16384x16 : Shape := ⟨2, ![16384, 16]⟩
abbrev S1x16 : Shape := ⟨2, ![1, 16]⟩
abbrev S_ : Shape := ⟨0, ![]⟩
abbrev S16384x1 : Shape := ⟨2, ![16384, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S512, .f32⟩
  | .hbm, ⟨5, _⟩ => ⟨S512x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1024x512, .f32⟩
  | .hbm, ⟨10, _⟩ => ⟨S512, .f32⟩
  | .hbm, ⟨11, _⟩ => ⟨S512x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S1024x512, .f32⟩
  | .hbm, ⟨16, _⟩ => ⟨S512, .f32⟩
  | .hbm, ⟨17, _⟩ => ⟨S512x16, .f32⟩
  | .hbm, ⟨18, _⟩ => ⟨S16, .f32⟩
  | .hbm, ⟨19, _⟩ => ⟨S16x1, .f32⟩
  | .hbm, ⟨20, _⟩ => ⟨S1, .f32⟩
  | .hbm, ⟨21, _⟩ => ⟨S1024x512, .f32⟩
  | .hbm, ⟨22, _⟩ => ⟨S512, .f32⟩
  | .hbm, ⟨23, _⟩ => ⟨S512x16, .f32⟩
  | .hbm, ⟨24, _⟩ => ⟨S16, .f32⟩
  | .hbm, ⟨25, _⟩ => ⟨S16x1, .f32⟩
  | .hbm, ⟨26, _⟩ => ⟨S1, .f32⟩
  | .hbm, ⟨27, _⟩ => ⟨S16384x1024, .f32⟩
  | .hbm, ⟨28, _⟩ => ⟨S16384x512, .f32⟩
  | .hbm, ⟨29, _⟩ => ⟨S1x512, .f32⟩
  | .hbm, ⟨30, _⟩ => ⟨S16384x512, .f32⟩
  | .hbm, ⟨31, _⟩ => ⟨S16384x512, .f32⟩
  | .hbm, ⟨32, _⟩ => ⟨S16384x16, .f32⟩
  | .hbm, ⟨33, _⟩ => ⟨S1x16, .f32⟩
  | .hbm, ⟨34, _⟩ => ⟨S16384x16, .f32⟩
  | .hbm, ⟨35, _⟩ => ⟨S16384x16, .f32⟩
  | .hbm, ⟨36, _⟩ => ⟨S_, .f32⟩
  | .hbm, ⟨37, _⟩ => ⟨S16384x16, .f32⟩
  | .hbm, ⟨38, _⟩ => ⟨S16384x16, .f32⟩
  | .hbm, ⟨39, _⟩ => ⟨S16384x1, .f32⟩
  | .hbm, ⟨40, _⟩ => ⟨S1x1, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x512, .f32⟩
  | .hbm, ⟨53, _⟩ => ⟨S1x512, .f32⟩
  | .hbm, ⟨54, _⟩ => ⟨S16384x512, .f32⟩
  | .hbm, ⟨55, _⟩ => ⟨S16384x512, .f32⟩
  | .hbm, ⟨56, _⟩ => ⟨S16384x16, .f32⟩
  | .hbm, ⟨57, _⟩ => ⟨S1x16, .f32⟩
  | .hbm, ⟨58, _⟩ => ⟨S16384x16, .f32⟩
  | .hbm, ⟨59, _⟩ => ⟨S16384x16, .f32⟩
  | .hbm, ⟨60, _⟩ => ⟨S_, .f32⟩
  | .hbm, ⟨61, _⟩ => ⟨S16384x16, .f32⟩
  | .hbm, ⟨62, _⟩ => ⟨S16384x16, .f32⟩
  | .hbm, ⟨63, _⟩ => ⟨S16384x1, .f32⟩
  | .hbm, ⟨64, _⟩ => ⟨S1x1, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x512, .f32⟩
  | .hbm, ⟨77, _⟩ => ⟨S1x512, .f32⟩
  | .hbm, ⟨78, _⟩ => ⟨S16384x512, .f32⟩
  | .hbm, ⟨79, _⟩ => ⟨S16384x512, .f32⟩
  | .hbm, ⟨80, _⟩ => ⟨S16384x16, .f32⟩
  | .hbm, ⟨81, _⟩ => ⟨S1x16, .f32⟩
  | .hbm, ⟨82, _⟩ => ⟨S16384x16, .f32⟩
  | .hbm, ⟨83, _⟩ => ⟨S16384x16, .f32⟩
  | .hbm, ⟨84, _⟩ => ⟨S_, .f32⟩
  | .hbm, ⟨85, _⟩ => ⟨S16384x16, .f32⟩
  | .hbm, ⟨86, _⟩ => ⟨S16384x16, .f32⟩
  | .hbm, ⟨87, _⟩ => ⟨S16384x1, .f32⟩
  | .hbm, ⟨88, _⟩ => ⟨S1x1, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x512, .f32⟩
  | .hbm, ⟨94, _⟩ => ⟨S1x512, .f32⟩
  | .hbm, ⟨95, _⟩ => ⟨S16384x512, .f32⟩
  | .hbm, ⟨96, _⟩ => ⟨S16384x512, .f32⟩
  | .hbm, ⟨97, _⟩ => ⟨S16384x16, .f32⟩
  | .hbm, ⟨98, _⟩ => ⟨S1x16, .f32⟩
  | .hbm, ⟨99, _⟩ => ⟨S16384x16, .f32⟩
  | .hbm, ⟨100, _⟩ => ⟨S16384x16, .f32⟩
  | .hbm, ⟨101, _⟩ => ⟨S_, .f32⟩
  | .hbm, ⟨102, _⟩ => ⟨S16384x16, .f32⟩
  | .hbm, ⟨103, _⟩ => ⟨S16384x16, .f32⟩
  | .hbm, ⟨104, _⟩ => ⟨S16384x1, .f32⟩
  | .hbm, ⟨105, _⟩ => ⟨S1x1, .f32⟩
  | .hbm, ⟨106, _⟩ => ⟨S16384x1, .f32⟩
  | .hbm, ⟨107, _⟩ => ⟨S16384x1, .f32⟩
  | .hbm, ⟨108, _⟩ => ⟨S16384x1, .f32⟩
  | .hbm, ⟨109, _⟩ => ⟨S16384x1, .f32⟩
  | .hbm, ⟨110, _⟩ => ⟨S16384x1, .f32⟩
  | .hbm, ⟨111, _⟩ => ⟨S_, .f32⟩
  | .hbm, ⟨112, _⟩ => ⟨S16384x1, .f32⟩
  | .hbm, ⟨113, _⟩ => ⟨S16384x1, .f32⟩
  | .hbm, ⟨114, _⟩ => ⟨S_, .f32⟩
  | .hbm, ⟨115, _⟩ => ⟨S16384x1, .f32⟩
  | .hbm, ⟨116, _⟩ => ⟨S16384x1, .f32⟩
  | .hbm, ⟨117, _⟩ => ⟨S16384x512, .f32⟩
  | .hbm, ⟨118, _⟩ => ⟨S16384x512, .f32⟩
  | .hbm, ⟨119, _⟩ => ⟨S16384x1, .f32⟩
  | .hbm, ⟨120, _⟩ => ⟨S16384x512, .f32⟩
  | .hbm, ⟨121, _⟩ => ⟨S16384x512, .f32⟩
  | .hbm, ⟨122, _⟩ => ⟨S16384x512, .f32⟩
  | .hbm, ⟨123, _⟩ => ⟨S16384x512, .f32⟩
  | .hbm, ⟨124, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_call0_cst : Ref sig .tc := ⟨.hbm, 36, rfl⟩
abbrev main_call0_v0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_cst_0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_call1_cst : Ref sig .tc := ⟨.hbm, 60, rfl⟩
abbrev main_call1_v0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_1 : Ref sig .tc := ⟨.hbm, 70, rfl⟩
abbrev main_v37 : Ref sig .tc := ⟨.hbm, 71, rfl⟩
abbrev main_v38 : Ref sig .tc := ⟨.hbm, 72, rfl⟩
abbrev main_cst_2 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call2_cst : Ref sig .tc := ⟨.hbm, 84, rfl⟩
abbrev main_call2_v0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_call3_cst : Ref sig .tc := ⟨.hbm, 101, rfl⟩
abbrev main_call3_v0 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_3 : Ref sig .tc := ⟨.hbm, 111, rfl⟩
abbrev main_v72 : Ref sig .tc := ⟨.hbm, 112, rfl⟩
abbrev main_v73 : Ref sig .tc := ⟨.hbm, 113, rfl⟩
abbrev main_cst_4 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  dot_S16384x1024_S1024x512_S16384x512_1_0_0_1_n_n_wf : DotDims.WF S16384x1024 S1024x512 S16384x512 [1] [0] [0] [1] [] []
  dot_S16384x512_S512x16_S16384x16_1_0_0_1_n_n_wf : DotDims.WF S16384x512 S512x16 S16384x16 [1] [0] [0] [1] [] []
  dot_S16384x16_S16x1_S16384x1_1_0_0_1_n_n_wf : DotDims.WF S16384x16 S16x1 S16384x1 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x16_S16384x16_1_0_0_1_n_n : DotDims S16384x512 S512x16 S16384x16 where
  lhsContracting := [1]
  rhsContracting := [0]
  lhsNonContracting := [0]
  rhsNonContracting := [1]
  lhsBatch := []
  rhsBatch := []
  wf := dot_S16384x512_S512x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

class Facts : Prop extends Facts₀ where

variable [Facts]
-- ==== Proof.EntryK.lean ====
/-
  The program up to its one launch.  Before the launch @main runs 69 host lines; they write only the buffers of
  their own results (the concatenated, converted and zero-padded weight arrays and the small index vectors), never
  an argument array.  So when the region is entered every argument array is as launched, and every other buffer is
  what the fold of the host lines over the launch memory leaves there (`V`).
-/
import proofs.«115885_j65481071407962_2_alg».proof.Proof.Gen.Kernel.Launch
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

variable (m : (ℓ : Loc nD τ sig) → Buf (Elt F) ℓ)

/-- Core `c`'s buffers when the region is entered: the launch memory after the host lines before the launch. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host line writes is found as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-! Each of the 27 argument arrays is written by no host line. -/

theorem V_main_arg0 (c : Dev nD) : V m c main_arg0 = m ((c : Thread nD τ).loc main_arg0) :=
  V_of_unwritten m c main_arg0 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg1 (c : Dev nD) : V m c main_arg1 = m ((c : Thread nD τ).loc main_arg1) :=
  V_of_unwritten m c main_arg1 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg2 (c : Dev nD) : V m c main_arg2 = m ((c : Thread nD τ).loc main_arg2) :=
  V_of_unwritten m c main_arg2 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg3 (c : Dev nD) : V m c main_arg3 = m ((c : Thread nD τ).loc main_arg3) :=
  V_of_unwritten m c main_arg3 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg4 (c : Dev nD) : V m c main_arg4 = m ((c : Thread nD τ).loc main_arg4) :=
  V_of_unwritten m c main_arg4 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg5 (c : Dev nD) : V m c main_arg5 = m ((c : Thread nD τ).loc main_arg5) :=
  V_of_unwritten m c main_arg5 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg6 (c : Dev nD) : V m c main_arg6 = m ((c : Thread nD τ).loc main_arg6) :=
  V_of_unwritten m c main_arg6 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg7 (c : Dev nD) : V m c main_arg7 = m ((c : Thread nD τ).loc main_arg7) :=
  V_of_unwritten m c main_arg7 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg8 (c : Dev nD) : V m c main_arg8 = m ((c : Thread nD τ).loc main_arg8) :=
  V_of_unwritten m c main_arg8 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg9 (c : Dev nD) : V m c main_arg9 = m ((c : Thread nD τ).loc main_arg9) :=
  V_of_unwritten m c main_arg9 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg10 (c : Dev nD) : V m c main_arg10 = m ((c : Thread nD τ).loc main_arg10) :=
  V_of_unwritten m c main_arg10 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg11 (c : Dev nD) : V m c main_arg11 = m ((c : Thread nD τ).loc main_arg11) :=
  V_of_unwritten m c main_arg11 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg12 (c : Dev nD) : V m c main_arg12 = m ((c : Thread nD τ).loc main_arg12) :=
  V_of_unwritten m c main_arg12 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg13 (c : Dev nD) : V m c main_arg13 = m ((c : Thread nD τ).loc main_arg13) :=
  V_of_unwritten m c main_arg13 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg14 (c : Dev nD) : V m c main_arg14 = m ((c : Thread nD τ).loc main_arg14) :=
  V_of_unwritten m c main_arg14 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg15 (c : Dev nD) : V m c main_arg15 = m ((c : Thread nD τ).loc main_arg15) :=
  V_of_unwritten m c main_arg15 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg16 (c : Dev nD) : V m c main_arg16 = m ((c : Thread nD τ).loc main_arg16) :=
  V_of_unwritten m c main_arg16 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg17 (c : Dev nD) : V m c main_arg17 = m ((c : Thread nD τ).loc main_arg17) :=
  V_of_unwritten m c main_arg17 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg18 (c : Dev nD) : V m c main_arg18 = m ((c : Thread nD τ).loc main_arg18) :=
  V_of_unwritten m c main_arg18 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg19 (c : Dev nD) : V m c main_arg19 = m ((c : Thread nD τ).loc main_arg19) :=
  V_of_unwritten m c main_arg19 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg20 (c : Dev nD) : V m c main_arg20 = m ((c : Thread nD τ).loc main_arg20) :=
  V_of_unwritten m c main_arg20 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg21 (c : Dev nD) : V m c main_arg21 = m ((c : Thread nD τ).loc main_arg21) :=
  V_of_unwritten m c main_arg21 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg22 (c : Dev nD) : V m c main_arg22 = m ((c : Thread nD τ).loc main_arg22) :=
  V_of_unwritten m c main_arg22 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg23 (c : Dev nD) : V m c main_arg23 = m ((c : Thread nD τ).loc main_arg23) :=
  V_of_unwritten m c main_arg23 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg24 (c : Dev nD) : V m c main_arg24 = m ((c : Thread nD τ).loc main_arg24) :=
  V_of_unwritten m c main_arg24 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg25 (c : Dev nD) : V m c main_arg25 = m ((c : Thread nD τ).loc main_arg25) :=
  V_of_unwritten m c main_arg25 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg26 (c : Dev nD) : V m c main_arg26 = m ((c : Thread nD τ).loc main_arg26) :=
  V_of_unwritten m c main_arg26 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))

end Cert.Kernel.Hand

end
-- ==== Proof.BodyRunK.lean ====
/-
  One run of the kernel body.  The body loads the three 512-row data blocks and the seven weight arrays whole,
  computes, and overwrites each of its two output buffers by ONE store of the whole buffer: the hidden-state
  buffer with `k0_pay3` and the cell-state buffer with `k0_pay2` of the cell block and the four gate logits
  `k0_pay4`.  (It also loads each output buffer just before overwriting it; the loaded value is not used.)
-/
import proofs.«115885_j65481071407962_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body accesses: each buffer whole -/

abbrev rD : Rect S512x512 := Rect.unit (s := S512x512) ![0, 0] S512x512.size inb_S512x512_S512x512_0_0
abbrev rW : Rect S512x2048 := Rect.unit (s := S512x2048) ![0, 0] S512x2048.size inb_S512x2048_S512x2048_0_0
abbrev rB : Rect S2048 := Rect.unit (s := S2048) ![0] S2048.size inb_S2048_S2048_0
abbrev rW1 : Rect S2048x64 := Rect.unit (s := S2048x64) ![0, 0] S2048x64.size inb_S2048x64_S2048x64_0_0
abbrev rB1 : Rect S64 := Rect.unit (s := S64) ![0] S64.size inb_S64_S64_0
abbrev rW2 : Rect S64x4 := Rect.unit (s := S64x4) ![0, 0] S64x4.size inb_S64x4_S64x4_0_0
abbrev rB2 : Rect S4 := Rect.unit (s := S4) ![0] S4.size inb_S4_S4_0

/-! ## What the body leaves in each output buffer -/

/-- The four gate logits of the block's 512 rows, from the buffers' contents. -/
def logits (x0 x1 x2 : Vec F S512x512 .f32) (x3 x4 : Vec F S512x2048 .bf16) (x5 : Vec F S2048 .f32) (x6 : Vec F S2048x64 .bf16) (x7 : Vec F S64 .f32) (x8 : Vec F S64x4 .bf16) (x9 : Vec F S4 .f32) : FVec F S512x4 .f32 :=
  k0_pay4 (View.ld x0 rD) (View.ld x1 rD) (View.ld x3 rW) (View.ld x4 rW) (View.ld x5 rB) (View.ld x6 rW1)
    (View.ld x7 rB1) (View.ld x8 rW2) (View.ld x9 rB2)

/-- The hidden-state buffer after the body: its one store, as a piece. -/
def outH (x0 x1 x2 : Vec F S512x512 .f32) (x3 x4 : Vec F S512x2048 .bf16) (x5 : Vec F S2048 .f32) (x6 : Vec F S2048x64 .bf16) (x7 : Vec F S64 .f32) (x8 : Vec F S64x4 .bf16) (x9 : Vec F S4 .f32) : Vec F S512x512 .f32 :=
  View.canon [⟨rD, k0_pay3 (View.ld x2 rD) (logits x0 x1 x2 x3 x4 x5 x6 x7 x8 x9)⟩]

/-- The cell-state buffer after the body. -/
def outC (x0 x1 x2 : Vec F S512x512 .f32) (x3 x4 : Vec F S512x2048 .bf16) (x5 : Vec F S2048 .f32) (x6 : Vec F S2048x64 .bf16) (x7 : Vec F S64 .f32) (x8 : Vec F S64x4 .bf16) (x9 : Vec F S4 .f32) : Vec F S512x512 .f32 :=
  View.canon [⟨rD, k0_pay2 (View.ld x2 rD) (logits x0 x1 x2 x3 x4 x5 x6 x7 x8 x9)⟩]

/-- One store of the whole buffer covers it. -/
theorem coverD (p0 : Vec F S512x512 .f32) (y : S512x512.Idx) :
    ∃ pc ∈ ([⟨rD, p0⟩] : List (View.Piece (Elt F) S512x512 .f32)), y ∈ pc.1.set :=
  View.cover_of_tiled [⟨rD, p0⟩] S512x512.size (by rfl) y

/-! ## The body's triple -/

set_option maxHeartbeats 4000000 in
/-- The body on whole staging memrefs, the ten inputs' at read contents `x0 … x9` and the two outputs' at anything,
    runs to the continuation with the inputs' as they were and the outputs' at `outH` and `outC` of them. -/
theorem sound_kernel (c : Dev nD) (E : Set ℕ) (i : grid0.Coords) (a1 : Memref sig .tc .vmem S512x512 .f32) (ha1 : a1.IsWhole) (a2 : Memref sig .tc .vmem S512x512 .f32) (ha2 : a2.IsWhole) (a3 : Memref sig .tc .vmem S512x512 .f32) (ha3 : a3.IsWhole) (a4 : Memref sig .tc .vmem S512x2048 .bf16) (ha4 : a4.IsWhole) (a5 : Memref sig .tc .vmem S512x2048 .bf16) (ha5 : a5.IsWhole) (a6 : Memref sig .tc .vmem S2048 .f32) (ha6 : a6.IsWhole) (a7 : Memref sig .tc .vmem S2048x64 .bf16) (ha7 : a7.IsWhole) (a8 : Memref sig .tc .vmem S64 .f32) (ha8 : a8.IsWhole) (a9 : Memref sig .tc .vmem S64x4 .bf16) (ha9 : a9.IsWhole) (a10 : Memref sig .tc .vmem S4 .f32) (ha10 : a10.IsWhole) (a11 : Memref sig .tc .vmem S512x512 .f32) (ha11 : a11.IsWhole) (a12 : Memref sig .tc .vmem S512x512 .f32) (ha12 : a12.IsWhole)
    (x0 x1 x2 : Vec F S512x512 .f32) (x3 x4 : Vec F S512x2048 .bf16) (x5 : Vec F S2048 .f32) (x6 : Vec F S2048x64 .bf16) (x7 : Vec F S64 .f32) (x8 : Vec F S64x4 .bf16) (x9 : Vec F S4 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9
        ∗ (∃ d, owns (c : Thread nD τ) a11 fullShare d) ∗ (∃ d, owns (c : Thread nD τ) a12 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9
            ∗ owns (c : Thread nD τ) a11 fullShare (outH x0 x1 x2 x3 x4 x5 x6 x7 x8 x9) ∗ owns (c : Thread nD τ) a12 fullShare (outC x0 x1 x2 x3 x4 x5 x6 x7 x8 x9)) -∗ K ⟨⟩))
      ⊢ wp frame (wpE (defs₀ (F := F)) Variants.none c none) E (cc0__qlstm_kernel i a1 ha1 a2 ha2 a3 ha3 a4 ha4 a5 ha5 a6 ha6 a7 ha7 a8 ha8 a9 ha9 a10 ha10 a11 ha11 a12 ha12) K := by
  simp only [cc0__qlstm_kernel_eq_skeleton]; unfold cc0__qlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (coverD _)
  iexists _; isplitr
  swap; · iexact H11
  ipureintro
  try dsimp only
  exact View.read_writes_eq_canon _ _ _ (coverD _)

end Cert.Kernel.Hand

end
-- ==== Proof.FrameK.lean ====
/-
  The frame of the program: every weakly fair execution of @main ends, faults nowhere, and leaves the 27
  argument arrays as launched; and, beyond the frame, each of the two result arrays ends at what the proof data
  computes from the blocks the grid points wrote.

  The launch runs the body at 32 grid points.  Point `t` is handed block `t` (512 rows) of `x`, `h`, `c` and the
  seven weight arrays whole (staged once, at the first point, and kept); it writes block `t` of the two results.
  An input's staging buffer holds the window's block at every point whether or not it was fetched there, because
  the body leaves inputs in place and an unfetched window's block index has not moved.
-/
import proofs.«115885_j65481071407962_2_alg».proof.Proof.EntryK
import proofs.«115885_j65481071407962_2_alg».proof.Proof.BodyRunK
import proofs.«115885_j65481071407962_2_alg».proof.Proof.Gen.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof
    data whose array is the region-entry contents and whose body leaves the block in place. -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post, read at
    the argument arrays, is the frame claim's post: `x`, `h`, `c` are staged inputs (their arrays end as they
    began), the other 24 are staged by no window (the post's second clause); each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩) h

/-! ## The proof data -/

/-- On core `c`: the arrays as the region finds them; after the body at point `t` each input's buffer at its block,
    the hidden-state buffer at `outH` and the cell-state buffer at `outC` of the ten input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outH (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => outC (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_outH (c : Dev nD) (t : Fin cfg0.N) : (dats m 0 c).after 10 t = outH (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_outC (c : Dev nD) (t : Fin cfg0.N) : (dats m 0 c).after 11 t = outC (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d
theorem before_in9 (c : Dev nD) (t : Fin cfg0.N) (d) : (dats m 0 c).before 9 t d = iblk m c 9 t :=
  before_in9_of m (dats m 0 c) (A_eq m c 9) (after_in9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' memrefs hold their blocks, so the body's triple applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9,
    after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the 27 argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

end Cert.Kernel.Hand

end
-- ==== Proof.EntryKI.lean ====
/-
  The program up to its one launch.  Before the launch @main runs 69 host lines; they write only the buffers of
  their own results (the concatenated, converted and zero-padded weight arrays and the small index vectors), never
  an argument array.  So when the region is entered every argument array is as launched, and every other buffer is
  what the fold of the host lines over the launch memory leaves there (`V`).
-/
import proofs.«115885_j65481071407962_2_alg».proof.Proof.Gen.KernelIdeal.Launch
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

variable (m : (ℓ : Loc nD τ sig) → Buf (Elt F) ℓ)

/-- Core `c`'s buffers when the region is entered: the launch memory after the host lines before the launch. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host line writes is found as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-! Each of the 27 argument arrays is written by no host line. -/

theorem V_main_arg0 (c : Dev nD) : V m c main_arg0 = m ((c : Thread nD τ).loc main_arg0) :=
  V_of_unwritten m c main_arg0 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg1 (c : Dev nD) : V m c main_arg1 = m ((c : Thread nD τ).loc main_arg1) :=
  V_of_unwritten m c main_arg1 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg2 (c : Dev nD) : V m c main_arg2 = m ((c : Thread nD τ).loc main_arg2) :=
  V_of_unwritten m c main_arg2 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg3 (c : Dev nD) : V m c main_arg3 = m ((c : Thread nD τ).loc main_arg3) :=
  V_of_unwritten m c main_arg3 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg4 (c : Dev nD) : V m c main_arg4 = m ((c : Thread nD τ).loc main_arg4) :=
  V_of_unwritten m c main_arg4 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg5 (c : Dev nD) : V m c main_arg5 = m ((c : Thread nD τ).loc main_arg5) :=
  V_of_unwritten m c main_arg5 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg6 (c : Dev nD) : V m c main_arg6 = m ((c : Thread nD τ).loc main_arg6) :=
  V_of_unwritten m c main_arg6 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg7 (c : Dev nD) : V m c main_arg7 = m ((c : Thread nD τ).loc main_arg7) :=
  V_of_unwritten m c main_arg7 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg8 (c : Dev nD) : V m c main_arg8 = m ((c : Thread nD τ).loc main_arg8) :=
  V_of_unwritten m c main_arg8 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg9 (c : Dev nD) : V m c main_arg9 = m ((c : Thread nD τ).loc main_arg9) :=
  V_of_unwritten m c main_arg9 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg10 (c : Dev nD) : V m c main_arg10 = m ((c : Thread nD τ).loc main_arg10) :=
  V_of_unwritten m c main_arg10 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg11 (c : Dev nD) : V m c main_arg11 = m ((c : Thread nD τ).loc main_arg11) :=
  V_of_unwritten m c main_arg11 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg12 (c : Dev nD) : V m c main_arg12 = m ((c : Thread nD τ).loc main_arg12) :=
  V_of_unwritten m c main_arg12 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg13 (c : Dev nD) : V m c main_arg13 = m ((c : Thread nD τ).loc main_arg13) :=
  V_of_unwritten m c main_arg13 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg14 (c : Dev nD) : V m c main_arg14 = m ((c : Thread nD τ).loc main_arg14) :=
  V_of_unwritten m c main_arg14 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg15 (c : Dev nD) : V m c main_arg15 = m ((c : Thread nD τ).loc main_arg15) :=
  V_of_unwritten m c main_arg15 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg16 (c : Dev nD) : V m c main_arg16 = m ((c : Thread nD τ).loc main_arg16) :=
  V_of_unwritten m c main_arg16 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg17 (c : Dev nD) : V m c main_arg17 = m ((c : Thread nD τ).loc main_arg17) :=
  V_of_unwritten m c main_arg17 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg18 (c : Dev nD) : V m c main_arg18 = m ((c : Thread nD τ).loc main_arg18) :=
  V_of_unwritten m c main_arg18 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg19 (c : Dev nD) : V m c main_arg19 = m ((c : Thread nD τ).loc main_arg19) :=
  V_of_unwritten m c main_arg19 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg20 (c : Dev nD) : V m c main_arg20 = m ((c : Thread nD τ).loc main_arg20) :=
  V_of_unwritten m c main_arg20 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg21 (c : Dev nD) : V m c main_arg21 = m ((c : Thread nD τ).loc main_arg21) :=
  V_of_unwritten m c main_arg21 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg22 (c : Dev nD) : V m c main_arg22 = m ((c : Thread nD τ).loc main_arg22) :=
  V_of_unwritten m c main_arg22 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg23 (c : Dev nD) : V m c main_arg23 = m ((c : Thread nD τ).loc main_arg23) :=
  V_of_unwritten m c main_arg23 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg24 (c : Dev nD) : V m c main_arg24 = m ((c : Thread nD τ).loc main_arg24) :=
  V_of_unwritten m c main_arg24 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg25 (c : Dev nD) : V m c main_arg25 = m ((c : Thread nD τ).loc main_arg25) :=
  V_of_unwritten m c main_arg25 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))
theorem V_main_arg26 (c : Dev nD) : V m c main_arg26 = m ((c : Thread nD τ).loc main_arg26) :=
  V_of_unwritten m c main_arg26 (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide))

end Cert.KernelIdeal.Hand

end
-- ==== Proof.BodyRunKI.lean ====
/-
  One run of the kernel body.  The body loads the three 512-row data blocks and the seven weight arrays whole,
  computes, and overwrites each of its two output buffers by ONE store of the whole buffer: the hidden-state
  buffer with `k0_pay3` and the cell-state buffer with `k0_pay2` of the cell block and the four gate logits
  `k0_pay4`.  (It also loads each output buffer just before overwriting it; the loaded value is not used.)
-/
import proofs.«115885_j65481071407962_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body accesses: each buffer whole -/

abbrev rD : Rect S512x512 := Rect.unit (s := S512x512) ![0, 0] S512x512.size inb_S512x512_S512x512_0_0
abbrev rW : Rect S512x2048 := Rect.unit (s := S512x2048) ![0, 0] S512x2048.size inb_S512x2048_S512x2048_0_0
abbrev rB : Rect S2048 := Rect.unit (s := S2048) ![0] S2048.size inb_S2048_S2048_0
abbrev rW1 : Rect S2048x64 := Rect.unit (s := S2048x64) ![0, 0] S2048x64.size inb_S2048x64_S2048x64_0_0
abbrev rB1 : Rect S64 := Rect.unit (s := S64) ![0] S64.size inb_S64_S64_0
abbrev rW2 : Rect S64x4 := Rect.unit (s := S64x4) ![0, 0] S64x4.size inb_S64x4_S64x4_0_0
abbrev rB2 : Rect S4 := Rect.unit (s := S4) ![0] S4.size inb_S4_S4_0

/-! ## What the body leaves in each output buffer -/

/-- The four gate logits of the block's 512 rows, from the buffers' contents. -/
def logits (x0 x1 x2 : Vec F S512x512 .f32) (x3 x4 : Vec F S512x2048 .bf16) (x5 : Vec F S2048 .f32) (x6 : Vec F S2048x64 .bf16) (x7 : Vec F S64 .f32) (x8 : Vec F S64x4 .bf16) (x9 : Vec F S4 .f32) : FVec F S512x4 .f32 :=
  k0_pay4 (View.ld x0 rD) (View.ld x1 rD) (View.ld x3 rW) (View.ld x4 rW) (View.ld x5 rB) (View.ld x6 rW1)
    (View.ld x7 rB1) (View.ld x8 rW2) (View.ld x9 rB2)

/-- The hidden-state buffer after the body: its one store, as a piece. -/
def outH (x0 x1 x2 : Vec F S512x512 .f32) (x3 x4 : Vec F S512x2048 .bf16) (x5 : Vec F S2048 .f32) (x6 : Vec F S2048x64 .bf16) (x7 : Vec F S64 .f32) (x8 : Vec F S64x4 .bf16) (x9 : Vec F S4 .f32) : Vec F S512x512 .f32 :=
  View.canon [⟨rD, k0_pay3 (View.ld x2 rD) (logits x0 x1 x2 x3 x4 x5 x6 x7 x8 x9)⟩]

/-- The cell-state buffer after the body. -/
def outC (x0 x1 x2 : Vec F S512x512 .f32) (x3 x4 : Vec F S512x2048 .bf16) (x5 : Vec F S2048 .f32) (x6 : Vec F S2048x64 .bf16) (x7 : Vec F S64 .f32) (x8 : Vec F S64x4 .bf16) (x9 : Vec F S4 .f32) : Vec F S512x512 .f32 :=
  View.canon [⟨rD, k0_pay2 (View.ld x2 rD) (logits x0 x1 x2 x3 x4 x5 x6 x7 x8 x9)⟩]

/-- One store of the whole buffer covers it. -/
theorem coverD (p0 : Vec F S512x512 .f32) (y : S512x512.Idx) :
    ∃ pc ∈ ([⟨rD, p0⟩] : List (View.Piece (Elt F) S512x512 .f32)), y ∈ pc.1.set :=
  View.cover_of_tiled [⟨rD, p0⟩] S512x512.size (by rfl) y

/-! ## The body's triple -/

set_option maxHeartbeats 4000000 in
/-- The body on whole staging memrefs, the ten inputs' at read contents `x0 … x9` and the two outputs' at anything,
    runs to the continuation with the inputs' as they were and the outputs' at `outH` and `outC` of them. -/
theorem sound_kernel (c : Dev nD) (E : Set ℕ) (i : grid0.Coords) (a1 : Memref sig .tc .vmem S512x512 .f32) (ha1 : a1.IsWhole) (a2 : Memref sig .tc .vmem S512x512 .f32) (ha2 : a2.IsWhole) (a3 : Memref sig .tc .vmem S512x512 .f32) (ha3 : a3.IsWhole) (a4 : Memref sig .tc .vmem S512x2048 .bf16) (ha4 : a4.IsWhole) (a5 : Memref sig .tc .vmem S512x2048 .bf16) (ha5 : a5.IsWhole) (a6 : Memref sig .tc .vmem S2048 .f32) (ha6 : a6.IsWhole) (a7 : Memref sig .tc .vmem S2048x64 .bf16) (ha7 : a7.IsWhole) (a8 : Memref sig .tc .vmem S64 .f32) (ha8 : a8.IsWhole) (a9 : Memref sig .tc .vmem S64x4 .bf16) (ha9 : a9.IsWhole) (a10 : Memref sig .tc .vmem S4 .f32) (ha10 : a10.IsWhole) (a11 : Memref sig .tc .vmem S512x512 .f32) (ha11 : a11.IsWhole) (a12 : Memref sig .tc .vmem S512x512 .f32) (ha12 : a12.IsWhole)
    (x0 x1 x2 : Vec F S512x512 .f32) (x3 x4 : Vec F S512x2048 .bf16) (x5 : Vec F S2048 .f32) (x6 : Vec F S2048x64 .bf16) (x7 : Vec F S64 .f32) (x8 : Vec F S64x4 .bf16) (x9 : Vec F S4 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9
        ∗ (∃ d, owns (c : Thread nD τ) a11 fullShare d) ∗ (∃ d, owns (c : Thread nD τ) a12 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9
            ∗ owns (c : Thread nD τ) a11 fullShare (outH x0 x1 x2 x3 x4 x5 x6 x7 x8 x9) ∗ owns (c : Thread nD τ) a12 fullShare (outC x0 x1 x2 x3 x4 x5 x6 x7 x8 x9)) -∗ K ⟨⟩))
      ⊢ wp frame (wpE (defs₀ (F := F)) Variants.none c none) E (cc0__qlstm_kernel i a1 ha1 a2 ha2 a3 ha3 a4 ha4 a5 ha5 a6 ha6 a7 ha7 a8 ha8 a9 ha9 a10 ha10 a11 ha11 a12 ha12) K := by
  simp only [cc0__qlstm_kernel_eq_skeleton]; unfold cc0__qlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (coverD _)
  iexists _; isplitr
  swap; · iexact H11
  ipureintro
  try dsimp only
  exact View.read_writes_eq_canon _ _ _ (coverD _)

end Cert.KernelIdeal.Hand

end
-- ==== Proof.FrameKI.lean ====
/-
  The frame of the program: every weakly fair execution of @main ends, faults nowhere, and leaves the 27
  argument arrays as launched; and, beyond the frame, each of the two result arrays ends at what the proof data
  computes from the blocks the grid points wrote.

  The launch runs the body at 32 grid points.  Point `t` is handed block `t` (512 rows) of `x`, `h`, `c` and the
  seven weight arrays whole (staged once, at the first point, and kept); it writes block `t` of the two results.
  An input's staging buffer holds the window's block at every point whether or not it was fetched there, because
  the body leaves inputs in place and an unfetched window's block index has not moved.
-/
import proofs.«115885_j65481071407962_2_alg».proof.Proof.EntryKI
import proofs.«115885_j65481071407962_2_alg».proof.Proof.BodyRunKI
import proofs.«115885_j65481071407962_2_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof
    data whose array is the region-entry contents and whose body leaves the block in place. -/

theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post, read at
    the argument arrays, is the frame claim's post: `x`, `h`, `c` are staged inputs (their arrays end as they
    began), the other 24 are staged by no window (the post's second clause); each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩) h

/-! ## The proof data -/

/-- On core `c`: the arrays as the region finds them; after the body at point `t` each input's buffer at its block,
    the hidden-state buffer at `outH` and the cell-state buffer at `outC` of the ten input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outH (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => outC (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_outH (c : Dev nD) (t : Fin cfg0.N) : (dats m 0 c).after 10 t = outH (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_outC (c : Dev nD) (t : Fin cfg0.N) : (dats m 0 c).after 11 t = outC (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d
theorem before_in9 (c : Dev nD) (t : Fin cfg0.N) (d) : (dats m 0 c).before 9 t d = iblk m c 9 t :=
  before_in9_of m (dats m 0 c) (A_eq m c 9) (after_in9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' memrefs hold their blocks, so the body's triple applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9,
    after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the 27 argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

end Cert.KernelIdeal.Hand

end
-- ==== Proof.Spec.lean ====
/-
  The function both programs compute, stated once over the argument arrays and read at coordinates.

  A gate has a main layer `W : [1024, 512]`, `b : [512]` applied to the row `[x | h]` of length 1024, and a small
  network `W1 : [512, 16]`, `b1 : [16]`, `W2 : [16, 1]`, `b2 : [1]` that turns the 512 pre-activations of a row
  into ONE number: `tanh (relu (z W1 + b1) W2 + b2)`.  The product of the row `[x | h]` with `W` is written as the
  sum over the first 512 rows of `W` against `x` plus the sum over the last 512 rows against `h`.
  With the four gates f, i, u, o (numbered 0, 1, 2, 3) the cell is
    c' = σ(a_f) · c + σ(a_i) · tanh(a_u),      h' = σ(a_o) · tanh(c'),
  where `a_n` is gate `n`'s number for the row and σ is the logistic function, everything on the extended reals.

  `Fused` says how seven arrays hold the four gates' parameters side by side: the main layers' columns
  concatenated gate after gate, and the small networks' matrices placed on the diagonal of a matrix that is
  zero elsewhere, so that one product with the placed matrix computes the four small products at once.
-/
import Idealize.ShloMosaic.PureOps.Ideal
import Idealize.ShloMosaic.Lib.ValueIdx

noncomputable section

namespace Cert.Spec

open Idealize.ShloMosaic Idealize.ShloMosaic.ValueIdx

/-- A matrix `[a, b]` of extended reals, as a function of its index. -/
abbrev Mat (a b : Nat) : Type := (⟨2, ![a, b]⟩ : Shape).Idx → EReal
/-- A vector `[a]` of extended reals. -/
abbrev Vct (a : Nat) : Type := (⟨1, ![a]⟩ : Shape).Idx → EReal

/-- One gate's parameters. -/
structure Gate where
  W : Mat 1024 512
  b : Vct 512
  W1 : Mat 512 16
  b1 : Vct 16
  W2 : Mat 16 1
  b2 : Vct 1

/-- Row `p` of `[x | h]` times column `d` of the main layer, plus the bias: the sum over `x`'s 512 entries against
    the first 512 rows of `W`, plus the sum over `h`'s against the last 512, plus `b d`. -/
def pre (x h : Mat 16384 512) (g : Gate) (p : Fin 16384) (d : Fin 512) : EReal :=
  ((∑ k : Fin 512, x (ix2 p k) * g.W (ix2 (⟨k.val, by omega⟩ : Fin 1024) d))
    + ∑ k : Fin 512, h (ix2 p k) * g.W (ix2 (⟨512 + k.val, by omega⟩ : Fin 1024) d)) + g.b (ix1 d)

/-- Hidden unit `j` of the gate's small network on row `p`: `max (Σ_d pre · W1 + b1) 0`. -/
def hidden (x h : Mat 16384 512) (g : Gate) (p : Fin 16384) (j : Fin 16) : EReal :=
  max ((∑ d : Fin 512, pre x h g p d * g.W1 (ix2 d j)) + g.b1 (ix1 j)) 0

/-- The gate's number for row `p`: `tanh (Σ_j hidden · W2 + b2)`. -/
def act (x h : Mat 16384 512) (g : Gate) (p : Fin 16384) : EReal :=
  Ideal.tanh ((∑ j : Fin 16, hidden x h g p j * g.W2 (ix2 j (0 : Fin 1))) + g.b2 (ix1 (0 : Fin 1)))

/-- The new cell state at row `p`, column `d`; `g 0 … g 3` are the gates f, i, u, o. -/
def cAt (x h c : Mat 16384 512) (g : Fin 4 → Gate) (p : Fin 16384) (d : Fin 512) : EReal :=
  Ideal.logistic (act x h (g 0) p) * c (ix2 p d) + Ideal.logistic (act x h (g 1) p) * Ideal.tanh (act x h (g 2) p)

/-- The new hidden state at row `p`, column `d`. -/
def hAt (x h c : Mat 16384 512) (g : Fin 4 → Gate) (p : Fin 16384) (d : Fin 512) : EReal :=
  Ideal.logistic (act x h (g 3) p) * Ideal.tanh (cAt x h c g p d)

/-- The new cell state as an array. -/
def cNext (x h c : Mat 16384 512) (g : Fin 4 → Gate) : Mat 16384 512 := fun i => cAt x h c g (i 0) (i 1)
/-- The new hidden state as an array. -/
def hNext (x h c : Mat 16384 512) (g : Fin 4 → Gate) : Mat 16384 512 := fun i => hAt x h c g (i 0) (i 1)

theorem cNext_apply (x h c : Mat 16384 512) (g : Fin 4 → Gate) (p : Fin 16384) (d : Fin 512) :
    cNext x h c g (ix2 p d) = cAt x h c g p d := rfl
theorem hNext_apply (x h c : Mat 16384 512) (g : Fin 4 → Gate) (p : Fin 16384) (d : Fin 512) :
    hNext x h c g (ix2 p d) = hAt x h c g p d := rfl

/-- The four gates f, i, u, o as a family. -/
def gates4 (gf gi gu go : Gate) : Fin 4 → Gate := ![gf, gi, gu, go]

/-- Seven arrays hold the four gates' parameters side by side.  `wt` / `wb`: the first / last 512 rows of the four
    main layers, their columns concatenated (gate `n`'s column `d` at column `512 n + d`); `bias`, `b1`, `b2`: the
    biases concatenated; `w1`: gate `n`'s `W1` placed at rows `512 n …`, columns `16 n …` of a `[2048, 64]` matrix
    that is zero elsewhere; `w2`: gate `n`'s `W2` at rows `16 n …`, column `n` of a `[64, 4]` matrix, zero elsewhere. -/
structure Fused (g : Fin 4 → Gate) (wt wb : Mat 512 2048) (bias : Vct 2048) (w1 : Mat 2048 64) (b1 : Vct 64)
    (w2 : Mat 64 4) (b2 : Vct 4) : Prop where
  wt : ∀ (k : Fin 512) (n : Fin 4) (d : Fin 512),
    wt (ix2 k (⟨512 * n.val + d.val, by omega⟩ : Fin 2048)) = (g n).W (ix2 (⟨k.val, by omega⟩ : Fin 1024) d)
  wb : ∀ (k : Fin 512) (n : Fin 4) (d : Fin 512),
    wb (ix2 k (⟨512 * n.val + d.val, by omega⟩ : Fin 2048)) = (g n).W (ix2 (⟨512 + k.val, by omega⟩ : Fin 1024) d)
  bias : ∀ (n : Fin 4) (d : Fin 512), bias (ix1 (⟨512 * n.val + d.val, by omega⟩ : Fin 2048)) = (g n).b (ix1 d)
  w1 : ∀ (n' : Fin 4) (d : Fin 512) (n : Fin 4) (j : Fin 16),
    w1 (ix2 (⟨512 * n'.val + d.val, by omega⟩ : Fin 2048) (⟨16 * n.val + j.val, by omega⟩ : Fin 64))
      = if n' = n then (g n).W1 (ix2 d j) else 0
  b1 : ∀ (n : Fin 4) (j : Fin 16), b1 (ix1 (⟨16 * n.val + j.val, by omega⟩ : Fin 64)) = (g n).b1 (ix1 j)
  w2 : ∀ (n' : Fin 4) (j : Fin 16) (n : Fin 4),
    w2 (ix2 (⟨16 * n'.val + j.val, by omega⟩ : Fin 64) n) = if n' = n then (g n).W2 (ix2 j (0 : Fin 1)) else 0
  b2 : ∀ n : Fin 4, b2 (ix1 n) = (g n).b2 (ix1 (0 : Fin 1))

/-! ## The same quantities computed the fused way, on one block of 512 rows

`x0`, `h0` are a block's 512 rows of `x` and `h`; the seven weight arrays are as in `Fused`. -/

/-- All four gates' pre-activations of block row `r` at once: column `K` of `x0 wt + h0 wb + bias`. -/
def zAll (x0 h0 : Mat 512 512) (wt wb : Mat 512 2048) (bias : Vct 2048) (r : Fin 512) (K : Fin 2048) : EReal :=
  ((∑ k : Fin 512, x0 (ix2 r k) * wt (ix2 k K)) + ∑ k : Fin 512, h0 (ix2 r k) * wb (ix2 k K)) + bias (ix1 K)

/-- All four small networks' hidden units of block row `r` at once: `max (Σ_K zAll · w1 + b1) 0` at column `J`. -/
def hidAll (x0 h0 : Mat 512 512) (wt wb : Mat 512 2048) (bias : Vct 2048) (w1 : Mat 2048 64) (b1 : Vct 64)
    (r : Fin 512) (J : Fin 64) : EReal :=
  max ((∑ K : Fin 2048, zAll x0 h0 wt wb bias r K * w1 (ix2 K J)) + b1 (ix1 J)) 0

/-- The four gates' logits of block row `r`: `Σ_J hidAll · w2 + b2` at column `n`. -/
def logit (x0 h0 : Mat 512 512) (wt wb : Mat 512 2048) (bias : Vct 2048) (w1 : Mat 2048 64) (b1 : Vct 64)
    (w2 : Mat 64 4) (b2 : Vct 4) (r : Fin 512) (n : Fin 4) : EReal :=
  (∑ J : Fin 64, hidAll x0 h0 wt wb bias w1 b1 r J * w2 (ix2 J n)) + b2 (ix1 n)

end Cert.Spec

end
-- ==== Proof.LibScatterSet.lean ====
/-
  A scatter whose combining function returns the update (an array with some elements overwritten), read at an index.

  The scatter is a left fold over the update's elements: each element that lands inside the operand overwrites the
  element it lands on.  Read at ONE index `i` the fold is therefore decided by the update elements landing on `i`:
  if they all carry one value `c` and there is at least one (or the operand already holds `c` at `i`), the result is `c`
  (`scatter_set_apply`).  An element lands on `i` exactly when every coordinate of `i` is the start read off the index
  vector plus the element's window coordinate (`resultIdx?_eq_some_iff`).

  For the commonest use, ONE rectangular window `[u0, u1]` written into a rank-2 array `[s0, s1]` at the offset
  `(o0, o1)` the index vector holds (`windowDims`: both axes window axes, nothing inserted), this gives: inside the
  window the result reads the update at the index less the offset (`scatter_window_apply_in`), outside it reads the
  operand (`scatter_window_apply_out`).  No clamping enters: an element whose landing place is outside the operand is
  dropped, and a window that fits is written whole.
-/
import Idealize.ShloMosaic.PureOps.Ideal
import Idealize.ShloMosaic.Lib.ValueIdx
import Idealize.ShloMosaic.Lib.Pipeline.Value

noncomputable section

namespace Cert.Lib.ScatterSet

open Idealize.ShloMosaic Idealize.ShloMosaic.ValueIdx

/-- A scatter whose body returns the update, read at an index: if every update element landing on `i` carries the
    value `c`, and either some update element lands on `i` or the operand already holds `c` there, the result holds `c`. -/
theorem scatter_set_apply {s si u : Shape} {α : Type} {w : Nat} (d : ScatterDims s si u) (x : s.Idx → α)
    (idx : IVec si w) (upd : u.Idx → α) (i : s.Idx) (c : α)
    (hc : x i = c ∨ ∃ j, d.resultIdx? j idx = some i)
    (hv : ∀ j, d.resultIdx? j idx = some i → upd j = c) :
    Host.scatter d (fun _ b => b) x idx upd i = c := by
  have h0 : x i = c ∨ ∃ n ∈ List.finRange u.numel, d.resultIdx? (u.rowMajor.symm n) idx = some i := by
    rcases hc with h | ⟨j, hj⟩
    · exact Or.inl h
    · exact Or.inr ⟨u.rowMajor j, List.mem_finRange _, by rw [Equiv.symm_apply_apply]; exact hj⟩
  clear hc
  unfold Host.scatter
  generalize List.finRange u.numel = L at h0 ⊢
  induction L generalizing x with
  | nil =>
    rcases h0 with h | ⟨n, hn, _⟩
    · exact h
    · exact absurd hn List.not_mem_nil
  | cons n L ih =>
    rw [List.foldl_cons]
    apply ih
    cases hres : d.resultIdx? (u.rowMajor.symm n) idx with
    | none =>
      dsimp only
      rcases h0 with h | ⟨n', hn', hit⟩
      · exact Or.inl h
      · right
        rcases List.mem_cons.1 hn' with rfl | hn''
        · rw [hres] at hit; exact absurd hit (by simp)
        · exact ⟨n', hn'', hit⟩
    | some i₀ =>
      dsimp only
      by_cases hi : i = i₀
      · left; rw [if_pos hi]; exact hv _ (hres.trans (congrArg some hi.symm))
      · rw [if_neg hi]
        rcases h0 with h | ⟨n', hn', hit⟩
        · exact Or.inl h
        · right
          rcases List.mem_cons.1 hn' with rfl | hn''
          · rw [hres] at hit; exact absurd (Option.some.inj hit).symm hi
          · exact ⟨n', hn'', hit⟩

/-- Where an update element lands: at the operand index whose every coordinate is the start plus the window
    coordinate, when that index exists. -/
theorem resultIdx?_eq_some_iff {s si u : Shape} {w : Nat} (d : ScatterDims s si u) (j : u.Idx) (idx : IVec si w) (i : s.Idx) :
    d.resultIdx? j idx = some i ↔ ∀ a, ((i a).val : Int) = d.start j idx a + d.window j a := by
  unfold ScatterDims.resultIdx?
  split
  · next h =>
    constructor
    · intro e a
      have e' := Option.some.inj e
      subst e'
      have := h a
      show (((d.start j idx a + d.window j a).toNat : Nat) : Int) = _
      omega
    · intro hi
      refine congrArg some (funext fun a => Fin.ext ?_)
      have := hi a
      show (d.start j idx a + d.window j a).toNat = (i a).val
      omega
  · next h =>
    constructor
    · intro e; exact absurd e (by simp)
    · intro hi
      exact absurd (fun a => ⟨by have := hi a; omega, by have := hi a; have := (i a).isLt; omega⟩) h

/-! ## One rectangular window `[u0, u1]` written into a rank-2 array at the offset `(o0, o1)` -/

/-- The dimension numbers of such a write: both operand axes are window axes, none is inserted, and the index
    vector (of length two) names the two starts. -/
abbrev windowDims (s0 s1 u0 u1 : Nat) (wf : ScatterDims.WF ⟨2, ![s0, s1]⟩ ⟨1, ![2]⟩ ⟨2, ![u0, u1]⟩ [0, 1] [] [0, 1] 0) :
    ScatterDims ⟨2, ![s0, s1]⟩ ⟨1, ![2]⟩ ⟨2, ![u0, u1]⟩ where
  updateWindowDims := [0, 1]
  insertedWindowDims := []
  scatterDimsToOperandDims := [0, 1]
  indexVectorDim := 0
  wf := wf

section Window
variable {s0 s1 u0 u1 w : Nat} (wf : ScatterDims.WF ⟨2, ![s0, s1]⟩ ⟨1, ![2]⟩ ⟨2, ![u0, u1]⟩ [0, 1] [] [0, 1] 0)
  (j : (⟨2, ![u0, u1]⟩ : Shape).Idx) (idx : IVec ⟨1, ![2]⟩ w)

theorem windowDims_start0 : (windowDims s0 s1 u0 u1 wf).start j idx 0 = (idx (ix1 (0 : Fin 2))).toInt := by
  unfold ScatterDims.start
  rw [dif_pos (show (0 : Fin 2) ∈ ([0, 1] : List (Fin 2)) from by decide)]
  refine congrArg (fun k => (idx k).toInt) (funext fun b => ?_)
  match b with | ⟨0, _⟩ => rfl

theorem windowDims_start1 : (windowDims s0 s1 u0 u1 wf).start j idx 1 = (idx (ix1 (1 : Fin 2))).toInt := by
  unfold ScatterDims.start
  rw [dif_pos (show (1 : Fin 2) ∈ ([0, 1] : List (Fin 2)) from by decide)]
  refine congrArg (fun k => (idx k).toInt) (funext fun b => ?_)
  match b with | ⟨0, _⟩ => rfl

theorem windowDims_window0 : (windowDims s0 s1 u0 u1 wf).window j 0 = (j 0).val := by
  unfold ScatterDims.window
  rw [dif_pos (show (0 : Fin 2) ∈ (windowDims s0 s1 u0 u1 wf).sKept from (show (0 : Fin 2) ∈ ([0, 1] : List (Fin 2)) from by decide))]
  rfl

theorem windowDims_window1 : (windowDims s0 s1 u0 u1 wf).window j 1 = (j 1).val := by
  unfold ScatterDims.window
  rw [dif_pos (show (1 : Fin 2) ∈ (windowDims s0 s1 u0 u1 wf).sKept from (show (1 : Fin 2) ∈ ([0, 1] : List (Fin 2)) from by decide))]
  rfl

/-- Update element `j` of a window whose index vector reads `(o0, o1)` lands on `i` exactly when `i = (o0, o1) + j`. -/
theorem windowDims_resultIdx?_iff (o0 o1 : Nat) (h0 : (idx (ix1 (0 : Fin 2))).toInt = o0) (h1 : (idx (ix1 (1 : Fin 2))).toInt = o1)
    (i : (⟨2, ![s0, s1]⟩ : Shape).Idx) :
    (windowDims s0 s1 u0 u1 wf).resultIdx? j idx = some i ↔ (i 0).val = o0 + (j 0).val ∧ (i 1).val = o1 + (j 1).val := by
  rw [resultIdx?_eq_some_iff]
  constructor
  · intro h
    have e0 := h 0
    have e1 := h 1
    rw [windowDims_start0, windowDims_window0, h0] at e0
    rw [windowDims_start1, windowDims_window1, h1] at e1
    exact ⟨by omega, by omega⟩
  · rintro ⟨e0, e1⟩ a
    match a with
    | ⟨0, _⟩ =>
      show (((i 0).val : Nat) : Int) = (windowDims s0 s1 u0 u1 wf).start j idx 0 + (windowDims s0 s1 u0 u1 wf).window j 0
      rw [windowDims_start0, windowDims_window0, h0]; omega
    | ⟨1, _⟩ =>
      show (((i 1).val : Nat) : Int) = (windowDims s0 s1 u0 u1 wf).start j idx 1 + (windowDims s0 s1 u0 u1 wf).window j 1
      rw [windowDims_start1, windowDims_window1, h1]; omega

end Window

section WindowRead
variable {α : Type} {s0 s1 u0 u1 w : Nat} (wf : ScatterDims.WF ⟨2, ![s0, s1]⟩ ⟨1, ![2]⟩ ⟨2, ![u0, u1]⟩ [0, 1] [] [0, 1] 0)
  (x : (⟨2, ![s0, s1]⟩ : Shape).Idx → α) (idx : IVec ⟨1, ![2]⟩ w) (upd : (⟨2, ![u0, u1]⟩ : Shape).Idx → α)
  (o0 o1 : Nat) (h0 : (idx (ix1 (0 : Fin 2))).toInt = o0) (h1 : (idx (ix1 (1 : Fin 2))).toInt = o1)

include h0 h1 in
/-- Inside the window the written array reads the update, at the index less the offsets. -/
theorem scatter_window_apply_in (i : (⟨2, ![s0, s1]⟩ : Shape).Idx) (r : Fin u0) (q : Fin u1)
    (hi0 : (i 0).val = o0 + r.val) (hi1 : (i 1).val = o1 + q.val) :
    Host.scatter (windowDims s0 s1 u0 u1 wf) (fun _ b => b) x idx upd i = upd (ix2 r q) := by
  refine scatter_set_apply _ x idx upd i _ (Or.inr ⟨ix2 r q, ?_⟩) ?_
  · exact (windowDims_resultIdx?_iff wf (ix2 r q) idx o0 o1 h0 h1 i).2 ⟨hi0, hi1⟩
  · intro j hj
    have h := (windowDims_resultIdx?_iff wf j idx o0 o1 h0 h1 i).1 hj
    have a0 : j 0 = r := Fin.ext (by have := h.1; omega)
    have a1 : j 1 = q := Fin.ext (by have := h.2; omega)
    have ej : j = ix2 r q := by
      funext a
      match a with
      | ⟨0, _⟩ => exact a0
      | ⟨1, _⟩ => exact a1
    rw [ej]

include h0 h1 in
/-- Outside the window the written array reads the operand. -/
theorem scatter_window_apply_out (i : (⟨2, ![s0, s1]⟩ : Shape).Idx)
    (hout : ¬((o0 ≤ (i 0).val ∧ (i 0).val < o0 + u0) ∧ (o1 ≤ (i 1).val ∧ (i 1).val < o1 + u1))) :
    Host.scatter (windowDims s0 s1 u0 u1 wf) (fun _ b => b) x idx upd i = x i := by
  refine scatter_set_apply _ x idx upd i _ (Or.inl rfl) ?_
  intro j hj
  have h := (windowDims_resultIdx?_iff wf j idx o0 o1 h0 h1 i).1 hj
  have := idx2_lt0 j
  have := idx2_lt1 j
  exact absurd ⟨⟨by omega, by omega⟩, ⟨by omega, by omega⟩⟩ hout

end WindowRead

end Cert.Lib.ScatterSet

end
-- ==== Proof.LibHostLines.lean ====
/-
  A straight line of host operations, cut at one of them.

  The contents a line of operations leaves are a fold over the list.  To read ONE buffer after a long line without
  unfolding all of it: a buffer that no operation from position `k` on writes holds what the first `k` operations
  left (`after_eq_take`); the first `k + 1` operations are the first `k` followed by operation `k`
  (`after_take_succ`), whose own result lemma then applies; and two stretches run one after the other compose
  (`after_append`).  With these a buffer written once, by an operation whose operands are written earlier or
  never, is read in a few steps whatever the line's length and whatever the other operations are.
-/
import Idealize.ShloMosaic.Lib.StableHlo.Run

noncomputable section

namespace Cert.Lib.HostLines

open Idealize.ShloMosaic Idealize.ShloMosaic.StableHlo

section Lines
variable {τ : Topo} {sig : RefSig} {Val : EltTy → Type}

/-- Two stretches run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer written by no operation from position `k` on holds what the first `k` operations left. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- The first `k + 1` operations are the first `k`, then operation `k`. -/
theorem after_take_succ (ops : List (HloOp τ sig Val)) (V : Valuation τ sig Val) (k : Nat) (hk : k < ops.length) :
    after (ops.take (k + 1)) V = (ops[k]).result (after (ops.take k) V) := by
  rw [List.take_succ_eq_append_getElem hk, after_append]; rfl

end Lines

end Cert.Lib.HostLines

end
-- ==== Proof.LibConcatFour.lean ====
/-
  A concatenate of four pieces of one shape, read at an index given by coordinates: four vectors `[b]` laid end to
  end read, at `b n + q`, piece `n` at `q` (`concat4_axis0`); four matrices `[a, b]` set side by side read, at row `p`
  and column `b n + q`, piece `n` at `(p, q)` (`concat4_axis1`); and a block of 512 rows cut out of a `[1024, 512]`
  matrix reads, at row `k`, the matrix's row `o + k` (`slice_rows`).  Any element type.
-/
import Idealize.ShloMosaic.Lib.Pipeline.Value
import Idealize.ShloMosaic.Lib.ValueIdx

noncomputable section

namespace Cert.Lib.ConcatFour

open Idealize.ShloMosaic Idealize.ShloMosaic.ValueIdx

section Four
variable {α : Type}

/-- Four vectors `[b]` laid end to end: entry `b n + q` is entry `q` of piece `n`. -/
theorem concat4_axis0 {b N : Nat} (x0 x1 x2 x3 : (⟨1, ![b]⟩ : Shape).Idx → α)
    (h : Shape.Concatenates [(⟨1, ![b]⟩ : Shape), ⟨1, ![b]⟩, ⟨1, ![b]⟩, ⟨1, ![b]⟩] ⟨1, ![N]⟩ 0)
    (n : Fin 4) (q : Fin b) (K : Fin N) (hK : K.val = b * n.val + q.val) :
    concatenate ⟨1, ![N]⟩ 0 [⟨⟨1, ![b]⟩, x0⟩, ⟨⟨1, ![b]⟩, x1⟩, ⟨⟨1, ![b]⟩, x2⟩, ⟨⟨1, ![b]⟩, x3⟩] h (ix1 K)
      = (![x0, x1, x2, x3] n) (ix1 q) := by
  have hi : ∀ b' : Fin (⟨1, ![b]⟩ : Shape).rank, b'.cast (rfl : (⟨1, ![b]⟩ : Shape).rank = (⟨1, ![N]⟩ : Shape).rank) ≠ (0 : Fin 1) →
      ((ix1 q : (⟨1, ![b]⟩ : Shape).Idx) b').val = ((ix1 K : (⟨1, ![N]⟩ : Shape).Idx) (b'.cast rfl)).val :=
    fun b' hb => absurd (Fin.ext (by have hlt : b'.val < 1 := b'.isLt; show b'.val = 0; omega)) hb
  match n with
  | ⟨0, _⟩ =>
    exact concatenate_apply_piece 0 [⟨⟨1, ![b]⟩, x0⟩, ⟨⟨1, ![b]⟩, x1⟩, ⟨⟨1, ![b]⟩, x2⟩, ⟨⟨1, ![b]⟩, x3⟩] h (ix1 K) 0 (by show 0 < 4; omega) ⟨1, ![b]⟩ x0 rfl rfl 0 rfl (ix1 q) hi
      (by show 0 + q.val = K.val; rw [hK]; show 0 + q.val = b * 0 + q.val; omega)
  | ⟨1, _⟩ =>
    exact concatenate_apply_piece 0 [⟨⟨1, ![b]⟩, x0⟩, ⟨⟨1, ![b]⟩, x1⟩, ⟨⟨1, ![b]⟩, x2⟩, ⟨⟨1, ![b]⟩, x3⟩] h (ix1 K) 1 (by show 1 < 4; omega) ⟨1, ![b]⟩ x1 rfl rfl b (by show b + 0 = b; omega) (ix1 q) hi
      (by show b + q.val = K.val; rw [hK]; show b + q.val = b * 1 + q.val; omega)
  | ⟨2, _⟩ =>
    exact concatenate_apply_piece 0 [⟨⟨1, ![b]⟩, x0⟩, ⟨⟨1, ![b]⟩, x1⟩, ⟨⟨1, ![b]⟩, x2⟩, ⟨⟨1, ![b]⟩, x3⟩] h (ix1 K) 2 (by show 2 < 4; omega) ⟨1, ![b]⟩ x2 rfl rfl (b + b) (by show b + (b + 0) = b + b; omega) (ix1 q) hi
      (by show (b + b) + q.val = K.val; rw [hK]; show (b + b) + q.val = b * 2 + q.val; omega)
  | ⟨3, _⟩ =>
    exact concatenate_apply_piece 0 [⟨⟨1, ![b]⟩, x0⟩, ⟨⟨1, ![b]⟩, x1⟩, ⟨⟨1, ![b]⟩, x2⟩, ⟨⟨1, ![b]⟩, x3⟩] h (ix1 K) 3 (by show 3 < 4; omega) ⟨1, ![b]⟩ x3 rfl rfl (b + b + b) (by show b + (b + (b + 0)) = b + b + b; omega) (ix1 q) hi
      (by show (b + b + b) + q.val = K.val; rw [hK]; show (b + b + b) + q.val = b * 3 + q.val; omega)
  | ⟨_ + 4, h⟩ => exact absurd h (by omega)

/-- Four matrices `[a, b]` set side by side: column `b n + q` is column `q` of piece `n`, the row unchanged. -/
theorem concat4_axis1 {a b N : Nat} (x0 x1 x2 x3 : (⟨2, ![a, b]⟩ : Shape).Idx → α)
    (h : Shape.Concatenates [(⟨2, ![a, b]⟩ : Shape), ⟨2, ![a, b]⟩, ⟨2, ![a, b]⟩, ⟨2, ![a, b]⟩] ⟨2, ![a, N]⟩ 1)
    (p : Fin a) (n : Fin 4) (q : Fin b) (K : Fin N) (hK : K.val = b * n.val + q.val) :
    concatenate ⟨2, ![a, N]⟩ 1 [⟨⟨2, ![a, b]⟩, x0⟩, ⟨⟨2, ![a, b]⟩, x1⟩, ⟨⟨2, ![a, b]⟩, x2⟩, ⟨⟨2, ![a, b]⟩, x3⟩] h (ix2 p K)
      = (![x0, x1, x2, x3] n) (ix2 p q) := by
  have hi : ∀ b' : Fin (⟨2, ![a, b]⟩ : Shape).rank, b'.cast (rfl : (⟨2, ![a, b]⟩ : Shape).rank = (⟨2, ![a, N]⟩ : Shape).rank) ≠ (1 : Fin 2) →
      ((ix2 p q : (⟨2, ![a, b]⟩ : Shape).Idx) b').val = ((ix2 p K : (⟨2, ![a, N]⟩ : Shape).Idx) (b'.cast rfl)).val :=
    fun b' hb => match b', hb with
      | ⟨0, _⟩, _ => rfl
      | ⟨1, _⟩, hb => absurd rfl hb
  match n with
  | ⟨0, _⟩ =>
    exact concatenate_apply_piece 1 [⟨⟨2, ![a, b]⟩, x0⟩, ⟨⟨2, ![a, b]⟩, x1⟩, ⟨⟨2, ![a, b]⟩, x2⟩, ⟨⟨2, ![a, b]⟩, x3⟩] h (ix2 p K) 0 (by show 0 < 4; omega) ⟨2, ![a, b]⟩ x0 rfl rfl 0 rfl (ix2 p q) hi
      (by show 0 + q.val = K.val; rw [hK]; show 0 + q.val = b * 0 + q.val; omega)
  | ⟨1, _⟩ =>
    exact concatenate_apply_piece 1 [⟨⟨2, ![a, b]⟩, x0⟩, ⟨⟨2, ![a, b]⟩, x1⟩, ⟨⟨2, ![a, b]⟩, x2⟩, ⟨⟨2, ![a, b]⟩, x3⟩] h (ix2 p K) 1 (by show 1 < 4; omega) ⟨2, ![a, b]⟩ x1 rfl rfl b (by show b + 0 = b; omega) (ix2 p q) hi
      (by show b + q.val = K.val; rw [hK]; show b + q.val = b * 1 + q.val; omega)
  | ⟨2, _⟩ =>
    exact concatenate_apply_piece 1 [⟨⟨2, ![a, b]⟩, x0⟩, ⟨⟨2, ![a, b]⟩, x1⟩, ⟨⟨2, ![a, b]⟩, x2⟩, ⟨⟨2, ![a, b]⟩, x3⟩] h (ix2 p K) 2 (by show 2 < 4; omega) ⟨2, ![a, b]⟩ x2 rfl rfl (b + b) (by show b + (b + 0) = b + b; omega) (ix2 p q) hi
      (by show (b + b) + q.val = K.val; rw [hK]; show (b + b) + q.val = b * 2 + q.val; omega)
  | ⟨3, _⟩ =>
    exact concatenate_apply_piece 1 [⟨⟨2, ![a, b]⟩, x0⟩, ⟨⟨2, ![a, b]⟩, x1⟩, ⟨⟨2, ![a, b]⟩, x2⟩, ⟨⟨2, ![a, b]⟩, x3⟩] h (ix2 p K) 3 (by show 3 < 4; omega) ⟨2, ![a, b]⟩ x3 rfl rfl (b + b + b) (by show b + (b + (b + 0)) = b + b + b; omega) (ix2 p q) hi
      (by show (b + b + b) + q.val = K.val; rw [hK]; show (b + b + b) + q.val = b * 3 + q.val; omega)
  | ⟨_ + 4, h⟩ => exact absurd h (by omega)

/-- Rows `o … o + 511` of a `[1024, 512]` matrix, cut out: row `k` of the slice is row `o + k`. -/
theorem slice_rows (o : Nat) (x : (⟨2, ![1024, 512]⟩ : Shape).Idx → α)
    (hs : (⟨2, ![1024, 512]⟩ : Shape).Slices ![o, 0] ⟨2, ![512, 512]⟩) (k d : Fin 512) (r : Fin 1024) (hr : r.val = o + k.val) :
    extractStridedSlice ⟨2, ![512, 512]⟩ ![o, 0] x hs (ix2 k d) = x (ix2 r d) :=
  extractStridedSlice_apply ![o, 0] x hs (ix2 k d) (ix2 r d) fun a =>
    match a with
    | ⟨0, _⟩ => hr
    | ⟨1, _⟩ => by show d.val = 0 + d.val; omega

end Four

end Cert.Lib.ConcatFour

end
-- ==== Proof.HostConcat.lean ====
/-
  Five of the seven weight arrays the kernel stages are plain rearrangements of the arguments, built by the host
  lines before the launch: the first 512 rows of the four gates' main layers set side by side (`main_v5`), the last
  512 rows likewise (`main_v11`), and the four gates' three bias vectors each laid end to end (`main_v12`,
  `main_v31`, `main_v50`).  Each is written by ONE host line, a concatenate of four pieces (for the first two,
  followed by a change of float format, the identity on the extended reals), whose operands are argument arrays —
  written by no line — or row slices of them.  Read at an index: column `512 n + d` of a side-by-side array is
  column `d` of gate `n`'s piece, entry `L n + j` of an end-to-end vector is entry `j` of gate `n`'s.
-/
import proofs.«115885_j65481071407962_2_alg».proof.Proof.Gen.KernelIdeal.Launch
import proofs.«115885_j65481071407962_2_alg».proof.Proof.Spec
import proofs.«115885_j65481071407962_2_alg».proof.Proof.LibHostLines
import proofs.«115885_j65481071407962_2_alg».proof.Proof.LibConcatFour
import Idealize.ShloMosaic.Lib.StableHlo.Run
import Idealize.ShloMosaic.Lib.Pipeline.Value

set_option maxRecDepth 16384

noncomputable section

namespace Cert.KernelIdeal.HostConcat

open Cert.KernelIdeal Cert.KernelIdeal.Gen Idealize.ShloMosaic Idealize.ShloMosaic.TcCoe Idealize.SL.Sem
open Idealize.ShloMosaic.StableHlo Idealize.ShloMosaic.ValueIdx
open Cert.Lib.HostLines Cert.Lib.ConcatFour

export Cert.Lib.HostLines (after_append after_eq_take after_take_succ)
export Cert.Lib.ConcatFour (concat4_axis0 concat4_axis1 slice_rows)

variable (m : (ℓ : Loc nD τ sig) → Buf (Elt Ideal) ℓ) (c : Dev nD)

/-- The four gates' parameters as launched, in memory `m` on core `c`. -/
def gates : Fin 4 → Spec.Gate :=
  Spec.gates4
    ⟨m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
    ⟨m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14)⟩
    ⟨m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20)⟩
    ⟨m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26)⟩

/-! ## The argument arrays are written by no host line -/

theorem unwritten3 : (hostOps0 (F := Ideal)).Forall fun op => Proc.devRef .tc main_arg3 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten9 : (hostOps0 (F := Ideal)).Forall fun op => Proc.devRef .tc main_arg9 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten15 : (hostOps0 (F := Ideal)).Forall fun op => Proc.devRef .tc main_arg15 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten21 : (hostOps0 (F := Ideal)).Forall fun op => Proc.devRef .tc main_arg21 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten4 : (hostOps0 (F := Ideal)).Forall fun op => Proc.devRef .tc main_arg4 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten10 : (hostOps0 (F := Ideal)).Forall fun op => Proc.devRef .tc main_arg10 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten16 : (hostOps0 (F := Ideal)).Forall fun op => Proc.devRef .tc main_arg16 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten22 : (hostOps0 (F := Ideal)).Forall fun op => Proc.devRef .tc main_arg22 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten6 : (hostOps0 (F := Ideal)).Forall fun op => Proc.devRef .tc main_arg6 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten12 : (hostOps0 (F := Ideal)).Forall fun op => Proc.devRef .tc main_arg12 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten18 : (hostOps0 (F := Ideal)).Forall fun op => Proc.devRef .tc main_arg18 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten24 : (hostOps0 (F := Ideal)).Forall fun op => Proc.devRef .tc main_arg24 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten8 : (hostOps0 (F := Ideal)).Forall fun op => Proc.devRef .tc main_arg8 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten14 : (hostOps0 (F := Ideal)).Forall fun op => Proc.devRef .tc main_arg14 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten20 : (hostOps0 (F := Ideal)).Forall fun op => Proc.devRef .tc main_arg20 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)
theorem unwritten26 : (hostOps0 (F := Ideal)).Forall fun op => Proc.devRef .tc main_arg26 ∉ op.writes := by
  simp only [hostOps0, List.Forall, StableHlo.nullary_writes, StableHlo.unary_writes, StableHlo.binary_writes,
    StableHlo.ternary_writes, StableHlo.nary_writes, Finset.mem_singleton]
  repeat' apply And.intro
  all_goals exact StableHlo.devRef_ne_of_ne (by decide)

/-- So any first stretch of the host lines leaves such an array as launched. -/
theorem prefix_unwritten (r : Ref sig .tc) (h : (hostOps0 (F := Ideal)).Forall fun op => Proc.devRef .tc r ∉ op.writes) (k : Nat) :
    StableHlo.after (List.take k (hostOps0 (F := Ideal))) (fun b => m (c, b)) (Proc.devRef .tc r) = m ((c.tc : Thread nD τ).loc r) :=
  StableHlo.after_of_forall_not_mem _ _ fun op hop => (List.forall_iff_forall_mem.mp h) op (List.mem_of_mem_take hop)

/-! ## The three bias vectors -/

theorem drop_bias : (List.drop 13 (hostOps0 (F := Ideal))).Forall fun op => Proc.devRef .tc main_v12 ∉ op.writes := by
  simp only [hostOps0, List.drop_succ_cons, List.drop_zero, List.Forall, StableHlo.nullary_writes, StableHlo.unary_writes,
    StableHlo.binary_writes, StableHlo.ternary_writes, StableHlo.nary_writes, Finset.mem_singleton]
  repeat' apply And.intro
  all_goals exact StableHlo.devRef_ne_of_ne (by decide)

/-- `main_v12` when the region is entered: the four gates' vectors one after the other. -/
theorem bias_eq : (StableHlo.after (hostOps0 (F := Ideal)) (fun b => m (c, b)) main_v12 : S2048.Idx → EReal)
    = concatenate S2048 0 [⟨S512, m ((c.tc : Thread nD τ).loc main_arg4)⟩, ⟨S512, m ((c.tc : Thread nD τ).loc main_arg10)⟩, ⟨S512, m ((c.tc : Thread nD τ).loc main_arg16)⟩, ⟨S512, m ((c.tc : Thread nD τ).loc main_arg22)⟩] concatenates_S512_S512_S512_S512_S2048_d0 := by
  rw [after_eq_take _ _ 13 _ (List.forall_iff_forall_mem.mp drop_bias), after_take_succ _ _ 12 (by decide)]
  simp only [hostOps0, List.getElem_cons_succ, List.getElem_cons_zero]
  rw [StableHlo.nary_result]
  show concatenate S2048 0 [⟨S512, StableHlo.after (List.take 12 (hostOps0 (F := Ideal))) (fun b => m (c, b)) (Proc.devRef .tc main_arg4)⟩,
      ⟨S512, StableHlo.after (List.take 12 (hostOps0 (F := Ideal))) (fun b => m (c, b)) (Proc.devRef .tc main_arg10)⟩,
      ⟨S512, StableHlo.after (List.take 12 (hostOps0 (F := Ideal))) (fun b => m (c, b)) (Proc.devRef .tc main_arg16)⟩,
      ⟨S512, StableHlo.after (List.take 12 (hostOps0 (F := Ideal))) (fun b => m (c, b)) (Proc.devRef .tc main_arg22)⟩] concatenates_S512_S512_S512_S512_S2048_d0 = _
  rw [prefix_unwritten m c _ unwritten4, prefix_unwritten m c _ unwritten10, prefix_unwritten m c _ unwritten16,
    prefix_unwritten m c _ unwritten22]

theorem drop_b1 : (List.drop 41 (hostOps0 (F := Ideal))).Forall fun op => Proc.devRef .tc main_v31 ∉ op.writes := by
  simp only [hostOps0, List.drop_succ_cons, List.drop_zero, List.Forall, StableHlo.nullary_writes, StableHlo.unary_writes,
    StableHlo.binary_writes, StableHlo.ternary_writes, StableHlo.nary_writes, Finset.mem_singleton]
  repeat' apply And.intro
  all_goals exact StableHlo.devRef_ne_of_ne (by decide)

/-- `main_v31` when the region is entered: the four gates' vectors one after the other. -/
theorem b1_eq : (StableHlo.after (hostOps0 (F := Ideal)) (fun b => m (c, b)) main_v31 : S64.Idx → EReal)
    = concatenate S64 0 [⟨S16, m ((c.tc : Thread nD τ).loc main_arg6)⟩, ⟨S16, m ((c.tc : Thread nD τ).loc main_arg12)⟩, ⟨S16, m ((c.tc : Thread nD τ).loc main_arg18)⟩, ⟨S16, m ((c.tc : Thread nD τ).loc main_arg24)⟩] concatenates_S16_S16_S16_S16_S64_d0 := by
  rw [after_eq_take _ _ 41 _ (List.forall_iff_forall_mem.mp drop_b1), after_take_succ _ _ 40 (by decide)]
  simp only [hostOps0, List.getElem_cons_succ, List.getElem_cons_zero]
  rw [StableHlo.nary_result]
  show concatenate S64 0 [⟨S16, StableHlo.after (List.take 40 (hostOps0 (F := Ideal))) (fun b => m (c, b)) (Proc.devRef .tc main_arg6)⟩,
      ⟨S16, StableHlo.after (List.take 40 (hostOps0 (F := Ideal))) (fun b => m (c, b)) (Proc.devRef .tc main_arg12)⟩,
      ⟨S16, StableHlo.after (List.take 40 (hostOps0 (F := Ideal))) (fun b => m (c, b)) (Proc.devRef .tc main_arg18)⟩,
      ⟨S16, StableHlo.after (List.take 40 (hostOps0 (F := Ideal))) (fun b => m (c, b)) (Proc.devRef .tc main_arg24)⟩] concatenates_S16_S16_S16_S16_S64_d0 = _
  rw [prefix_unwritten m c _ unwritten6, prefix_unwritten m c _ unwritten12, prefix_unwritten m c _ unwritten18,
    prefix_unwritten m c _ unwritten24]

theorem drop_b2 : (List.drop 69 (hostOps0 (F := Ideal))).Forall fun op => Proc.devRef .tc main_v50 ∉ op.writes := by
  simp only [hostOps0, List.drop_succ_cons, List.drop_zero, List.Forall, StableHlo.nullary_writes, StableHlo.unary_writes,
    StableHlo.binary_writes, StableHlo.ternary_writes, StableHlo.nary_writes, Finset.mem_singleton]
  repeat' apply And.intro
  all_goals exact StableHlo.devRef_ne_of_ne (by decide)

/-- `main_v50` when the region is entered: the four gates' vectors one after the other. -/
theorem b2_eq : (StableHlo.after (hostOps0 (F := Ideal)) (fun b => m (c, b)) main_v50 : S4.Idx → EReal)
    = concatenate S4 0 [⟨S1, m ((c.tc : Thread nD τ).loc main_arg8)⟩, ⟨S1, m ((c.tc : Thread nD τ).loc main_arg14)⟩, ⟨S1, m ((c.tc : Thread nD τ).loc main_arg20)⟩, ⟨S1, m ((c.tc : Thread nD τ).loc main_arg26)⟩] concatenates_S1_S1_S1_S1_S4_d0 := by
  rw [after_eq_take _ _ 69 _ (List.forall_iff_forall_mem.mp drop_b2), after_take_succ _ _ 68 (by decide)]
  simp only [hostOps0, List.getElem_cons_succ, List.getElem_cons_zero]
  rw [StableHlo.nary_result]
  show concatenate S4 0 [⟨S1, StableHlo.after (List.take 68 (hostOps0 (F := Ideal))) (fun b => m (c, b)) (Proc.devRef .tc main_arg8)⟩,
      ⟨S1, StableHlo.after (List.take 68 (hostOps0 (F := Ideal))) (fun b => m (c, b)) (Proc.devRef .tc main_arg14)⟩,
      ⟨S1, StableHlo.after (List.take 68 (hostOps0 (F := Ideal))) (fun b => m (c, b)) (Proc.devRef .tc main_arg20)⟩,
      ⟨S1, StableHlo.after (List.take 68 (hostOps0 (F := Ideal))) (fun b => m (c, b)) (Proc.devRef .tc main_arg26)⟩] concatenates_S1_S1_S1_S1_S4_d0 = _
  rw [prefix_unwritten m c _ unwritten8, prefix_unwritten m c _ unwritten14, prefix_unwritten m c _ unwritten20,
    prefix_unwritten m c _ unwritten26]

/-- Field `bias` of `Spec.Fused`. -/
theorem bias (n : Fin 4) (d : Fin 512) :
    (StableHlo.after (hostOps0 (F := Ideal)) (fun b => m (c, b)) main_v12 : S2048.Idx → EReal) (ix1 (⟨512 * n.val + d.val, by omega⟩ : Fin 2048)) = (gates m c n).b (ix1 d) := by
  rw [bias_eq]
  refine (concat4_axis0 _ _ _ _ _ n d (⟨512 * n.val + d.val, by omega⟩ : Fin 2048) rfl).trans ?_
  match n with
  | ⟨0, _⟩ => rfl
  | ⟨1, _⟩ => rfl
  | ⟨2, _⟩ => rfl
  | ⟨3, _⟩ => rfl
  | ⟨_ + 4, h⟩ => exact absurd h (by omega)

/-- Field `b1` of `Spec.Fused`. -/
theorem b1 (n : Fin 4) (j : Fin 16) :
    (StableHlo.after (hostOps0 (F := Ideal)) (fun b => m (c, b)) main_v31 : S64.Idx → EReal) (ix1 (⟨16 * n.val + j.val, by omega⟩ : Fin 64)) = (gates m c n).b1 (ix1 j) := by
  rw [b1_eq]
  refine (concat4_axis0 _ _ _ _ _ n j (⟨16 * n.val + j.val, by omega⟩ : Fin 64) rfl).trans ?_
  match n with
  | ⟨0, _⟩ => rfl
  | ⟨1, _⟩ => rfl
  | ⟨2, _⟩ => rfl
  | ⟨3, _⟩ => rfl
  | ⟨_ + 4, h⟩ => exact absurd h (by omega)

/-- Field `b2` of `Spec.Fused`. -/
theorem b2 (n : Fin 4) :
    (StableHlo.after (hostOps0 (F := Ideal)) (fun b => m (c, b)) main_v50 : S4.Idx → EReal) (ix1 n) = (gates m c n).b2 (ix1 (0 : Fin 1)) := by
  rw [b2_eq]
  refine (concat4_axis0 _ _ _ _ _ n (0 : Fin 1) n (by show n.val = 1 * n.val + 0; omega)).trans ?_
  match n with
  | ⟨0, _⟩ => rfl
  | ⟨1, _⟩ => rfl
  | ⟨2, _⟩ => rfl
  | ⟨3, _⟩ => rfl
  | ⟨_ + 4, h⟩ => exact absurd h (by omega)

/-! ## The two halves of the main layers -/

theorem drop_wt : (List.drop 6 (hostOps0 (F := Ideal))).Forall fun op => Proc.devRef .tc main_v5 ∉ op.writes := by
  simp only [hostOps0, List.drop_succ_cons, List.drop_zero, List.Forall, StableHlo.nullary_writes, StableHlo.unary_writes,
    StableHlo.binary_writes, StableHlo.ternary_writes, StableHlo.nary_writes, Finset.mem_singleton]
  repeat' apply And.intro
  all_goals exact StableHlo.devRef_ne_of_ne (by decide)

/-! A row slice of a gate's main layer, as the first 4 host lines leave it. -/
theorem wt_piece0 : (StableHlo.after (List.take 4 (hostOps0 (F := Ideal))) (fun b => m (c, b)) (Proc.devRef .tc main_v0) : S512x512.Idx → EReal)
    = extractStridedSlice S512x512 ![0, 0] (m ((c.tc : Thread nD τ).loc main_arg3)) slices_S1024x512_S512x512_0_0 := by
  simp (disch := decide) only [hostOps0, List.take_succ_cons, List.take_zero, after_cons, after_nil, unary_result', nary_result_ne', unary_result_ne']
theorem wt_piece1 : (StableHlo.after (List.take 4 (hostOps0 (F := Ideal))) (fun b => m (c, b)) (Proc.devRef .tc main_v1) : S512x512.Idx → EReal)
    = extractStridedSlice S512x512 ![0, 0] (m ((c.tc : Thread nD τ).loc main_arg9)) slices_S1024x512_S512x512_0_0 := by
  simp (disch := decide) only [hostOps0, List.take_succ_cons, List.take_zero, after_cons, after_nil, unary_result', nary_result_ne', unary_result_ne']
theorem wt_piece2 : (StableHlo.after (List.take 4 (hostOps0 (F := Ideal))) (fun b => m (c, b)) (Proc.devRef .tc main_v2) : S512x512.Idx → EReal)
    = extractStridedSlice S512x512 ![0, 0] (m ((c.tc : Thread nD τ).loc main_arg15)) slices_S1024x512_S512x512_0_0 := by
  simp (disch := decide) only [hostOps0, List.take_succ_cons, List.take_zero, after_cons, after_nil, unary_result', nary_result_ne', unary_result_ne']
theorem wt_piece3 : (StableHlo.after (List.take 4 (hostOps0 (F := Ideal))) (fun b => m (c, b)) (Proc.devRef .tc main_v3) : S512x512.Idx → EReal)
    = extractStridedSlice S512x512 ![0, 0] (m ((c.tc : Thread nD τ).loc main_arg21)) slices_S1024x512_S512x512_0_0 := by
  simp (disch := decide) only [hostOps0, List.take_succ_cons, List.take_zero, after_cons, after_nil, unary_result', nary_result_ne', unary_result_ne']

/-- `main_v4`, the four gates' row slices side by side, as the first 5 host lines leave it. -/
theorem wt_cat : (StableHlo.after (List.take (4 + 1) (hostOps0 (F := Ideal))) (fun b => m (c, b)) (Proc.devRef .tc main_v4) : S512x2048.Idx → EReal)
    = concatenate S512x2048 1 [⟨S512x512, extractStridedSlice S512x512 ![0, 0] (m ((c.tc : Thread nD τ).loc main_arg3)) slices_S1024x512_S512x512_0_0⟩,
        ⟨S512x512, extractStridedSlice S512x512 ![0, 0] (m ((c.tc : Thread nD τ).loc main_arg9)) slices_S1024x512_S512x512_0_0⟩,
        ⟨S512x512, extractStridedSlice S512x512 ![0, 0] (m ((c.tc : Thread nD τ).loc main_arg15)) slices_S1024x512_S512x512_0_0⟩,
        ⟨S512x512, extractStridedSlice S512x512 ![0, 0] (m ((c.tc : Thread nD τ).loc main_arg21)) slices_S1024x512_S512x512_0_0⟩]
        concatenates_S512x512_S512x512_S512x512_S512x512_S512x2048_d1 := by
  rw [after_take_succ _ _ 4 (by decide)]
  simp only [hostOps0, List.getElem_cons_succ, List.getElem_cons_zero]
  rw [StableHlo.nary_result]
  show concatenate S512x2048 1 [⟨S512x512, StableHlo.after (List.take 4 (hostOps0 (F := Ideal))) (fun b => m (c, b)) (Proc.devRef .tc main_v0)⟩,
      ⟨S512x512, StableHlo.after (List.take 4 (hostOps0 (F := Ideal))) (fun b => m (c, b)) (Proc.devRef .tc main_v1)⟩,
      ⟨S512x512, StableHlo.after (List.take 4 (hostOps0 (F := Ideal))) (fun b => m (c, b)) (Proc.devRef .tc main_v2)⟩,
      ⟨S512x512, StableHlo.after (List.take 4 (hostOps0 (F := Ideal))) (fun b => m (c, b)) (Proc.devRef .tc main_v3)⟩]
      concatenates_S512x512_S512x512_S512x512_S512x512_S512x2048_d1 = _
  rw [wt_piece0, wt_piece1, wt_piece2, wt_piece3]

/-- `main_v5` when the region is entered: the same array, the change of float format being the identity on the
    extended reals. -/
theorem wt_eq : (StableHlo.after (hostOps0 (F := Ideal)) (fun b => m (c, b)) main_v5 : S512x2048.Idx → EReal)
    = concatenate S512x2048 1 [⟨S512x512, extractStridedSlice S512x512 ![0, 0] (m ((c.tc : Thread nD τ).loc main_arg3)) slices_S1024x512_S512x512_0_0⟩,
        ⟨S512x512, extractStridedSlice S512x512 ![0, 0] (m ((c.tc : Thread nD τ).loc main_arg9)) slices_S1024x512_S512x512_0_0⟩,
        ⟨S512x512, extractStridedSlice S512x512 ![0, 0] (m ((c.tc : Thread nD τ).loc main_arg15)) slices_S1024x512_S512x512_0_0⟩,
        ⟨S512x512, extractStridedSlice S512x512 ![0, 0] (m ((c.tc : Thread nD τ).loc main_arg21)) slices_S1024x512_S512x512_0_0⟩]
        concatenates_S512x512_S512x512_S512x512_S512x512_S512x2048_d1 := by
  rw [after_eq_take _ _ 6 _ (List.forall_iff_forall_mem.mp drop_wt), after_take_succ _ _ 5 (by decide)]
  simp only [hostOps0, List.getElem_cons_succ, List.getElem_cons_zero]
  rw [StableHlo.unary_result]
  exact wt_cat m c

/-- Field `wt` of `Spec.Fused`. -/
theorem wt (k : Fin 512) (n : Fin 4) (d : Fin 512) :
    (StableHlo.after (hostOps0 (F := Ideal)) (fun b => m (c, b)) main_v5 : S512x2048.Idx → EReal) (ix2 k (⟨512 * n.val + d.val, by omega⟩ : Fin 2048))
      = (gates m c n).W (ix2 (⟨k.val, by omega⟩ : Fin 1024) d) := by
  rw [wt_eq]
  refine (concat4_axis1 _ _ _ _ _ k n d (⟨512 * n.val + d.val, by omega⟩ : Fin 2048) rfl).trans ?_
  match n with
  | ⟨0, _⟩ => exact slice_rows 0 (m ((c.tc : Thread nD τ).loc main_arg3)) slices_S1024x512_S512x512_0_0 k d _ (by show k.val = 0 + k.val; omega)
  | ⟨1, _⟩ => exact slice_rows 0 (m ((c.tc : Thread nD τ).loc main_arg9)) slices_S1024x512_S512x512_0_0 k d _ (by show k.val = 0 + k.val; omega)
  | ⟨2, _⟩ => exact slice_rows 0 (m ((c.tc : Thread nD τ).loc main_arg15)) slices_S1024x512_S512x512_0_0 k d _ (by show k.val = 0 + k.val; omega)
  | ⟨3, _⟩ => exact slice_rows 0 (m ((c.tc : Thread nD τ).loc main_arg21)) slices_S1024x512_S512x512_0_0 k d _ (by show k.val = 0 + k.val; omega)
  | ⟨_ + 4, h⟩ => exact absurd h (by omega)

theorem drop_wb : (List.drop 12 (hostOps0 (F := Ideal))).Forall fun op => Proc.devRef .tc main_v11 ∉ op.writes := by
  simp only [hostOps0, List.drop_succ_cons, List.drop_zero, List.Forall, StableHlo.nullary_writes, StableHlo.unary_writes,
    StableHlo.binary_writes, StableHlo.ternary_writes, StableHlo.nary_writes, Finset.mem_singleton]
  repeat' apply And.intro
  all_goals exact StableHlo.devRef_ne_of_ne (by decide)

/-! A row slice of a gate's main layer, as the first 10 host lines leave it. -/
theorem wb_piece0 : (StableHlo.after (List.take 10 (hostOps0 (F := Ideal))) (fun b => m (c, b)) (Proc.devRef .tc main_v6) : S512x512.Idx → EReal)
    = extractStridedSlice S512x512 ![512, 0] (m ((c.tc : Thread nD τ).loc main_arg3)) slices_S1024x512_S512x512_512_0 := by
  simp (disch := decide) only [hostOps0, List.take_succ_cons, List.take_zero, after_cons, after_nil, unary_result', nary_result_ne', unary_result_ne']
theorem wb_piece1 : (StableHlo.after (List.take 10 (hostOps0 (F := Ideal))) (fun b => m (c, b)) (Proc.devRef .tc main_v7) : S512x512.Idx → EReal)
    = extractStridedSlice S512x512 ![512, 0] (m ((c.tc : Thread nD τ).loc main_arg9)) slices_S1024x512_S512x512_512_0 := by
  simp (disch := decide) only [hostOps0, List.take_succ_cons, List.take_zero, after_cons, after_nil, unary_result', nary_result_ne', unary_result_ne']
theorem wb_piece2 : (StableHlo.after (List.take 10 (hostOps0 (F := Ideal))) (fun b => m (c, b)) (Proc.devRef .tc main_v8) : S512x512.Idx → EReal)
    = extractStridedSlice S512x512 ![512, 0] (m ((c.tc : Thread nD τ).loc main_arg15)) slices_S1024x512_S512x512_512_0 := by
  simp (disch := decide) only [hostOps0, List.take_succ_cons, List.take_zero, after_cons, after_nil, unary_result', nary_result_ne', unary_result_ne']
theorem wb_piece3 : (StableHlo.after (List.take 10 (hostOps0 (F := Ideal))) (fun b => m (c, b)) (Proc.devRef .tc main_v9) : S512x512.Idx → EReal)
    = extractStridedSlice S512x512 ![512, 0] (m ((c.tc : Thread nD τ).loc main_arg21)) slices_S1024x512_S512x512_512_0 := by
  simp (disch := decide) only [hostOps0, List.take_succ_cons, List.take_zero, after_cons, after_nil, unary_result', nary_result_ne', unary_result_ne']

/-- `main_v10`, the four gates' row slices side by side, as the first 11 host lines leave it. -/
theorem wb_cat : (StableHlo.after (List.take (10 + 1) (hostOps0 (F := Ideal))) (fun b => m (c, b)) (Proc.devRef .tc main_v10) : S512x2048.Idx → EReal)
    = concatenate S512x2048 1 [⟨S512x512, extractStridedSlice S512x512 ![512, 0] (m ((c.tc : Thread nD τ).loc main_arg3)) slices_S1024x512_S512x512_512_0⟩,
        ⟨S512x512, extractStridedSlice S512x512 ![512, 0] (m ((c.tc : Thread nD τ).loc main_arg9)) slices_S1024x512_S512x512_512_0⟩,
        ⟨S512x512, extractStridedSlice S512x512 ![512, 0] (m ((c.tc : Thread nD τ).loc main_arg15)) slices_S1024x512_S512x512_512_0⟩,
        ⟨S512x512, extractStridedSlice S512x512 ![512, 0] (m ((c.tc : Thread nD τ).loc main_arg21)) slices_S1024x512_S512x512_512_0⟩]
        concatenates_S512x512_S512x512_S512x512_S512x512_S512x2048_d1 := by
  rw [after_take_succ _ _ 10 (by decide)]
  simp only [hostOps0, List.getElem_cons_succ, List.getElem_cons_zero]
  rw [StableHlo.nary_result]
  show concatenate S512x2048 1 [⟨S512x512, StableHlo.after (List.take 10 (hostOps0 (F := Ideal))) (fun b => m (c, b)) (Proc.devRef .tc main_v6)⟩,
      ⟨S512x512, StableHlo.after (List.take 10 (hostOps0 (F := Ideal))) (fun b => m (c, b)) (Proc.devRef .tc main_v7)⟩,
      ⟨S512x512, StableHlo.after (List.take 10 (hostOps0 (F := Ideal))) (fun b => m (c, b)) (Proc.devRef .tc main_v8)⟩,
      ⟨S512x512, StableHlo.after (List.take 10 (hostOps0 (F := Ideal))) (fun b => m (c, b)) (Proc.devRef .tc main_v9)⟩]
      concatenates_S512x512_S512x512_S512x512_S512x512_S512x2048_d1 = _
  rw [wb_piece0, wb_piece1, wb_piece2, wb_piece3]

/-- `main_v11` when the region is entered: the same array, the change of float format being the identity on the
    extended reals. -/
theorem wb_eq : (StableHlo.after (hostOps0 (F := Ideal)) (fun b => m (c, b)) main_v11 : S512x2048.Idx → EReal)
    = concatenate S512x2048 1 [⟨S512x512, extractStridedSlice S512x512 ![512, 0] (m ((c.tc : Thread nD τ).loc main_arg3)) slices_S1024x512_S512x512_512_0⟩,
        ⟨S512x512, extractStridedSlice S512x512 ![512, 0] (m ((c.tc : Thread nD τ).loc main_arg9)) slices_S1024x512_S512x512_512_0⟩,
        ⟨S512x512, extractStridedSlice S512x512 ![512, 0] (m ((c.tc : Thread nD τ).loc main_arg15)) slices_S1024x512_S512x512_512_0⟩,
        ⟨S512x512, extractStridedSlice S512x512 ![512, 0] (m ((c.tc : Thread nD τ).loc main_arg21)) slices_S1024x512_S512x512_512_0⟩]
        concatenates_S512x512_S512x512_S512x512_S512x512_S512x2048_d1 := by
  rw [after_eq_take _ _ 12 _ (List.forall_iff_forall_mem.mp drop_wb), after_take_succ _ _ 11 (by decide)]
  simp only [hostOps0, List.getElem_cons_succ, List.getElem_cons_zero]
  rw [StableHlo.unary_result]
  exact wb_cat m c

/-- Field `wb` of `Spec.Fused`. -/
theorem wb (k : Fin 512) (n : Fin 4) (d : Fin 512) :
    (StableHlo.after (hostOps0 (F := Ideal)) (fun b => m (c, b)) main_v11 : S512x2048.Idx → EReal) (ix2 k (⟨512 * n.val + d.val, by omega⟩ : Fin 2048))
      = (gates m c n).W (ix2 (⟨512 + k.val, by omega⟩ : Fin 1024) d) := by
  rw [wb_eq]
  refine (concat4_axis1 _ _ _ _ _ k n d (⟨512 * n.val + d.val, by omega⟩ : Fin 2048) rfl).trans ?_
  match n with
  | ⟨0, _⟩ => exact slice_rows 512 (m ((c.tc : Thread nD τ).loc main_arg3)) slices_S1024x512_S512x512_512_0 k d _ (by show 512 + k.val = 512 + k.val; omega)
  | ⟨1, _⟩ => exact slice_rows 512 (m ((c.tc : Thread nD τ).loc main_arg9)) slices_S1024x512_S512x512_512_0 k d _ (by show 512 + k.val = 512 + k.val; omega)
  | ⟨2, _⟩ => exact slice_rows 512 (m ((c.tc : Thread nD τ).loc main_arg15)) slices_S1024x512_S512x512_512_0 k d _ (by show 512 + k.val = 512 + k.val; omega)
  | ⟨3, _⟩ => exact slice_rows 512 (m ((c.tc : Thread nD τ).loc main_arg21)) slices_S1024x512_S512x512_512_0 k d _ (by show 512 + k.val = 512 + k.val; omega)
  | ⟨_ + 4, h⟩ => exact absurd h (by omega)

end Cert.KernelIdeal.HostConcat

end
-- ==== Proof.HostWeights.lean ====
/-
  What the host lines before the launch leave in the seven weight arrays the kernel stages: the four gates'
  parameters side by side (`Spec.Fused`).

  The concatenated arrays (the main layers' two halves and the three bias vectors) are read in the sibling module on
  the concatenations; the two placed matrices are read here.  Each starts as a zero array into which four rectangular windows are
  written one after another, gate `k`'s small matrix at the offset `(512 k, 16 k)` (resp. `(16 k, k)`): the windows
  sit on the diagonal blocks, so they are pairwise disjoint, and an element of block `(n', n)` is gate `n`'s matrix
  entry when `n' = n` and the zero it started as otherwise.
-/
import proofs.«115885_j65481071407962_2_alg».proof.Proof.Gen.KernelIdeal.Launch
import proofs.«115885_j65481071407962_2_alg».proof.Proof.Spec
import proofs.«115885_j65481071407962_2_alg».proof.Proof.LibScatterSet
import proofs.«115885_j65481071407962_2_alg».proof.Proof.HostConcat
import Idealize.ShloMosaic.Lib.IdealHost

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (c : Dev nD)

/-- The four gates' parameters as launched, in memory `m` on core `c`. -/
def gates : Fin 4 → Spec.Gate :=
  Spec.gates4
    ⟨m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
    ⟨m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14)⟩
    ⟨m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20)⟩
    ⟨m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26)⟩

/-- Buffer `b` of core `c` when the region is entered: after the host lines before it. -/
abbrev entered (b : Ref sig .tc) : Buf (Elt Ideal) ((c.tc : Thread nD τ).loc b) :=
  StableHlo.after (hostOps0 (F := Ideal)) (fun b => m (c, b)) b

/-! ## The index vectors and the placed blocks, over any four small matrices -/

section Placed

open Idealize.ShloMosaic.ValueIdx Cert.Lib.ScatterSet

/-- The index vector `(a, b)` as the host builds it: two scalars, each broadcast to length one, laid end to end. -/
abbrev offs (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

theorem offs_fst (a b : BitVec 32) : offs a b (ix1 (0 : Fin 2)) = a :=
  (concatenate_pair_apply_left (t := S2) (s₁ := S1) (s₂ := S1) (0 : Fin 1) _ _ concatenates_S1_S1_S2_d0 (ix1 (0 : Fin 2)) rfl (ix1 (0 : Fin 1))
    (fun b => match b with | ⟨0, _⟩ => rfl)).trans rfl

theorem offs_snd (a b : BitVec 32) : offs a b (ix1 (1 : Fin 2)) = b :=
  (concatenate_pair_apply_right (t := S2) (s₁ := S1) (s₂ := S1) (0 : Fin 1) _ _ concatenates_S1_S1_S2_d0 (ix1 (1 : Fin 2)) rfl rfl (ix1 (0 : Fin 1))
    (fun b hb => match b with | ⟨0, _⟩ => absurd rfl hb) rfl).trans rfl

/-- Four `[512, 16]` windows written at `(512 k, 16 k)`, `k = 0 … 3`, into an array of zeros: block `(n', n)` reads
    matrix `n` on the diagonal and zero off it. -/
theorem placed_w1 (wf : ScatterDims.WF ⟨2, ![2048, 64]⟩ ⟨1, ![2]⟩ ⟨2, ![512, 16]⟩ [0, 1] [] [0, 1] 0)
    (z : Spec.Mat 2048 64) (hz : ∀ i, z i = 0) (A0 A1 A2 A3 : Spec.Mat 512 16)
    (n' : Fin 4) (d : Fin 512) (n : Fin 4) (j : Fin 16) :
    Host.scatter (windowDims 2048 64 512 16 wf) (fun _ b => b)
      (Host.scatter (windowDims 2048 64 512 16 wf) (fun _ b => b)
        (Host.scatter (windowDims 2048 64 512 16 wf) (fun _ b => b)
          (Host.scatter (windowDims 2048 64 512 16 wf) (fun _ b => b) z (offs 0#32 0#32) A0)
          (offs 512#32 16#32) A1)
        (offs 1024#32 32#32) A2)
      (offs 1536#32 48#32) A3
      (ix2 (⟨512 * n'.val + d.val, by omega⟩ : Fin 2048) (⟨16 * n.val + j.val, by omega⟩ : Fin 64))
      = if n' = n then (![A0, A1, A2, A3] : Fin 4 → Spec.Mat 512 16) n (ix2 d j) else 0 := by
  have h00 : (offs 0#32 0#32 (ix1 (0 : Fin 2))).toInt = ((0 : Nat) : Int) := by rw [offs_fst]; decide
  have h01 : (offs 0#32 0#32 (ix1 (1 : Fin 2))).toInt = ((0 : Nat) : Int) := by rw [offs_snd]; decide
  have h10 : (offs 512#32 16#32 (ix1 (0 : Fin 2))).toInt = ((512 : Nat) : Int) := by rw [offs_fst]; decide
  have h11 : (offs 512#32 16#32 (ix1 (1 : Fin 2))).toInt = ((16 : Nat) : Int) := by rw [offs_snd]; decide
  have h20 : (offs 1024#32 32#32 (ix1 (0 : Fin 2))).toInt = ((1024 : Nat) : Int) := by rw [offs_fst]; decide
  have h21 : (offs 1024#32 32#32 (ix1 (1 : Fin 2))).toInt = ((32 : Nat) : Int) := by rw [offs_snd]; decide
  have h30 : (offs 1536#32 48#32 (ix1 (0 : Fin 2))).toInt = ((1536 : Nat) : Int) := by rw [offs_fst]; decide
  have h31 : (offs 1536#32 48#32 (ix1 (1 : Fin 2))).toInt = ((48 : Nat) : Int) := by rw [offs_snd]; decide
  obtain ⟨n'v, hn'⟩ := n'
  obtain ⟨nv, hn⟩ := n
  have hd := d.isLt
  have hj := j.isLt
  by_cases c3 : n'v = 3 ∧ nv = 3
  · obtain ⟨rfl, rfl⟩ := c3
    rw [if_pos rfl]
    exact scatter_window_apply_in wf _ (offs 1536#32 48#32) A3 1536 48 h30 h31 _ d j
      (by show 512 * 3 + d.val = 1536 + d.val; omega) (by show 16 * 3 + j.val = 48 + j.val; omega)
  refine (scatter_window_apply_out wf _ (offs 1536#32 48#32) A3 1536 48 h30 h31 _ ?_).trans ?_
  · show ¬((1536 ≤ 512 * n'v + d.val ∧ 512 * n'v + d.val < 1536 + 512) ∧ (48 ≤ 16 * nv + j.val ∧ 16 * nv + j.val < 48 + 16))
    omega
  by_cases c2 : n'v = 2 ∧ nv = 2
  · obtain ⟨rfl, rfl⟩ := c2
    rw [if_pos rfl]
    exact scatter_window_apply_in wf _ (offs 1024#32 32#32) A2 1024 32 h20 h21 _ d j
      (by show 512 * 2 + d.val = 1024 + d.val; omega) (by show 16 * 2 + j.val = 32 + j.val; omega)
  refine (scatter_window_apply_out wf _ (offs 1024#32 32#32) A2 1024 32 h20 h21 _ ?_).trans ?_
  · show ¬((1024 ≤ 512 * n'v + d.val ∧ 512 * n'v + d.val < 1024 + 512) ∧ (32 ≤ 16 * nv + j.val ∧ 16 * nv + j.val < 32 + 16))
    omega
  by_cases c1 : n'v = 1 ∧ nv = 1
  · obtain ⟨rfl, rfl⟩ := c1
    rw [if_pos rfl]
    exact scatter_window_apply_in wf _ (offs 512#32 16#32) A1 512 16 h10 h11 _ d j
      (by show 512 * 1 + d.val = 512 + d.val; omega) (by show 16 * 1 + j.val = 16 + j.val; omega)
  refine (scatter_window_apply_out wf _ (offs 512#32 16#32) A1 512 16 h10 h11 _ ?_).trans ?_
  · show ¬((512 ≤ 512 * n'v + d.val ∧ 512 * n'v + d.val < 512 + 512) ∧ (16 ≤ 16 * nv + j.val ∧ 16 * nv + j.val < 16 + 16))
    omega
  by_cases c0 : n'v = 0 ∧ nv = 0
  · obtain ⟨rfl, rfl⟩ := c0
    rw [if_pos rfl]
    exact scatter_window_apply_in wf _ (offs 0#32 0#32) A0 0 0 h00 h01 _ d j
      (by show 512 * 0 + d.val = 0 + d.val; omega) (by show 16 * 0 + j.val = 0 + j.val; omega)
  refine (scatter_window_apply_out wf _ (offs 0#32 0#32) A0 0 0 h00 h01 _ ?_).trans ?_
  · show ¬((0 ≤ 512 * n'v + d.val ∧ 512 * n'v + d.val < 0 + 512) ∧ (0 ≤ 16 * nv + j.val ∧ 16 * nv + j.val < 0 + 16))
    omega
  rw [hz, if_neg (fun e => by have := congrArg Fin.val e; dsimp only at this; omega)]

/-- Four `[16, 1]` windows written at `(16 k, k)`, `k = 0 … 3`, into an array of zeros: rows `16 n' …` of column `n`
    read matrix `n` when `n' = n` and zero otherwise. -/
theorem placed_w2 (wf : ScatterDims.WF ⟨2, ![64, 4]⟩ ⟨1, ![2]⟩ ⟨2, ![16, 1]⟩ [0, 1] [] [0, 1] 0)
    (z : Spec.Mat 64 4) (hz : ∀ i, z i = 0) (A0 A1 A2 A3 : Spec.Mat 16 1)
    (n' : Fin 4) (j : Fin 16) (n : Fin 4) :
    Host.scatter (windowDims 64 4 16 1 wf) (fun _ b => b)
      (Host.scatter (windowDims 64 4 16 1 wf) (fun _ b => b)
        (Host.scatter (windowDims 64 4 16 1 wf) (fun _ b => b)
          (Host.scatter (windowDims 64 4 16 1 wf) (fun _ b => b) z (offs 0#32 0#32) A0)
          (offs 16#32 1#32) A1)
        (offs 32#32 2#32) A2)
      (offs 48#32 3#32) A3
      (ix2 (⟨16 * n'.val + j.val, by omega⟩ : Fin 64) n)
      = if n' = n then (![A0, A1, A2, A3] : Fin 4 → Spec.Mat 16 1) n (ix2 j (0 : Fin 1)) else 0 := by
  have h00 : (offs 0#32 0#32 (ix1 (0 : Fin 2))).toInt = ((0 : Nat) : Int) := by rw [offs_fst]; decide
  have h01 : (offs 0#32 0#32 (ix1 (1 : Fin 2))).toInt = ((0 : Nat) : Int) := by rw [offs_snd]; decide
  have h10 : (offs 16#32 1#32 (ix1 (0 : Fin 2))).toInt = ((16 : Nat) : Int) := by rw [offs_fst]; decide
  have h11 : (offs 16#32 1#32 (ix1 (1 : Fin 2))).toInt = ((1 : Nat) : Int) := by rw [offs_snd]; decide
  have h20 : (offs 32#32 2#32 (ix1 (0 : Fin 2))).toInt = ((32 : Nat) : Int) := by rw [offs_fst]; decide
  have h21 : (offs 32#32 2#32 (ix1 (1 : Fin 2))).toInt = ((2 : Nat) : Int) := by rw [offs_snd]; decide
  have h30 : (offs 48#32 3#32 (ix1 (0 : Fin 2))).toInt = ((48 : Nat) : Int) := by rw [offs_fst]; decide
  have h31 : (offs 48#32 3#32 (ix1 (1 : Fin 2))).toInt = ((3 : Nat) : Int) := by rw [offs_snd]; decide
  obtain ⟨n'v, hn'⟩ := n'
  obtain ⟨nv, hn⟩ := n
  have hj := j.isLt
  by_cases c3 : n'v = 3 ∧ nv = 3
  · obtain ⟨rfl, rfl⟩ := c3
    rw [if_pos rfl]
    exact scatter_window_apply_in wf _ (offs 48#32 3#32) A3 48 3 h30 h31 _ j (0 : Fin 1)
      (by show 16 * 3 + j.val = 48 + j.val; omega) (by show 3 = 3 + 0; rfl)
  refine (scatter_window_apply_out wf _ (offs 48#32 3#32) A3 48 3 h30 h31 _ ?_).trans ?_
  · show ¬((48 ≤ 16 * n'v + j.val ∧ 16 * n'v + j.val < 48 + 16) ∧ (3 ≤ nv ∧ nv < 3 + 1))
    omega
  by_cases c2 : n'v = 2 ∧ nv = 2
  · obtain ⟨rfl, rfl⟩ := c2
    rw [if_pos rfl]
    exact scatter_window_apply_in wf _ (offs 32#32 2#32) A2 32 2 h20 h21 _ j (0 : Fin 1)
      (by show 16 * 2 + j.val = 32 + j.val; omega) (by show 2 = 2 + 0; rfl)
  refine (scatter_window_apply_out wf _ (offs 32#32 2#32) A2 32 2 h20 h21 _ ?_).trans ?_
  · show ¬((32 ≤ 16 * n'v + j.val ∧ 16 * n'v + j.val < 32 + 16) ∧ (2 ≤ nv ∧ nv < 2 + 1))
    omega
  by_cases c1 : n'v = 1 ∧ nv = 1
  · obtain ⟨rfl, rfl⟩ := c1
    rw [if_pos rfl]
    exact scatter_window_apply_in wf _ (offs 16#32 1#32) A1 16 1 h10 h11 _ j (0 : Fin 1)
      (by show 16 * 1 + j.val = 16 + j.val; omega) (by show 1 = 1 + 0; rfl)
  refine (scatter_window_apply_out wf _ (offs 16#32 1#32) A1 16 1 h10 h11 _ ?_).trans ?_
  · show ¬((16 ≤ 16 * n'v + j.val ∧ 16 * n'v + j.val < 16 + 16) ∧ (1 ≤ nv ∧ nv < 1 + 1))
    omega
  by_cases c0 : n'v = 0 ∧ nv = 0
  · obtain ⟨rfl, rfl⟩ := c0
    rw [if_pos rfl]
    exact scatter_window_apply_in wf _ (offs 0#32 0#32) A0 0 0 h00 h01 _ j (0 : Fin 1)
      (by show 16 * 0 + j.val = 0 + j.val; omega) (by show 0 = 0 + 0; rfl)
  refine (scatter_window_apply_out wf _ (offs 0#32 0#32) A0 0 0 h00 h01 _ ?_).trans ?_
  · show ¬((0 ≤ 16 * n'v + j.val ∧ 16 * n'v + j.val < 0 + 16) ∧ (0 ≤ nv ∧ nv < 0 + 1))
    omega
  rw [hz, if_neg (fun e => by have := congrArg Fin.val e; dsimp only at this; omega)]

end Placed

/-! ## The two placed arrays as the operations' composed terms -/

section Entered

open Idealize.ShloMosaic.ValueIdx Cert.Lib.ScatterSet

/-- The array of zeros the windows are written into reads zero. -/
theorem zeros_apply {T : Shape} (h : S_.BroadcastsInDim T ![]) (i : T.Idx) :
    broadcastInDim T ![] h (constant (F := Ideal) S_ .f32 0x00000000#32) i = 0 :=
  Ideal.ofBits_zero_f32

set_option maxHeartbeats 1000000 in
/-- `main_v30` when the region is entered: the zero array with the four gates' `W1` written at their offsets. -/
theorem entered_v30 : (entered m c main_v30 : S2048x64.Idx → EReal) =
    truncf (F := Ideal) (φ := .f32) .bf16
      (Host.scatter scatter_S2048x64_S2_S512x16_01_n_01_0 (fun _ b => b)
        (Host.scatter scatter_S2048x64_S2_S512x16_01_n_01_0 (fun _ b => b)
          (Host.scatter scatter_S2048x64_S2_S512x16_01_n_01_0 (fun _ b => b)
            (Host.scatter scatter_S2048x64_S2_S512x16_01_n_01_0 (fun _ b => b)
              (broadcastInDim S2048x64 ![] bcast_S_S2048x64 (constant (F := Ideal) S_ .f32 0x00000000#32))
              (offs 0#32 0#32) (m (c, Proc.devRef .tc main_arg5)))
            (offs 512#32 16#32) (m (c, Proc.devRef .tc main_arg11)))
          (offs 1024#32 32#32) (m (c, Proc.devRef .tc main_arg17)))
        (offs 1536#32 48#32) (m (c, Proc.devRef .tc main_arg23)))
      bitsLt_bf16_f32 := by
  dsimp only [entered]
  after_results_simp
  repeat (first
    | rw [StableHlo.nullary_result] | rw [StableHlo.unary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.nary_result_ne]; rotate_left; decide))

set_option maxHeartbeats 1000000 in
/-- `main_v49` when the region is entered: the zero array with the four gates' `W2` written at their offsets. -/
theorem entered_v49 : (entered m c main_v49 : S64x4.Idx → EReal) =
    truncf (F := Ideal) (φ := .f32) .bf16
      (Host.scatter scatter_S64x4_S2_S16x1_01_n_01_0 (fun _ b => b)
        (Host.scatter scatter_S64x4_S2_S16x1_01_n_01_0 (fun _ b => b)
          (Host.scatter scatter_S64x4_S2_S16x1_01_n_01_0 (fun _ b => b)
            (Host.scatter scatter_S64x4_S2_S16x1_01_n_01_0 (fun _ b => b)
              (broadcastInDim S64x4 ![] bcast_S_S64x4 (constant (F := Ideal) S_ .f32 0x00000000#32))
              (offs 0#32 0#32) (m (c, Proc.devRef .tc main_arg7)))
            (offs 16#32 1#32) (m (c, Proc.devRef .tc main_arg13)))
          (offs 32#32 2#32) (m (c, Proc.devRef .tc main_arg19)))
        (offs 48#32 3#32) (m (c, Proc.devRef .tc main_arg25)))
      bitsLt_bf16_f32 := by
  dsimp only [entered]
  after_results_simp
  repeat (first
    | rw [StableHlo.nullary_result] | rw [StableHlo.unary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.nary_result_ne]; rotate_left; decide))

/-- Field `w1`: block `(n', n)` of `main_v30` is gate `n`'s `W1` on the diagonal and zero off it. -/
theorem w1_field (n' : Fin 4) (d : Fin 512) (n : Fin 4) (j : Fin 16) :
    (entered m c main_v30 : Spec.Mat 2048 64)
        (ix2 (⟨512 * n'.val + d.val, by omega⟩ : Fin 2048) (⟨16 * n.val + j.val, by omega⟩ : Fin 64))
      = if n' = n then (gates m c n).W1 (ix2 d j) else 0 := by
  have hg : ∀ k : Fin 4, (![m (c, Proc.devRef .tc main_arg5), m (c, Proc.devRef .tc main_arg11),
      m (c, Proc.devRef .tc main_arg17), m (c, Proc.devRef .tc main_arg23)] : Fin 4 → Spec.Mat 512 16) k = (gates m c k).W1 := by
    intro k
    match k with
    | ⟨0, _⟩ => rfl
    | ⟨1, _⟩ => rfl
    | ⟨2, _⟩ => rfl
    | ⟨3, _⟩ => rfl
  refine (congrFun (entered_v30 m c) _).trans ?_
  refine (truncf_apply (φ := .f32) (ψ := .bf16) _ bitsLt_bf16_f32 _).trans ?_
  refine (placed_w1 scatter_S2048x64_S2_S512x16_01_n_01_0_wf _ (zeros_apply bcast_S_S2048x64) _ _ _ _ n' d n j).trans ?_
  rw [hg n]

/-- Field `w2`: rows `16 n' …` of column `n` of `main_v49` are gate `n`'s `W2` when `n' = n` and zero otherwise. -/
theorem w2_field (n' : Fin 4) (j : Fin 16) (n : Fin 4) :
    (entered m c main_v49 : Spec.Mat 64 4) (ix2 (⟨16 * n'.val + j.val, by omega⟩ : Fin 64) n)
      = if n' = n then (gates m c n).W2 (ix2 j (0 : Fin 1)) else 0 := by
  have hg : ∀ k : Fin 4, (![m (c, Proc.devRef .tc main_arg7), m (c, Proc.devRef .tc main_arg13),
      m (c, Proc.devRef .tc main_arg19), m (c, Proc.devRef .tc main_arg25)] : Fin 4 → Spec.Mat 16 1) k = (gates m c k).W2 := by
    intro k
    match k with
    | ⟨0, _⟩ => rfl
    | ⟨1, _⟩ => rfl
    | ⟨2, _⟩ => rfl
    | ⟨3, _⟩ => rfl
  refine (congrFun (entered_v49 m c) _).trans ?_
  refine (truncf_apply (φ := .f32) (ψ := .bf16) _ bitsLt_bf16_f32 _).trans ?_
  refine (placed_w2 scatter_S64x4_S2_S16x1_01_n_01_0_wf _ (zeros_apply bcast_S_S64x4) _ _ _ _ n' j n).trans ?_
  rw [hg n]

end Entered

/-- The seven staged weight arrays hold the four gates' parameters side by side. -/
theorem fused : Spec.Fused (gates m c) (entered m c main_v5) (entered m c main_v11) (entered m c main_v12)
    (entered m c main_v30) (entered m c main_v31) (entered m c main_v49) (entered m c main_v50) := by
  have hg : gates m c = HostConcat.gates m c := rfl
  exact
    { wt := fun k n d => by rw [hg]; exact HostConcat.wt m c k n d
      wb := fun k n d => by rw [hg]; exact HostConcat.wb m c k n d
      bias := fun n d => by rw [hg]; exact HostConcat.bias m c n d
      w1 := w1_field m c
      b1 := fun n j => by rw [hg]; exact HostConcat.b1 m c n j
      w2 := w2_field m c
      b2 := fun n => by rw [hg]; exact HostConcat.b2 m c n }

end Cert.KernelIdeal.Host

end
-- ==== Proof.LibBlockSum.lean ====
/-
  Regrouping a long sum into consecutive blocks.

  A sum of `B * n` terms `f 0, f 1, …` can be taken block by block: first the `B` terms of block `0`, then the `B`
  terms of block `1`, and so on, block `s` holding the terms `f (B * s + k)` for `k < B`. Only associativity and
  commutativity of the addition are used, so the statements hold in any commutative additive monoid — in particular
  on the extended reals, where no finiteness is needed.
-/
import Idealize.ShloMosaic.Lib.ValueIdx

namespace BlockSum

open Finset

variable {β : Type*} [AddCommMonoid β]

/-- The first `n` blocks of `B` consecutive terms, summed block by block, are the first `B * n` terms. -/
theorem sum_range_blocks (f : ℕ → β) (B : ℕ) :
    ∀ n : ℕ, ∑ s ∈ range n, ∑ k ∈ range B, f (B * s + k) = ∑ K ∈ range (B * n), f K
  | 0 => by rw [Nat.mul_zero, sum_range_zero, sum_range_zero]
  | n + 1 => by
    rw [sum_range_succ, sum_range_blocks f B n, Nat.mul_succ, sum_range_add]

/-- The same with the position inside a block and the position in the whole sum running over `Fin` types: `n`
    blocks of `B` terms make up a sum of `N = B * n` terms. -/
theorem sum_fin_blocks (f : ℕ → β) (B n N : ℕ) (h : N = B * n) :
    ∑ s ∈ range n, ∑ k : Fin B, f (B * s + k.val) = ∑ K : Fin N, f K.val := by
  subst h
  rw [Fin.sum_univ_eq_sum_range (fun K => f K) (B * n), ← sum_range_blocks f B n]
  exact sum_congr rfl fun s _ => Fin.sum_univ_eq_sum_range (fun k => f (B * s + k)) B

end BlockSum
-- ==== Proof.FusedMath.lean ====
/-
  From the fused computation to the four gates, on the extended reals.

  The kernel multiplies a row's 2048 pre-activations (four gates, 512 each) by ONE matrix `w1 : [2048, 64]` that
  holds gate `n`'s `W1` at rows `512 n …`, columns `16 n …` and zeros elsewhere.  Column `16 n + j` of the product
  is a sum of 2048 terms; taken in four blocks of 512, the three blocks of the other gates are sums of `z · 0 = 0`
  (on the extended reals `a * 0 = 0` for every `a`, infinite or not) and the block of gate `n` is gate `n`'s own
  product.  The same happens once more with `w2 : [64, 4]`.  No finiteness is used.
-/
import proofs.«115885_j65481071407962_2_alg».proof.Proof.Spec
import proofs.«115885_j65481071407962_2_alg».proof.Proof.LibBlockSum

noncomputable section

namespace Cert.Spec

open Idealize.ShloMosaic Idealize.ShloMosaic.ValueIdx

variable (x h : Mat 16384 512) (g : Fin 4 → Gate)
  (x0 h0 : Mat 512 512) (wt wb : Mat 512 2048) (bias : Vct 2048) (w1 : Mat 2048 64) (b1 : Vct 64)
  (w2 : Mat 64 4) (b2 : Vct 4)

/-- A sum over `N = B * n` positions, taken in `n` consecutive blocks of `B`: block `s` holds the positions
    `B * s + k`, `k < B`.  Only associativity and commutativity of the addition are used. -/
theorem sum_fin_in_blocks {β : Type*} [AddCommMonoid β] (B n N : ℕ) (hN : N = B * n) (F : Fin N → β)
    (hlt : ∀ (s : Fin n) (k : Fin B), B * s.val + k.val < N) :
    ∑ K : Fin N, F K = ∑ s : Fin n, ∑ k : Fin B, F ⟨B * s.val + k.val, hlt s k⟩ := by
  -- the summand as a function of the natural number, zero past the end
  let f : ℕ → β := fun K => if hK : K < N then F ⟨K, hK⟩ else 0
  calc ∑ K : Fin N, F K
      = ∑ K : Fin N, f K.val := Finset.sum_congr rfl fun K _ => by
        show F K = if hK : K.val < N then F ⟨K.val, hK⟩ else 0
        rw [dif_pos K.isLt]
    _ = ∑ s ∈ Finset.range n, ∑ k : Fin B, f (B * s + k.val) := (BlockSum.sum_fin_blocks f B n N hN).symm
    _ = ∑ s : Fin n, ∑ k : Fin B, f (B * s.val + k.val) :=
        (Fin.sum_univ_eq_sum_range (fun s => ∑ k : Fin B, f (B * s + k.val)) n).symm
    _ = ∑ s : Fin n, ∑ k : Fin B, F ⟨B * s.val + k.val, hlt s k⟩ :=
        Finset.sum_congr rfl fun s _ => Finset.sum_congr rfl fun k _ => by
          show (if hK : B * s.val + k.val < N then F ⟨B * s.val + k.val, hK⟩ else 0) = _
          rw [dif_pos (hlt s k)]

/-- Column `512 n' + d` of the fused main layer on block row `r` is gate `n'`'s pre-activation `d` of row `p`:
    the three summands are rewritten entry by entry. -/
theorem zAll_of_fused (hF : Fused g wt wb bias w1 b1 w2 b2) (p : Fin 16384) (r : Fin 512)
    (hx : ∀ k : Fin 512, x0 (ix2 r k) = x (ix2 p k)) (hh : ∀ k : Fin 512, h0 (ix2 r k) = h (ix2 p k))
    (n' : Fin 4) (d : Fin 512) :
    zAll x0 h0 wt wb bias r (⟨512 * n'.val + d.val, by omega⟩ : Fin 2048) = pre x h (g n') p d := by
  unfold zAll pre
  rw [hF.bias n' d]
  refine congrArg (fun t => t + (g n').b (ix1 d)) ?_
  refine congrArg₂ (fun s t : EReal => s + t) ?_ ?_
  · exact Finset.sum_congr rfl fun k _ => by rw [hx k, hF.wt k n' d]
  · exact Finset.sum_congr rfl fun k _ => by rw [hh k, hF.wb k n' d]

/-- Column `16 n + j` of the fused first small layer is gate `n`'s hidden unit `j`: of the four blocks of 512
    terms, those of the other gates are sums of `z * 0 = 0`, and gate `n`'s block is its own sum. -/
theorem hidAll_of_fused (hF : Fused g wt wb bias w1 b1 w2 b2) (p : Fin 16384) (r : Fin 512)
    (hx : ∀ k : Fin 512, x0 (ix2 r k) = x (ix2 p k)) (hh : ∀ k : Fin 512, h0 (ix2 r k) = h (ix2 p k))
    (n : Fin 4) (j : Fin 16) :
    hidAll x0 h0 wt wb bias w1 b1 r (⟨16 * n.val + j.val, by omega⟩ : Fin 64) = hidden x h (g n) p j := by
  unfold hidAll hidden
  rw [hF.b1 n j]
  refine congrArg (fun t => max (t + (g n).b1 (ix1 j)) 0) ?_
  rw [sum_fin_in_blocks 512 4 2048 rfl _ (fun s k => by omega), Finset.sum_eq_single n]
  · exact Finset.sum_congr rfl fun d _ => by
      rw [zAll_of_fused x h g x0 h0 wt wb bias w1 b1 w2 b2 hF p r hx hh n d, hF.w1 n d n j, if_pos rfl]
  · intro s _ hs
    exact Finset.sum_eq_zero fun d _ => by rw [hF.w1 s d n j, if_neg hs, mul_zero]
  · intro hn
    exact absurd (Finset.mem_univ n) hn

/-- With the seven arrays holding the four gates side by side, and block row `r` of `x0`, `h0` being array row
    `p` of `x`, `h`: the `tanh` of the fused logit of gate `n` is gate `n`'s number for row `p`. -/
theorem act_of_fused (hF : Fused g wt wb bias w1 b1 w2 b2) (p : Fin 16384) (r : Fin 512)
    (hx : ∀ k : Fin 512, x0 (ix2 r k) = x (ix2 p k)) (hh : ∀ k : Fin 512, h0 (ix2 r k) = h (ix2 p k))
    (n : Fin 4) :
    Ideal.tanh (logit x0 h0 wt wb bias w1 b1 w2 b2 r n) = act x h (g n) p := by
  unfold logit act
  rw [hF.b2 n]
  refine congrArg (fun t => Ideal.tanh (t + (g n).b2 (ix1 (0 : Fin 1)))) ?_
  rw [sum_fin_in_blocks 16 4 64 rfl _ (fun s k => by omega), Finset.sum_eq_single n]
  · exact Finset.sum_congr rfl fun j _ => by
      rw [hidAll_of_fused x h g x0 h0 wt wb bias w1 b1 w2 b2 hF p r hx hh n j, hF.w2 n j n, if_pos rfl]
  · intro s _ hs
    exact Finset.sum_eq_zero fun j _ => by rw [hF.w2 s j n, if_neg hs, mul_zero]
  · intro hn
    exact absurd (Finset.mem_univ n) hn

end Cert.Spec

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.BodyMath.lean ====
/-
  The kernel body's arithmetic on one block of 512 rows, read at a row and a column: with the seven weight arrays
  holding the four gates side by side (`Spec.Fused`), the two stored values are the specification's cell and hidden
  state of the array row the block row comes from.
-/
import proofs.«115885_j65481071407962_2_alg».proof.Proof.Gen.KernelIdeal.Skeleton
import proofs.«115885_j65481071407962_2_alg».proof.Proof.Spec
import proofs.«115885_j65481071407962_2_alg».proof.Proof.FusedMath
import proofs.«115885_j65481071407962_2_alg».proof.Proof.LibPlainDot
import proofs.«115885_j65481071407962_2_alg».proof.Proof.LibKeepdims
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-! ## The three layers, read at an entry

Each layer is a matrix product into the zero accumulator plus a bias vector laid out as one row and repeated on
every row.  At exact arithmetic the change of float format before each product is the identity, so an entry of a
layer's output is the plain sum over the shared axis plus the bias entry of that column. -/

/-- The printed dimension numbers of the three products are those of a plain M×K by K×N product. -/
theorem dims_z : dot_S512x512_S512x2048_S512x2048_1_0_0_1_n_n = DotDims.plain 512 512 2048 := rfl
theorem dims_hid : dot_S512x2048_S2048x64_S512x64_1_0_0_1_n_n = DotDims.plain 512 2048 64 := rfl
theorem dims_logit : dot_S512x64_S64x4_S512x4_1_0_0_1_n_n = DotDims.plain 512 64 4 := rfl

/-- A bias vector [b] cast to itself, cast to one row [1, b] and repeated on a rows, read at (p, c), is the bias at c. -/
theorem biasRows_apply {α : Type} {a b : ℕ} (v : (⟨1, ![b]⟩ : Shape).Idx → α)
    (h0 : (⟨1, ![b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [broadcastTo_1b_ab_apply, shapeCast_a_1a_apply, shapeCast_self]

/-- A product of A : M×K with B : K×N (B cast to its own shape) into the zero accumulator, on the extended reals,
    read at (p, c), is the sum over k of A (p, k) · B (k, c). -/
theorem mm_apply {M K N : ℕ} (A : FVec Ideal ⟨2, ![M, K]⟩ .bf16) (B : FVec Ideal ⟨2, ![K, N]⟩ .bf16)
    (hB : (⟨2, ![K, N]⟩ : Shape).ShapeCasts ⟨2, ![K, N]⟩) (p : Fin M) (c : Fin N) :
    matmul (DotDims.plain M K N) none A (shapeCast ⟨2, ![K, N]⟩ B hB) (constant ⟨2, ![M, N]⟩ .f32 0x00000000#32) (ix2 p c)
      = ∑ k : Fin K, A (ix2 p k) * B (ix2 k c) := by
  rw [shapeCast_self]
  exact Cert.Lib.PlainDot.matmul_plain_zero_apply none A B p c

section Layers

variable (x0 h0 : FVec Ideal S512x512 .f32) (wt wb : FVec Ideal S512x2048 .bf16) (bias : FVec Ideal S2048 .f32)
  (w1 : FVec Ideal S2048x64 .bf16) (b1 : FVec Ideal S64 .f32) (w2 : FVec Ideal S64x4 .bf16) (b2 : FVec Ideal S4 .f32)

/-- The first layer's output on the block: x0·wt + h0·wb, plus the bias on every row (2048 numbers per row). -/
def zBlk : FVec Ideal S512x2048 .f32 :=
  addf
    (addf
      (matmul dot_S512x512_S512x2048_S512x2048_1_0_0_1_n_n none (truncf .bf16 x0 bitsLt_bf16_f32)
        (shapeCast S512x2048 wt shapeCasts_S512x2048_S512x2048) (constant S512x2048 .f32 0x00000000#32))
      (matmul dot_S512x512_S512x2048_S512x2048_1_0_0_1_n_n none (truncf .bf16 h0 bitsLt_bf16_f32)
        (shapeCast S512x2048 wb shapeCasts_S512x2048_S512x2048) (constant S512x2048 .f32 0x00000000#32)))
    (broadcastTo S512x2048 (shapeCast S1x2048 (shapeCast S2048 bias shapeCasts_S2048_S2048) shapeCasts_S2048_S1x2048)
      broadcasts_S1x2048_S512x2048)

/-- The second layer's output on the block: max (z·w1 + b1) 0 (64 numbers per row). -/
def hidBlk : FVec Ideal S512x64 .f32 :=
  maximumf
    (addf
      (matmul dot_S512x2048_S2048x64_S512x64_1_0_0_1_n_n none (truncf .bf16 (zBlk x0 h0 wt wb bias) bitsLt_bf16_f32)
        (shapeCast S2048x64 w1 shapeCasts_S2048x64_S2048x64) (constant S512x64 .f32 0x00000000#32))
      (broadcastTo S512x64 (shapeCast S1x64 (shapeCast S64 b1 shapeCasts_S64_S64) shapeCasts_S64_S1x64)
        broadcasts_S1x64_S512x64))
    (broadcast S512x64 (Scalar.ofBits .f32 0x00000000#32))

/-- The four logits are the third layer applied to the second layer's output: hid·w2 + b2. -/
theorem pay4_eq : k0_pay4 (F := Ideal) x0 h0 wt wb bias w1 b1 w2 b2
    = addf
        (matmul dot_S512x64_S64x4_S512x4_1_0_0_1_n_n none (truncf .bf16 (hidBlk x0 h0 wt wb bias w1 b1) bitsLt_bf16_f32)
          (shapeCast S64x4 w2 shapeCasts_S64x4_S64x4) (constant S512x4 .f32 0x00000000#32))
        (broadcastTo S512x4 (shapeCast S1x4 (shapeCast S4 b2 shapeCasts_S4_S4) shapeCasts_S4_S1x4)
          broadcasts_S1x4_S512x4) := rfl

/-- The first layer at row r, column K. -/
theorem zBlk_apply (r : Fin 512) (K : Fin 2048) :
    zBlk x0 h0 wt wb bias (ix2 r K) = Spec.zAll x0 h0 wt wb bias r K := by
  unfold zBlk Spec.zAll
  rw [dims_z]
  refine (addf_apply _ _ _).trans ?_
  refine congrArg₂ (· + ·) ((addf_apply _ _ _).trans (congrArg₂ (· + ·) ?_ ?_)) ?_
  · exact mm_apply (truncf .bf16 x0 bitsLt_bf16_f32) wt _ r K
  · exact mm_apply (truncf .bf16 h0 bitsLt_bf16_f32) wb _ r K
  · exact biasRows_apply bias _ _ _ r K

/-- The second layer at row r, column J; the word the maximum is taken with is the real number 0. -/
theorem hidBlk_apply (r : Fin 512) (J : Fin 64) :
    hidBlk x0 h0 wt wb bias w1 b1 (ix2 r J) = Spec.hidAll x0 h0 wt wb bias w1 b1 r J := by
  unfold hidBlk Spec.hidAll
  rw [dims_hid]
  refine (maximumf_apply _ _ _).trans ?_
  refine congrArg₂ max ((addf_apply _ _ _).trans (congrArg₂ (· + ·) ?_ ?_)) ?_
  · refine (mm_apply (truncf .bf16 (zBlk x0 h0 wt wb bias) bitsLt_bf16_f32) w1 _ r J).trans ?_
    exact Finset.sum_congr rfl fun K _ => congrArg (· * w1 (ix2 K J)) (zBlk_apply x0 h0 wt wb bias r K)
  · exact biasRows_apply b1 _ _ _ r J
  · exact Ideal.ofBits_zero_f32

end Layers

/-! ## The gates, read at an entry

The four logits of a row pass through tanh; column n of the result is cut out as a [512, 1] column, passed through
the logistic function (gates 0, 1, 3) or tanh once more (gate 2), and repeated along the 512 columns. -/

section Gates

variable (c0 : Vec Ideal S512x512 .f32)

/-- Column n of the tanh of a [512, 4] block, cut out as a [512, 1] column, read at row r. -/
theorem tanhCol_apply (v : FVec Ideal S512x4 .f32) (o : ℕ) (hs : S512x4.Slices ![0, o] S512x1) (n : Fin 4) (hn : n.val = o)
    (r : Fin 512) :
    extractStridedSlice S512x1 ![0, o] (tanh v) hs (ix2 r (0 : Fin 1)) = Ideal.tanh (v (ix2 r n)) :=
  slice2_axis1_apply o (tanh v) hs r (0 : Fin 1) n (hn.trans (Nat.add_zero o).symm)

/-- The stored cell value at (r, d) in terms of the logits of row r and the old cell value:
    σ(tanh a₀) · c + σ(tanh a₁) · tanh (tanh a₂). -/
theorem pay2_apply (v : FVec Ideal S512x4 .f32) (r d : Fin 512) :
    k0_pay2 (F := Ideal) c0 v (ix2 r d)
      = Ideal.logistic (Ideal.tanh (v (ix2 r (0 : Fin 4)))) * c0 (ix2 r d)
        + Ideal.logistic (Ideal.tanh (v (ix2 r (1 : Fin 4)))) * Ideal.tanh (Ideal.tanh (v (ix2 r (2 : Fin 4)))) := by
  unfold k0_pay2 k0_pay1
  refine (addf_apply _ _ _).trans (congrArg₂ (· + ·) ?_ ?_)
  · refine (mulf_apply _ _ _).trans (congrArg (· * c0 (ix2 r d)) ?_)
    refine (Cert.Lib.Keepdims.broadcastTo_a1_ab_apply _ _ r d).trans ?_
    exact congrArg Ideal.logistic (tanhCol_apply v 0 _ 0 rfl r)
  · refine (Cert.Lib.Keepdims.broadcastTo_a1_ab_apply _ _ r d).trans ?_
    refine (mulf_apply _ _ _).trans (congrArg₂ (· * ·) ?_ ?_)
    · exact congrArg Ideal.logistic (tanhCol_apply v 1 _ 1 rfl r)
    · exact congrArg Ideal.tanh (tanhCol_apply v 2 _ 2 rfl r)

/-- The stored hidden value at (r, d): σ(tanh a₃) times the tanh of the stored cell value. -/
theorem pay3_apply (v : FVec Ideal S512x4 .f32) (r d : Fin 512) :
    k0_pay3 (F := Ideal) c0 v (ix2 r d)
      = Ideal.logistic (Ideal.tanh (v (ix2 r (3 : Fin 4)))) * Ideal.tanh (k0_pay2 (F := Ideal) c0 v (ix2 r d)) := by
  unfold k0_pay3 k0_pay1
  refine (mulf_apply _ _ _).trans (congrArg₂ (· * ·) ?_ rfl)
  refine (Cert.Lib.Keepdims.broadcastTo_a1_ab_apply _ _ r d).trans ?_
  exact congrArg Ideal.logistic (tanhCol_apply v 3 _ 3 rfl r)

end Gates

variable (x h c : Spec.Mat 16384 512) (g : Fin 4 → Spec.Gate)
  (x0 h0 c0 : Vec Ideal S512x512 .f32) (wt wb : Vec Ideal S512x2048 .bf16) (bias : Vec Ideal S2048 .f32)
  (w1 : Vec Ideal S2048x64 .bf16) (b1 : Vec Ideal S64 .f32) (w2 : Vec Ideal S64x4 .bf16) (b2 : Vec Ideal S4 .f32)

/-- The four gate logits the body computes, at block row `r` and gate `n`, are the fused logits of the block's
    contents (three matrix products into zero accumulators, two biases spread over the rows, one `max` with 0). -/
theorem pay4_apply (r : Fin 512) (n : Fin 4) :
    k0_pay4 (F := Ideal) x0 h0 wt wb bias w1 b1 w2 b2 (ix2 r n) = Spec.logit x0 h0 wt wb bias w1 b1 w2 b2 r n := by
  rw [pay4_eq, dims_logit]
  unfold Spec.logit
  refine (addf_apply _ _ _).trans (congrArg₂ (· + ·) ?_ ?_)
  · refine (mm_apply (truncf .bf16 (hidBlk x0 h0 wt wb bias w1 b1) bitsLt_bf16_f32) w2 _ r n).trans ?_
    exact Finset.sum_congr rfl fun J _ => congrArg (· * w2 (ix2 J n)) (hidBlk_apply x0 h0 wt wb bias w1 b1 r J)
  · exact biasRows_apply b2 _ _ _ r n

/-- The value stored into the cell-state block, at block row `r` and column `d`, is the specification's new cell state
    at array row `p`, when block row `r` of the three data blocks is array row `p`. -/
theorem cell_eq (hF : Spec.Fused g wt wb bias w1 b1 w2 b2) (p : Fin 16384) (r : Fin 512)
    (hx : ∀ k : Fin 512, x0 (ix2 r k) = x (ix2 p k)) (hh : ∀ k : Fin 512, h0 (ix2 r k) = h (ix2 p k))
    (hc : ∀ d : Fin 512, c0 (ix2 r d) = c (ix2 p d)) (d : Fin 512) :
    k0_pay2 (F := Ideal) c0 (k0_pay4 x0 h0 wt wb bias w1 b1 w2 b2) (ix2 r d) = Spec.cAt x h c g p d := by
  refine (pay2_apply c0 _ r d).trans ?_
  rw [pay4_apply, pay4_apply, pay4_apply, hc d,
    Spec.act_of_fused x h g x0 h0 wt wb bias w1 b1 w2 b2 hF p r hx hh 0,
    Spec.act_of_fused x h g x0 h0 wt wb bias w1 b1 w2 b2 hF p r hx hh 1,
    Spec.act_of_fused x h g x0 h0 wt wb bias w1 b1 w2 b2 hF p r hx hh 2]
  rfl

/-- The value stored into the hidden-state block, likewise. -/
theorem hidden_eq (hF : Spec.Fused g wt wb bias w1 b1 w2 b2) (p : Fin 16384) (r : Fin 512)
    (hx : ∀ k : Fin 512, x0 (ix2 r k) = x (ix2 p k)) (hh : ∀ k : Fin 512, h0 (ix2 r k) = h (ix2 p k))
    (hc : ∀ d : Fin 512, c0 (ix2 r d) = c (ix2 p d)) (d : Fin 512) :
    k0_pay3 (F := Ideal) c0 (k0_pay4 x0 h0 wt wb bias w1 b1 w2 b2) (ix2 r d) = Spec.hAt x h c g p d := by
  refine (pay3_apply c0 _ r d).trans ?_
  rw [cell_eq x h c g x0 h0 c0 wt wb bias w1 b1 w2 b2 hF p r hx hh hc d, pay4_apply,
    Spec.act_of_fused x h g x0 h0 wt wb bias w1 b1 w2 b2 hF p r hx hh 3]
  rfl

end Cert.KernelIdeal.Body

end
-- ==== Proof.KernelValue.lean ====
/-
  What the idealized kernel's two result arrays hold after the run, as functions of the argument arrays.

  Grid point `t` reads rows `512 t … 512 t + 511` of `x`, `h`, `c` and the seven weight arrays whole, and writes rows
  `512 t …` of the two results.  The weight arrays hold the four gates' parameters side by side (the host lines
  before the launch built them so), hence the body's arithmetic on block row `r` is the specification's cell and
  hidden state of array row `512 t + r`: what point `t` writes back is block `t` of `Spec.hNext` / `Spec.cNext`.
  The 32 blocks fill the 16384 rows, so each result array IS that function.
-/
import proofs.«115885_j65481071407962_2_alg».proof.Proof.FrameKI
import proofs.«115885_j65481071407962_2_alg».proof.Proof.HostWeights
import proofs.«115885_j65481071407962_2_alg».proof.Proof.BodyMath
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 32 grid points: the three data windows and the two result windows are
    at block `(t, 0)`, the seven weight windows at block 0. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = t.val
    ∧ win0_10.index t (1 : Fin 2) = 0
    ∧ win0_11.index t (0 : Fin 2) = t.val
    ∧ win0_11.index t (1 : Fin 2) = 0 :=
  (by decide +kernel : ∀ t : Fin grid0.N, _)

/-! ## The input blocks, read at coordinates -/

/-! A weight window's block is its whole array, as the region finds it. -/

theorem blk_whole3 (c : Dev nD) (t : Fin cfg0.N) : (iblk m c 3 t : S512x2048.Idx → EReal) = Host.entered m c main_v5 := by
  funext y
  show V m c main_v5 (((cfg0.win 3).blk t).view.emb y) = V m c main_v5 y
  obtain ⟨e0, e1, e2, e3, e4, e5, e6, e7, e8, e9, e10, e11, e12, e13, e14, e15, e16, e17, e18, e19, e20⟩ := idx_facts t
  refine congrArg (V m c main_v5) (funext fun a => Fin.ext ?_)
  match a with
    | ⟨0, _⟩ => show win0_3.index t (0 : Fin 2) * 512 + 1 * (y 0).val = (y 0).val; omega
    | ⟨1, _⟩ => show win0_3.index t (1 : Fin 2) * 2048 + 1 * (y 1).val = (y 1).val; omega

theorem blk_whole4 (c : Dev nD) (t : Fin cfg0.N) : (iblk m c 4 t : S512x2048.Idx → EReal) = Host.entered m c main_v11 := by
  funext y
  show V m c main_v11 (((cfg0.win 4).blk t).view.emb y) = V m c main_v11 y
  obtain ⟨e0, e1, e2, e3, e4, e5, e6, e7, e8, e9, e10, e11, e12, e13, e14, e15, e16, e17, e18, e19, e20⟩ := idx_facts t
  refine congrArg (V m c main_v11) (funext fun a => Fin.ext ?_)
  match a with
    | ⟨0, _⟩ => show win0_4.index t (0 : Fin 2) * 512 + 1 * (y 0).val = (y 0).val; omega
    | ⟨1, _⟩ => show win0_4.index t (1 : Fin 2) * 2048 + 1 * (y 1).val = (y 1).val; omega

theorem blk_whole5 (c : Dev nD) (t : Fin cfg0.N) : (iblk m c 5 t : S2048.Idx → EReal) = Host.entered m c main_v12 := by
  funext y
  show V m c main_v12 (((cfg0.win 5).blk t).view.emb y) = V m c main_v12 y
  obtain ⟨e0, e1, e2, e3, e4, e5, e6, e7, e8, e9, e10, e11, e12, e13, e14, e15, e16, e17, e18, e19, e20⟩ := idx_facts t
  refine congrArg (V m c main_v12) (funext fun a => Fin.ext ?_)
  match a with
    | ⟨0, _⟩ => show win0_5.index t (0 : Fin 1) * 2048 + 1 * (y 0).val = (y 0).val; omega

theorem blk_whole6 (c : Dev nD) (t : Fin cfg0.N) : (iblk m c 6 t : S2048x64.Idx → EReal) = Host.entered m c main_v30 := by
  funext y
  show V m c main_v30 (((cfg0.win 6).blk t).view.emb y) = V m c main_v30 y
  obtain ⟨e0, e1, e2, e3, e4, e5, e6, e7, e8, e9, e10, e11, e12, e13, e14, e15, e16, e17, e18, e19, e20⟩ := idx_facts t
  refine congrArg (V m c main_v30) (funext fun a => Fin.ext ?_)
  match a with
    | ⟨0, _⟩ => show win0_6.index t (0 : Fin 2) * 2048 + 1 * (y 0).val = (y 0).val; omega
    | ⟨1, _⟩ => show win0_6.index t (1 : Fin 2) * 64 + 1 * (y 1).val = (y 1).val; omega

theorem blk_whole7 (c : Dev nD) (t : Fin cfg0.N) : (iblk m c 7 t : S64.Idx → EReal) = Host.entered m c main_v31 := by
  funext y
  show V m c main_v31 (((cfg0.win 7).blk t).view.emb y) = V m c main_v31 y
  obtain ⟨e0, e1, e2, e3, e4, e5, e6, e7, e8, e9, e10, e11, e12, e13, e14, e15, e16, e17, e18, e19, e20⟩ := idx_facts t
  refine congrArg (V m c main_v31) (funext fun a => Fin.ext ?_)
  match a with
    | ⟨0, _⟩ => show win0_7.index t (0 : Fin 1) * 64 + 1 * (y 0).val = (y 0).val; omega

theorem blk_whole8 (c : Dev nD) (t : Fin cfg0.N) : (iblk m c 8 t : S64x4.Idx → EReal) = Host.entered m c main_v49 := by
  funext y
  show V m c main_v49 (((cfg0.win 8).blk t).view.emb y) = V m c main_v49 y
  obtain ⟨e0, e1, e2, e3, e4, e5, e6, e7, e8, e9, e10, e11, e12, e13, e14, e15, e16, e17, e18, e19, e20⟩ := idx_facts t
  refine congrArg (V m c main_v49) (funext fun a => Fin.ext ?_)
  match a with
    | ⟨0, _⟩ => show win0_8.index t (0 : Fin 2) * 64 + 1 * (y 0).val = (y 0).val; omega
    | ⟨1, _⟩ => show win0_8.index t (1 : Fin 2) * 4 + 1 * (y 1).val = (y 1).val; omega

theorem blk_whole9 (c : Dev nD) (t : Fin cfg0.N) : (iblk m c 9 t : S4.Idx → EReal) = Host.entered m c main_v50 := by
  funext y
  show V m c main_v50 (((cfg0.win 9).blk t).view.emb y) = V m c main_v50 y
  obtain ⟨e0, e1, e2, e3, e4, e5, e6, e7, e8, e9, e10, e11, e12, e13, e14, e15, e16, e17, e18, e19, e20⟩ := idx_facts t
  refine congrArg (V m c main_v50) (funext fun a => Fin.ext ?_)
  match a with
    | ⟨0, _⟩ => show win0_9.index t (0 : Fin 1) * 4 + 1 * (y 0).val = (y 0).val; omega

/-! Block row `r` of a data window at point `t` is row `512 t + r` of the argument array, which no host line wrote. -/

theorem blk_data0 (c : Dev nD) (t : Fin cfg0.N) (r k : Fin 512) (p : Fin 16384) (hp : p.val = 512 * t.val + r.val) :
    (iblk m c 0 t : S512x512.Idx → EReal) (ix2 r k) = (m ((c.tc : Thread nD τ).loc main_arg0)) (ix2 p k) := by
  show V m c main_arg0 (((cfg0.win 0).blk t).view.emb (ix2 r k)) = _
  rw [V_main_arg0]
  obtain ⟨e0, e1, e2, e3, e4, e5, e6, e7, e8, e9, e10, e11, e12, e13, e14, e15, e16, e17, e18, e19, e20⟩ := idx_facts t
  refine congrArg (m ((c.tc : Thread nD τ).loc main_arg0)) (funext fun a => Fin.ext ?_)
  match a with
    | ⟨0, _⟩ => show win0_0.index t (0 : Fin 2) * 512 + 1 * r.val = p.val; omega
    | ⟨1, _⟩ => show win0_0.index t (1 : Fin 2) * 512 + 1 * k.val = k.val; omega

theorem blk_data1 (c : Dev nD) (t : Fin cfg0.N) (r k : Fin 512) (p : Fin 16384) (hp : p.val = 512 * t.val + r.val) :
    (iblk m c 1 t : S512x512.Idx → EReal) (ix2 r k) = (m ((c.tc : Thread nD τ).loc main_arg1)) (ix2 p k) := by
  show V m c main_arg1 (((cfg0.win 1).blk t).view.emb (ix2 r k)) = _
  rw [V_main_arg1]
  obtain ⟨e0, e1, e2, e3, e4, e5, e6, e7, e8, e9, e10, e11, e12, e13, e14, e15, e16, e17, e18, e19, e20⟩ := idx_facts t
  refine congrArg (m ((c.tc : Thread nD τ).loc main_arg1)) (funext fun a => Fin.ext ?_)
  match a with
    | ⟨0, _⟩ => show win0_1.index t (0 : Fin 2) * 512 + 1 * r.val = p.val; omega
    | ⟨1, _⟩ => show win0_1.index t (1 : Fin 2) * 512 + 1 * k.val = k.val; omega

theorem blk_data2 (c : Dev nD) (t : Fin cfg0.N) (r k : Fin 512) (p : Fin 16384) (hp : p.val = 512 * t.val + r.val) :
    (iblk m c 2 t : S512x512.Idx → EReal) (ix2 r k) = (m ((c.tc : Thread nD τ).loc main_arg2)) (ix2 p k) := by
  show V m c main_arg2 (((cfg0.win 2).blk t).view.emb (ix2 r k)) = _
  rw [V_main_arg2]
  obtain ⟨e0, e1, e2, e3, e4, e5, e6, e7, e8, e9, e10, e11, e12, e13, e14, e15, e16, e17, e18, e19, e20⟩ := idx_facts t
  refine congrArg (m ((c.tc : Thread nD τ).loc main_arg2)) (funext fun a => Fin.ext ?_)
  match a with
    | ⟨0, _⟩ => show win0_2.index t (0 : Fin 2) * 512 + 1 * r.val = p.val; omega
    | ⟨1, _⟩ => show win0_2.index t (1 : Fin 2) * 512 + 1 * k.val = k.val; omega

/-- The seven weight blocks at any point hold the four gates' parameters side by side. -/
theorem fused_blocks (c : Dev nD) (t : Fin cfg0.N) :
    Spec.Fused (Host.gates m c) (iblk m c 3 t) (iblk m c 4 t) (iblk m c 5 t) (iblk m c 6 t) (iblk m c 7 t)
      (iblk m c 8 t) (iblk m c 9 t) := by
  rw [blk_whole3, blk_whole4, blk_whole5, blk_whole6, blk_whole7, blk_whole8, blk_whole9]
  exact Host.fused m c

/-! ## What each point writes back -/

/-- What point `t` writes back to the hidden-state array is block `t` of the specification's `hNext` of the argument arrays. -/
theorem flushedH_eq (c : Dev nD) (t : Fin cfg0.N) :
    (dats m 0 c).flushed 10 t = ((cfg0.win 10).blk t).view.read (Elt Ideal)
      (Spec.hNext (m ((c.tc : Thread nD τ).loc main_arg0)) (m ((c.tc : Thread nD τ).loc main_arg1)) (m ((c.tc : Thread nD τ).loc main_arg2)) (Host.gates m c)) := by
  show (cfg0.win 10).cut (grid0.coords t) ((dats m 0 c).after 10 t) = _
  rw [after_outH]
  unfold outH logits
  rw [View.canon_unit_zero hz2]
  simp only [View.ld_unit_zero (S := S512x512) hz2, View.ld_unit_zero (S := S512x2048) hz2, View.ld_unit_zero (S := S2048) hz1,
    View.ld_unit_zero (S := S2048x64) hz2, View.ld_unit_zero (S := S64) hz1, View.ld_unit_zero (S := S64x4) hz2,
    View.ld_unit_zero (S := S4) hz1]
  funext j
  obtain ⟨e0, e1, e2, e3, e4, e5, e6, e7, e8, e9, e10, e11, e12, e13, e14, e15, e16, e17, e18, e19, e20⟩ := idx_facts t
  have hj0 : (j 0).val < 512 := (j 0).isLt
  have hj1 : (j 1).val < 512 := (j 1).isLt
  have ht : t.val < 32 := lt_of_lt_of_eq t.isLt N_0
  have hemb : ((cfg0.win 10).blk t).view.emb j
      = ix2 (⟨512 * t.val + (j 0).val, by omega⟩ : Fin 16384) (⟨(j 1).val, hj1⟩ : Fin 512) := by
    funext a; apply Fin.ext
    match a with
    | ⟨0, _⟩ => show win0_10.index t (0 : Fin 2) * 512 + 1 * (j 0).val = 512 * t.val + (j 0).val; omega
    | ⟨1, _⟩ => show win0_10.index t (1 : Fin 2) * 512 + 1 * (j 1).val = (j 1).val; omega
  have hj : j = ix2 (⟨(j 0).val, hj0⟩ : Fin 512) (⟨(j 1).val, hj1⟩ : Fin 512) := by
    funext a; apply Fin.ext
    match a with
    | ⟨0, _⟩ => rfl
    | ⟨1, _⟩ => rfl
  show k0_pay3 (F := Ideal) (iblk m c 2 t) (k0_pay4 (iblk m c 0 t) (iblk m c 1 t) (iblk m c 3 t) (iblk m c 4 t) (iblk m c 5 t) (iblk m c 6 t) (iblk m c 7 t) (iblk m c 8 t) (iblk m c 9 t)) j
    = Spec.hNext (m ((c.tc : Thread nD τ).loc main_arg0)) (m ((c.tc : Thread nD τ).loc main_arg1)) (m ((c.tc : Thread nD τ).loc main_arg2)) (Host.gates m c) (((cfg0.win 10).blk t).view.emb j)
  rw [hemb, Spec.hNext_apply]
  refine (congrArg (k0_pay3 (F := Ideal) (iblk m c 2 t) (k0_pay4 (iblk m c 0 t) (iblk m c 1 t) (iblk m c 3 t) (iblk m c 4 t) (iblk m c 5 t) (iblk m c 6 t) (iblk m c 7 t) (iblk m c 8 t) (iblk m c 9 t))) hj).trans ?_
  exact Body.hidden_eq (m ((c.tc : Thread nD τ).loc main_arg0)) (m ((c.tc : Thread nD τ).loc main_arg1)) (m ((c.tc : Thread nD τ).loc main_arg2)) (Host.gates m c)
    (iblk m c 0 t) (iblk m c 1 t) (iblk m c 2 t) (iblk m c 3 t) (iblk m c 4 t) (iblk m c 5 t) (iblk m c 6 t) (iblk m c 7 t) (iblk m c 8 t) (iblk m c 9 t)
    (fused_blocks m c t) ⟨512 * t.val + (j 0).val, by omega⟩ ⟨(j 0).val, hj0⟩
    (fun k => blk_data0 m c t _ k _ rfl) (fun k => blk_data1 m c t _ k _ rfl) (fun d => blk_data2 m c t _ d _ rfl)
    ⟨(j 1).val, hj1⟩

/-- What point `t` writes back to the cell-state array is block `t` of the specification's `cNext` of the argument arrays. -/
theorem flushedC_eq (c : Dev nD) (t : Fin cfg0.N) :
    (dats m 0 c).flushed 11 t = ((cfg0.win 11).blk t).view.read (Elt Ideal)
      (Spec.cNext (m ((c.tc : Thread nD τ).loc main_arg0)) (m ((c.tc : Thread nD τ).loc main_arg1)) (m ((c.tc : Thread nD τ).loc main_arg2)) (Host.gates m c)) := by
  show (cfg0.win 11).cut (grid0.coords t) ((dats m 0 c).after 11 t) = _
  rw [after_outC]
  unfold outC logits
  rw [View.canon_unit_zero hz2]
  simp only [View.ld_unit_zero (S := S512x512) hz2, View.ld_unit_zero (S := S512x2048) hz2, View.ld_unit_zero (S := S2048) hz1,
    View.ld_unit_zero (S := S2048x64) hz2, View.ld_unit_zero (S := S64) hz1, View.ld_unit_zero (S := S64x4) hz2,
    View.ld_unit_zero (S := S4) hz1]
  funext j
  obtain ⟨e0, e1, e2, e3, e4, e5, e6, e7, e8, e9, e10, e11, e12, e13, e14, e15, e16, e17, e18, e19, e20⟩ := idx_facts t
  have hj0 : (j 0).val < 512 := (j 0).isLt
  have hj1 : (j 1).val < 512 := (j 1).isLt
  have ht : t.val < 32 := lt_of_lt_of_eq t.isLt N_0
  have hemb : ((cfg0.win 11).blk t).view.emb j
      = ix2 (⟨512 * t.val + (j 0).val, by omega⟩ : Fin 16384) (⟨(j 1).val, hj1⟩ : Fin 512) := by
    funext a; apply Fin.ext
    match a with
    | ⟨0, _⟩ => show win0_11.index t (0 : Fin 2) * 512 + 1 * (j 0).val = 512 * t.val + (j 0).val; omega
    | ⟨1, _⟩ => show win0_11.index t (1 : Fin 2) * 512 + 1 * (j 1).val = (j 1).val; omega
  have hj : j = ix2 (⟨(j 0).val, hj0⟩ : Fin 512) (⟨(j 1).val, hj1⟩ : Fin 512) := by
    funext a; apply Fin.ext
    match a with
    | ⟨0, _⟩ => rfl
    | ⟨1, _⟩ => rfl
  show k0_pay2 (F := Ideal) (iblk m c 2 t) (k0_pay4 (iblk m c 0 t) (iblk m c 1 t) (iblk m c 3 t) (iblk m c 4 t) (iblk m c 5 t) (iblk m c 6 t) (iblk m c 7 t) (iblk m c 8 t) (iblk m c 9 t)) j
    = Spec.cNext (m ((c.tc : Thread nD τ).loc main_arg0)) (m ((c.tc : Thread nD τ).loc main_arg1)) (m ((c.tc : Thread nD τ).loc main_arg2)) (Host.gates m c) (((cfg0.win 11).blk t).view.emb j)
  rw [hemb, Spec.cNext_apply]
  refine (congrArg (k0_pay2 (F := Ideal) (iblk m c 2 t) (k0_pay4 (iblk m c 0 t) (iblk m c 1 t) (iblk m c 3 t) (iblk m c 4 t) (iblk m c 5 t) (iblk m c 6 t) (iblk m c 7 t) (iblk m c 8 t) (iblk m c 9 t))) hj).trans ?_
  exact Body.cell_eq (m ((c.tc : Thread nD τ).loc main_arg0)) (m ((c.tc : Thread nD τ).loc main_arg1)) (m ((c.tc : Thread nD τ).loc main_arg2)) (Host.gates m c)
    (iblk m c 0 t) (iblk m c 1 t) (iblk m c 2 t) (iblk m c 3 t) (iblk m c 4 t) (iblk m c 5 t) (iblk m c 6 t) (iblk m c 7 t) (iblk m c 8 t) (iblk m c 9 t)
    (fused_blocks m c t) ⟨512 * t.val + (j 0).val, by omega⟩ ⟨(j 0).val, hj0⟩
    (fun k => blk_data0 m c t _ k _ rfl) (fun k => blk_data1 m c t _ k _ rfl) (fun d => blk_data2 m c t _ d _ rfl)
    ⟨(j 1).val, hj1⟩

/-! ## The blocks fill the arrays -/

/-- An index of the array is in point `t`'s block iff each coordinate is in the block's range on its axis. -/
theorem mem_blkH (t : Fin cfg0.N) (i : S16384x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v51_0).slice (win0_10.rect t)).set ↔ _
  rw [View.set_slice_whole, Rect.mem_set_unit]
  exact Iff.rfl

/-- The 32 blocks of 512 rows fill the array: row `r` is in block `r / 512`. -/
theorem coverH (i : S16384x512.Idx) :
    ∃ t : Fin cfg0.N, (cfg0.win 10).flush t = true ∧ i ∈ ((cfg0.win 10).blk t).view.set := by
  have hi0 : (i 0).val < 16384 := (i 0).isLt
  have hi1 : (i 1).val < 512 := (i 1).isLt
  have hlt : (i 0).val / 512 < cfg0.N := by rw [show cfg0.N = 32 from N_0]; omega
  refine ⟨⟨(i 0).val / 512, hlt⟩, flush0_10 _, ?_⟩
  rw [mem_blkH]
  obtain ⟨e0, e1, e2, e3, e4, e5, e6, e7, e8, e9, e10, e11, e12, e13, e14, e15, e16, e17, e18, e19, e20⟩ := idx_facts ⟨(i 0).val / 512, hlt⟩
  intro a
  match a with
  | ⟨0, _⟩ =>
    show win0_10.index ⟨(i 0).val / 512, hlt⟩ (0 : Fin 2) * 512 ≤ (i 0).val ∧ (i 0).val < win0_10.index ⟨(i 0).val / 512, hlt⟩ (0 : Fin 2) * 512 + 512
    rw [e17]
    show (i 0).val / 512 * 512 ≤ (i 0).val ∧ (i 0).val < (i 0).val / 512 * 512 + 512
    omega
  | ⟨1, _⟩ =>
    show win0_10.index ⟨(i 0).val / 512, hlt⟩ (1 : Fin 2) * 512 ≤ (i 1).val ∧ (i 1).val < win0_10.index ⟨(i 0).val / 512, hlt⟩ (1 : Fin 2) * 512 + 512
    rw [e18]
    omega

/-- An index of the array is in point `t`'s block iff each coordinate is in the block's range on its axis. -/
theorem mem_blkC (t : Fin cfg0.N) (i : S16384x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v51_1).slice (win0_11.rect t)).set ↔ _
  rw [View.set_slice_whole, Rect.mem_set_unit]
  exact Iff.rfl

/-- The 32 blocks of 512 rows fill the array: row `r` is in block `r / 512`. -/
theorem coverC (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  have hlt : (i 0).val / 512 < cfg0.N := by rw [show cfg0.N = 32 from N_0]; omega
  refine ⟨⟨(i 0).val / 512, hlt⟩, flush0_11 _, ?_⟩
  rw [mem_blkC]
  obtain ⟨e0, e1, e2, e3, e4, e5, e6, e7, e8, e9, e10, e11, e12, e13, e14, e15, e16, e17, e18, e19, e20⟩ := idx_facts ⟨(i 0).val / 512, hlt⟩
  intro a
  match a with
  | ⟨0, _⟩ =>
    show win0_11.index ⟨(i 0).val / 512, hlt⟩ (0 : Fin 2) * 512 ≤ (i 0).val ∧ (i 0).val < win0_11.index ⟨(i 0).val / 512, hlt⟩ (0 : Fin 2) * 512 + 512
    rw [e19]
    show (i 0).val / 512 * 512 ≤ (i 0).val ∧ (i 0).val < (i 0).val / 512 * 512 + 512
    omega
  | ⟨1, _⟩ =>
    show win0_11.index ⟨(i 0).val / 512, hlt⟩ (1 : Fin 2) * 512 ≤ (i 1).val ∧ (i 1).val < win0_11.index ⟨(i 0).val / 512, hlt⟩ (1 : Fin 2) * 512 + 512
    rw [e20]
    omega

/-- The hidden-state array after the run. -/
theorem finalH (c : Dev nD) : (dats m 0 c).arrAt 10 cfg0.N = Spec.hNext (m ((c.tc : Thread nD τ).loc main_arg0)) (m ((c.tc : Thread nD τ).loc main_arg1)) (m ((c.tc : Thread nD τ).loc main_arg2)) (Host.gates m c) :=
  (dats m 0 c).arrAt_eq_of_cover 10 (Spec.hNext (m ((c.tc : Thread nD τ).loc main_arg0)) (m ((c.tc : Thread nD τ).loc main_arg1)) (m ((c.tc : Thread nD τ).loc main_arg2)) (Host.gates m c)) (fun t _ => flushedH_eq m c t) coverH

/-- The cell-state array after the run. -/
theorem finalC (c : Dev nD) : (dats m 0 c).arrAt 11 cfg0.N = Spec.cNext (m ((c.tc : Thread nD τ).loc main_arg0)) (m ((c.tc : Thread nD τ).loc main_arg1)) (m ((c.tc : Thread nD τ).loc main_arg2)) (Host.gates m c) :=
  (dats m 0 c).arrAt_eq_of_cover 11 (Spec.cNext (m ((c.tc : Thread nD τ).loc main_arg0)) (m ((c.tc : Thread nD τ).loc main_arg1)) (m ((c.tc : Thread nD τ).loc main_arg2)) (Host.gates m c)) (fun t _ => flushedC_eq m c t) coverC

/-! ## The run, read -/

/-- Every weakly fair execution of the idealized kernel's @main ends with its first result at `Spec.hNext`, its
    second at `Spec.cNext`, of the argument arrays, and the argument arrays unchanged. -/
theorem run : θ_run (defs (F := Ideal)) (onTc (τ := τ) (main (F := Ideal))) ⟨m, fun _ => 0, ρ⟩ fun r => ∀ c : Dev nD,
      r.2.mem ((c.tc : Thread nD τ).loc main_v51_0) = Spec.hNext (m ((c.tc : Thread nD τ).loc main_arg0)) (m ((c.tc : Thread nD τ).loc main_arg1)) (m ((c.tc : Thread nD τ).loc main_arg2)) (Host.gates m c)
      ∧ r.2.mem ((c.tc : Thread nD τ).loc main_v51_1) = Spec.cNext (m ((c.tc : Thread nD τ).loc main_arg0)) (m ((c.tc : Thread nD τ).loc main_arg1)) (m ((c.tc : Thread nD τ).loc main_arg2)) (Host.gates m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c => ⟨((h c).1 10).trans (finalH m c), ((h c).1 11).trans (finalC m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩)
    (run_main m ρ)

end Cert.KernelIdeal.HandValue

end
-- ==== Proof.RefSide.lean ====
/-
  The reference program's run, read as the specification: its two results are `Spec.hNext` and `Spec.cNext` of its
  argument arrays.
-/
import proofs.«115885_j65481071407962_2_alg».proof.Proof.Gen.ReferenceIdeal.Read
import proofs.«115885_j65481071407962_2_alg».proof.Proof.Spec

noncomputable section

namespace Cert.RefSide

open Cert.ReferenceIdeal Idealize.ShloMosaic Idealize.ShloMosaic.TcCoe Idealize.SL.Sem

/-! ## One gate, stage by stage

The four gates are the same chain of operations on different parameter arrays, so each fact is stated once over
variables for the arrays and read at an index given by its coordinates. -/

section Stages

open Cert.ReferenceIdeal.Read Idealize.ShloMosaic.ValueIdx

/-- The word `0x3F800000` is the number one. -/
theorem ofBits_one_f32 : Ideal.ofBits .f32 0x3F800000#32 = 1 := by
  simp [Ideal.ofBits, Ideal.ieee, -EReal.coe_mul]; norm_num

/-- A sum over 1024 terms is the sum of the first 512 plus the sum of the last 512. -/
theorem sum_split_1024 (f : Fin 1024 → EReal) :
    ∑ k : Fin 1024, f k
      = (∑ k : Fin 512, f (⟨k.val, by omega⟩ : Fin 1024)) + ∑ k : Fin 512, f (⟨512 + k.val, by omega⟩ : Fin 1024) :=
  (Fin.sum_univ_add (a := 512) (b := 512) f).trans rfl

variable (x0 x1 x2 : (⟨S16384x512, .f32⟩ : BufTy).Contents (Elt Ideal))
  (W : (⟨S1024x512, .f32⟩ : BufTy).Contents (Elt Ideal)) (b : (⟨S512, .f32⟩ : BufTy).Contents (Elt Ideal))
  (W1 : (⟨S512x16, .f32⟩ : BufTy).Contents (Elt Ideal)) (b1 : (⟨S16, .f32⟩ : BufTy).Contents (Elt Ideal))
  (W2 : (⟨S16x1, .f32⟩ : BufTy).Contents (Elt Ideal)) (b2 : (⟨S1, .f32⟩ : BufTy).Contents (Elt Ideal))

/-- The row `[x | h]` at a column below 512 is `x`'s entry. -/
theorem concat_left (p : Fin 16384) (k : Fin 512) (j : S16384x1024.Idx)
    (h0 : (j 0).val = p.val) (h1 : (j 1).val = k.val) :
    val_main_v0 (F := Ideal) x0 x1 j = x0 (ix2 p k) := by
  unfold val_main_v0
  exact concatenate_pair_apply_left 1 x0 x1 _ j rfl (ix2 p k)
    (fun a => match a with | ⟨0, _⟩ => h0.symm | ⟨1, _⟩ => h1.symm)

/-- The row `[x | h]` at a column `512 + k` is `h`'s entry `k`. -/
theorem concat_right (p : Fin 16384) (k : Fin 512) (j : S16384x1024.Idx)
    (h0 : (j 0).val = p.val) (h1 : (j 1).val = 512 + k.val) :
    val_main_v0 (F := Ideal) x0 x1 j = x1 (ix2 p k) := by
  unfold val_main_v0
  exact concatenate_pair_apply_right 1 x0 x1 _ j rfl rfl (ix2 p k)
    (fun a => match a with | ⟨0, _⟩ => fun _ => h0.symm | ⟨1, _⟩ => fun hne => absurd rfl hne)
    (by show k.val + 512 = (j 1).val; omega)

/-- One gate's parameters as a `Spec.Gate`. -/
abbrev gateOf : Spec.Gate := ⟨W, b, W1, b1, W2, b2⟩

/-- The main layer plus its bias, at row `p`, column `d`: the one sum over the 1024-long row `[x | h]` is the sum
    over `x`'s entries against the first 512 rows of `W` plus the sum over `h`'s against the last 512. -/
theorem pre_eq (p : Fin 16384) (d : Fin 512) :
    val_main_v4 (F := Ideal) x0 x1 W b (ix2 p d) = Spec.pre x0 x1 (gateOf W b W1 b1 W2 b2) p d := by
  rw [val_main_v4_apply, val_main_v1_apply, val_main_v3_apply, val_main_v2_apply, Ideal.addf_def, sum_split_1024]
  unfold Spec.pre
  refine congrArg₂ (· + ·) (congrArg₂ (· + ·) (Finset.sum_congr rfl fun k _ => ?_) (Finset.sum_congr rfl fun k _ => ?_))
    (congrArg b (funext fun a => match a with | ⟨0, _⟩ => rfl))
  · exact congrArg₂ (· * ·) (concat_left x0 x1 p k _ rfl rfl)
      (congrArg W (funext fun a => match a with | ⟨0, _⟩ => rfl | ⟨1, _⟩ => rfl))
  · exact congrArg₂ (· * ·) (concat_right x0 x1 p k _ rfl rfl)
      (congrArg W (funext fun a => match a with | ⟨0, _⟩ => rfl | ⟨1, _⟩ => rfl))

/-- Hidden unit `j` of the gate's small network on row `p`; the rectifier's zero word is the number zero. -/
theorem hidden_eq (p : Fin 16384) (j : Fin 16) :
    val_main_v9 (F := Ideal) x0 x1 W b W1 b1 (ix2 p j) = Spec.hidden x0 x1 (gateOf W b W1 b1 W2 b2) p j := by
  rw [val_main_v9_apply, val_main_v8_apply, val_main_v5_apply, val_main_v7_apply, val_main_v6_apply,
    val_main_call0_v0_apply, val_main_call0_cst_apply, Ideal.maximumf_def, Ideal.addf_def, Ideal.ofBits_def,
    Ideal.ofBits_zero_f32]
  unfold Spec.hidden
  refine congrArg (fun t : EReal => max t 0) (congrArg₂ (· + ·) (Finset.sum_congr rfl fun d _ => ?_)
    (congrArg b1 (funext fun a => match a with | ⟨0, _⟩ => rfl)))
  exact congrArg₂ (· * ·)
    ((congrArg (val_main_v4 (F := Ideal) x0 x1 W b)
        (show lidx_main_v5 (ix2 p j) d = ix2 p d from funext fun a => match a with | ⟨0, _⟩ => rfl | ⟨1, _⟩ => rfl)).trans
      (pre_eq x0 x1 W b W1 b1 W2 b2 p d))
    (congrArg W1 (funext fun a => match a with | ⟨0, _⟩ => rfl | ⟨1, _⟩ => rfl))

/-- The gate's number for row `p`. -/
theorem act_eq (p : Fin 16384) :
    val_main_v14 (F := Ideal) x0 x1 W b W1 b1 W2 b2 (ix2 p (0 : Fin 1)) = Spec.act x0 x1 (gateOf W b W1 b1 W2 b2) p := by
  rw [val_main_v14_apply, val_main_v13_apply, val_main_v10_apply, val_main_v12_apply, val_main_v11_apply,
    Ideal.hostUnary_tanh_def, Ideal.addf_def]
  unfold Spec.act
  refine congrArg Ideal.tanh (congrArg₂ (· + ·) (Finset.sum_congr rfl fun j _ => ?_)
    (congrArg b2 (funext fun a => match a with | ⟨0, _⟩ => rfl)))
  exact congrArg₂ (· * ·)
    ((congrArg (val_main_v9 (F := Ideal) x0 x1 W b W1 b1)
        (show lidx_main_v10 (ix2 p (0 : Fin 1)) j = ix2 p j from
          funext fun a => match a with | ⟨0, _⟩ => rfl | ⟨1, _⟩ => rfl)).trans
      (hidden_eq x0 x1 W b W1 b1 W2 b2 p j))
    (congrArg W2 (funext fun a => match a with | ⟨0, _⟩ => rfl | ⟨1, _⟩ => rfl))

/-- The logistic function as the program spells it: one over one plus the exponential of the negation, with the
    word for one. -/
theorem logistic_spelt (t : EReal) :
    Ideal.div (Ideal.ofBits .f32 0x3F800000#32) (Ideal.ofBits .f32 0x3F800000#32 + Ideal.exp (-t))
      = Ideal.logistic t := by
  rw [ofBits_one_f32]; rfl

/-- The logistic function of the gate's number for row `p`. -/
theorem sigm_eq (p : Fin 16384) :
    val_main_v20 (F := Ideal) x0 x1 W b W1 b1 W2 b2 (ix2 p (0 : Fin 1))
      = Ideal.logistic (Spec.act x0 x1 (gateOf W b W1 b1 W2 b2) p) := by
  rw [val_main_v20_apply, val_main_v19_apply, val_main_cst_0_apply, val_main_v18_apply, val_main_v17_apply,
    val_main_cst_apply, val_main_v16_apply, val_main_v15_apply, act_eq, Ideal.hostDivf_def, Ideal.ofBits_def,
    Ideal.addf_def, Ideal.hostUnary_exp_def, Ideal.hostNegf_def, Ideal.negf_def]
  exact logistic_spelt _

/-! ## The four gates and the cell

The second, third and fourth gates are the first gate's chain of operations on their own parameter arrays. -/

theorem gate_i_eq :
    val_main_v40 (F := Ideal) x0 x1 W b W1 b1 W2 b2 = val_main_v20 (F := Ideal) x0 x1 W b W1 b1 W2 b2 := rfl
theorem gate_u_eq :
    val_main_v54 (F := Ideal) x0 x1 W b W1 b1 W2 b2 = val_main_v14 (F := Ideal) x0 x1 W b W1 b1 W2 b2 := rfl
theorem gate_o_eq :
    val_main_v75 (F := Ideal) x0 x1 W b W1 b1 W2 b2 = val_main_v20 (F := Ideal) x0 x1 W b W1 b1 W2 b2 := rfl

theorem gates4_0 (gf gi gu go : Spec.Gate) : Spec.gates4 gf gi gu go 0 = gf := rfl
theorem gates4_1 (gf gi gu go : Spec.Gate) : Spec.gates4 gf gi gu go 1 = gi := rfl
theorem gates4_2 (gf gi gu go : Spec.Gate) : Spec.gates4 gf gi gu go 2 = gu := rfl
theorem gates4_3 (gf gi gu go : Spec.Gate) : Spec.gates4 gf gi gu go 3 = go := rfl

variable (Wi : (⟨S1024x512, .f32⟩ : BufTy).Contents (Elt Ideal)) (bi : (⟨S512, .f32⟩ : BufTy).Contents (Elt Ideal))
  (W1i : (⟨S512x16, .f32⟩ : BufTy).Contents (Elt Ideal)) (b1i : (⟨S16, .f32⟩ : BufTy).Contents (Elt Ideal))
  (W2i : (⟨S16x1, .f32⟩ : BufTy).Contents (Elt Ideal)) (b2i : (⟨S1, .f32⟩ : BufTy).Contents (Elt Ideal))
  (Wu : (⟨S1024x512, .f32⟩ : BufTy).Contents (Elt Ideal)) (bu : (⟨S512, .f32⟩ : BufTy).Contents (Elt Ideal))
  (W1u : (⟨S512x16, .f32⟩ : BufTy).Contents (Elt Ideal)) (b1u : (⟨S16, .f32⟩ : BufTy).Contents (Elt Ideal))
  (W2u : (⟨S16x1, .f32⟩ : BufTy).Contents (Elt Ideal)) (b2u : (⟨S1, .f32⟩ : BufTy).Contents (Elt Ideal))
  (Wo : (⟨S1024x512, .f32⟩ : BufTy).Contents (Elt Ideal)) (bo : (⟨S512, .f32⟩ : BufTy).Contents (Elt Ideal))
  (W1o : (⟨S512x16, .f32⟩ : BufTy).Contents (Elt Ideal)) (b1o : (⟨S16, .f32⟩ : BufTy).Contents (Elt Ideal))
  (W2o : (⟨S16x1, .f32⟩ : BufTy).Contents (Elt Ideal)) (b2o : (⟨S1, .f32⟩ : BufTy).Contents (Elt Ideal))

/-- A per-row number `[B, 1]` spread over the 512 columns is read at column 0. -/
theorem col0 (p : Fin 16384) (j : S16384x1.Idx)
    (h0 : (j 0).val = p.val) (h1 : (j 1).val = 0) : j = ix2 p (0 : Fin 1) :=
  funext fun a => match a with
    | ⟨0, _⟩ => Fin.ext h0
    | ⟨1, _⟩ => Fin.ext h1

/-- The new cell state at row `p`, column `d`. -/
theorem c_eq (p : Fin 16384) (d : Fin 512) :
    val_main_v80 (F := Ideal) x0 x1 x2 W b W1 b1 W2 b2 Wi bi W1i b1i W2i b2i Wu bu W1u b1u W2u b2u (ix2 p d)
      = Ideal.logistic (Spec.act x0 x1 (gateOf W b W1 b1 W2 b2) p) * x2 (ix2 p d)
        + Ideal.logistic (Spec.act x0 x1 (gateOf Wi bi W1i b1i W2i b2i) p)
          * Ideal.tanh (Spec.act x0 x1 (gateOf Wu bu W1u b1u W2u b2u) p) := by
  rw [val_main_v80_apply, val_main_v77_apply, val_main_v76_apply, val_main_v79_apply, val_main_v78_apply,
    val_main_v55_apply, col0 p (idx_main_v76 (ix2 p d)) rfl rfl, col0 p (idx_main_v79 (ix2 p d)) rfl rfl,
    sigm_eq, gate_i_eq, sigm_eq, gate_u_eq, act_eq]
  rfl

/-- The new hidden state at row `p`, column `d`. -/
theorem h_eq (p : Fin 16384) (d : Fin 512) :
    val_main_v83 (F := Ideal) x0 x1 x2 W b W1 b1 W2 b2 Wi bi W1i b1i W2i b2i Wu bu W1u b1u W2u b2u
        Wo bo W1o b1o W2o b2o (ix2 p d)
      = Ideal.logistic (Spec.act x0 x1 (gateOf Wo bo W1o b1o W2o b2o) p)
        * Ideal.tanh (Ideal.logistic (Spec.act x0 x1 (gateOf W b W1 b1 W2 b2) p) * x2 (ix2 p d)
          + Ideal.logistic (Spec.act x0 x1 (gateOf Wi bi W1i b1i W2i b2i) p)
            * Ideal.tanh (Spec.act x0 x1 (gateOf Wu bu W1u b1u W2u b2u) p)) := by
  rw [val_main_v83_apply, val_main_v82_apply, val_main_v81_apply, c_eq,
    col0 p (idx_main_v82 (ix2 p d)) rfl rfl, gate_o_eq, sigm_eq]
  rfl

end Stages

variable (m : (ℓ : Loc nD τ sig) → Buf (Elt Ideal) ℓ)

/-- The four gates' parameters as the reference finds them in memory `m` on core `c`. -/
def gates (c : Dev nD) : Fin 4 → Spec.Gate :=
  Spec.gates4
    ⟨m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
    ⟨m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14)⟩
    ⟨m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20)⟩
    ⟨m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26)⟩

/-- Every weakly fair execution of the reference ends with its first result at `Spec.hNext`, its second at
    `Spec.cNext`, of the argument arrays, and the argument arrays unchanged. -/
theorem run_spec (ρ : Dev nD → PrngReg) :
    θ_run (defs (F := Ideal)) (onTc (τ := τ) (main (F := Ideal))) ⟨m, fun _ => 0, ρ⟩ fun r => ∀ c : Dev nD,
      r.2.mem ((c.tc : Thread nD τ).loc main_v83)
        = Spec.hNext (m ((c.tc : Thread nD τ).loc main_arg0)) (m ((c.tc : Thread nD τ).loc main_arg1)) (m ((c.tc : Thread nD τ).loc main_arg2)) (gates m c)
      ∧ r.2.mem ((c.tc : Thread nD τ).loc main_v80)
        = Spec.cNext (m ((c.tc : Thread nD τ).loc main_arg0)) (m ((c.tc : Thread nD τ).loc main_arg1)) (m ((c.tc : Thread nD τ).loc main_arg2)) (gates m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) := by
  refine (θ_run _ _ _).mono (fun _ h c => ⟨(h c).1.trans ?hNext, (h c).2.1.trans ?cNext, (h c).2.2⟩)
    (Cert.ReferenceIdeal.Value.run (F := Ideal) m ρ)
  case hNext =>
    rw [Read.val_main_v83_eq]
    funext i
    obtain ⟨p, d, rfl⟩ : ∃ (p : Fin 16384) (d : Fin 512), i = ValueIdx.ix2 p d := ⟨i 0, i 1, ValueIdx.eq_ix2 i⟩
    rw [Spec.hNext_apply]
    unfold Spec.hAt Spec.cAt gates
    rw [gates4_0, gates4_1, gates4_2, gates4_3]
    exact h_eq _ _ _ _ _ _ _ _ _ _ _ _ _ _ _ _ _ _ _ _ _ _ _ _ _ _ _ p d
  case cNext =>
    refine (Read.val_main_v80_eq _ _ _ _ _ _ _ _ _ _ _ _ _ _ _ _ _ _ _ _ _).trans ?_
    funext i
    obtain ⟨p, d, rfl⟩ : ∃ (p : Fin 16384) (d : Fin 512), i = ValueIdx.ix2 p d := ⟨i 0, i 1, ValueIdx.eq_ix2 i⟩
    rw [Spec.cNext_apply]
    unfold Spec.cAt gates
    rw [gates4_0, gates4_1, gates4_2]
    exact c_eq _ _ _ _ _ _ _ _ _ _ _ _ _ _ _ _ _ _ _ _ _ p d

end Cert.RefSide

end
-- ==== Proof.lean ====
/-
  The certificate's claims, assembled.

  All three programs compute, for each of the 16384 rows, four gate numbers
  `a_n = tanh (relu ([x | h] W_n + b_n) W1_n + b1_n) W2_n + b2_n` (n = f, i, u, o) and from them the new cell state
  `c' = σ(a_f) c + σ(a_i) tanh(a_u)` and hidden state `h' = σ(a_o) tanh(c')`: the function `Spec.cNext` / `Spec.hNext`
  of the 27 argument arrays (Proof/Spec.lean).  The reference computes it gate by gate with one product over the
  1024-long row `[x | h]` (Proof/RefSide.lean).  The kernel computes it 512 rows at a time from weight arrays its host
  prelude built: the main layers' columns side by side and the small networks' matrices on the diagonal of matrices
  that are zero elsewhere (Proof/HostWeights.lean), so that three products do the work of sixteen; a product with a
  zero entry is zero on the extended reals whatever the other factor, so the fused sums collapse to the gates' own
  (Proof/FusedMath.lean, Proof/BodyMath.lean), and the 32 blocks fill the result arrays (Proof/KernelValue.lean).
  The two sides are therefore equal entry by entry, with no finiteness used.

  The frames: the kernel's program is 69 host lines, then one launch over a grid of 32 points; each program's run is
  read off the launch theorem of the pipeline library with the body's triple proved by symbolic execution
  (Proof/EntryK*.lean, Proof/BodyRunK*.lean, Proof/FrameK*.lean, once for the word-level program and once for its
  idealization); the reference is a straight line of host operations, its frame its generated run with the results
  dropped.  The idealization rewrote nothing, so `preserves` is trivial.
-/
import proofs.«115885_j65481071407962_2_alg».proof.Defs
import proofs.«115885_j65481071407962_2_alg».proof.Proof.Gen.Kernel
import proofs.«115885_j65481071407962_2_alg».proof.Proof.Gen.KernelIdeal
import proofs.«115885_j65481071407962_2_alg».proof.Proof.Gen.ReferenceIdeal
import proofs.«115885_j65481071407962_2_alg».proof.Proof.Gen.Pre_finite_inputs
import proofs.«115885_j65481071407962_2_alg».proof.Proof.Gen.ReferenceIdeal.Read
import proofs.«115885_j65481071407962_2_alg».proof.Proof.FrameK
import proofs.«115885_j65481071407962_2_alg».proof.Proof.KernelValue
import proofs.«115885_j65481071407962_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel's program runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.RefSide.run_spec m ρ)

/-- The idealization rewrote no operation. -/
theorem preserves : Cert.preserves_Kernel_KernelIdeal := trivial

/-- From memories agreeing on the 27 arguments, the idealized kernel's two result arrays and the reference's are the
    same functions `Spec.hNext`, `Spec.cNext` of the arguments. -/
theorem algebraic : Cert.algebraic_KernelIdeal_ReferenceIdeal := by
  intro m ρ m' ρ' _ hagree
  refine ⟨fun c => Cert.Spec.hNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Host.gates m c),
    fun c => Cert.Spec.cNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Host.gates m c),
    Cert.KernelIdeal.HandValue.run m ρ, ?_⟩
  refine (θ_run Cert.ReferenceIdeal.defs _ _).mono (fun _ h c => ?_) (Cert.RefSide.run_spec m' ρ')
  obtain ⟨a0, a1, a2, a3, a4, a5, a6, a7, a8, a9, a10, a11, a12, a13, a14, a15, a16, a17, a18, a19, a20, a21, a22, a23, a24, a25, a26⟩ := hagree c
  have hg : Cert.RefSide.gates m' c = Cert.KernelIdeal.Host.gates m c := by
    unfold Cert.RefSide.gates Cert.KernelIdeal.Host.gates
    simp only [a3, a4, a5, a6, a7, a8, a9, a10, a11, a12, a13, a14, a15, a16, a17, a18, a19, a20, a21, a22, a23, a24, a25, a26]
  refine ⟨(h c).1.trans ?_, (h c).2.1.trans ?_, (h c).2.2⟩
  · rw [a0, a1, a2, hg]
  · rw [a0, a1, a2, hg]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
